-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x64x21x128 : Shape := ⟨4, ![8, 64, 21, 128]⟩
abbrev S128x256 : Shape := ⟨2, ![128, 256]⟩
abbrev S256 : Shape := ⟨1, ![256]⟩
abbrev S_ : Shape := ⟨0, ![]⟩

class Facts : Prop where
  bcast_S_S8x64x21x128 : S_.BroadcastsInDim S8x64x21x128 (![] : Fin 0 → Fin S8x64x21x128.rank)
  reducesTo_S8x64x21x128_S_d0_1_2_3 : S8x64x21x128.ReducesTo [0, 1, 2, 3] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  main_v23

def fn {F : FTy → Type} [FloatOps F] (main_arg0 : FVec F S8x64x21x128 .f32) (main_arg1 : FVec F S128x256 .f32) (main_arg2 : FVec F S256 .f32) (main_arg3 : FVec F S256 .f32) (main_arg4 : FVec F S256 .f32) : IVec S_ 1 :=
  let main_v0 : FVec F S8x64x21x128 .f32 := Host.absf main_arg0
  let main_cst : FVec F S_ .f32 := constant S_ .f32 0x7F800000#32
  let main_v1 : FVec F S8x64x21x128 .f32 := broadcastInDim S8x64x21x128 ![] bcast_S_S8x64x21x128 main_cst
  let main_v2 : IVec S8x64x21x128 1 := cmpf .olt main_v0 main_v1
  let main_c : IVec S_ 1 := constantI S_ 1 1#1
  let main_v3 : IVec S_ 1 := (fun x v => Host.reduce IntOp.andi x v reducesTo_S8x64x21x128_S_d0_1_2_3 h_S_) main_v2 main_c
  let main_v4 : FVec F S128x256 .f32 := Host.absf main_arg1
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_v13 main_v16
-- ==== Kernel.lean ====
abbrev S8x64x21x128 : Shape := ⟨4, ![8, 64, 21, 128]⟩
abbrev S128x256 : Shape := ⟨2, ![128, 256]⟩
abbrev S256 : Shape := ⟨1, ![256]⟩
abbrev S21x128 : Shape := ⟨2, ![21, 128]⟩
abbrev S_ : Shape := ⟨0, ![]⟩
abbrev S8x64x21x128x1 : Shape := ⟨5, ![8, 64, 21, 128, 1]⟩
abbrev S1 : Shape := ⟨1, ![1]⟩
abbrev S1x1x1x1x1 : Shape := ⟨5, ![1, 1, 1, 1, 1]⟩
abbrev S10752x128 : Shape := ⟨2, ![10752, 128]⟩
abbrev S1x256 : Shape := ⟨2, ![1, 256]⟩
abbrev S1344x128 : Shape := ⟨2, ![1344, 128]⟩
abbrev S1344x256 : Shape := ⟨2, ![1344, 256]⟩
abbrev S10752x256 : Shape := ⟨2, ![10752, 256]⟩
abbrev S8x64x21x256 : Shape := ⟨4, ![8, 64, 21, 256]⟩

abbrev nBuf : Space → Nat
  | .hbm => 54
  | .vmem => 16
  | .smem => 0
  | _ => 0

abbrev bufTy : (tb : Table) → Fin (tcTables nBuf tb) → BufTy
  | .hbm, ⟨0, _⟩ => ⟨S8x64x21x128, .f32⟩
  | .hbm, ⟨1, _⟩ => ⟨S128x256, .f32⟩
  | .hbm, ⟨2, _⟩ => ⟨S256, .f32⟩
  | .hbm, ⟨3, _⟩ => ⟨S256, .f32⟩
  | .hbm, ⟨4, _⟩ => ⟨S256, .f32⟩
  | .hbm, ⟨5, _⟩ => ⟨S21x128, .i32⟩
  | .hbm, ⟨6, _⟩ => ⟨S8x64x21x128, .i32⟩
  | .hbm, ⟨7, _⟩ => ⟨S_, .i32⟩
  | .hbm, ⟨8, _⟩ => ⟨S8x64x21x128, .i32⟩
  | .hbm, ⟨9, _⟩ => ⟨S8x64x21x128, .i1⟩
  | .hbm, ⟨10, _⟩ => ⟨S_, .i32⟩
  | .hbm, ⟨11, _⟩ => ⟨S8x64x21x128, .i32⟩
  | .hbm, ⟨12, _⟩ => ⟨S8x64x21x128, .i32⟩
  | .hbm, ⟨13, _⟩ => ⟨S8x64x21x128, .i32⟩
  | .hbm, ⟨14, _⟩ => ⟨S8x64x21x128x1, .i32⟩
  | .hbm, ⟨15, _⟩ => ⟨S1, .i32⟩
  | .hbm, ⟨16, _⟩ => ⟨S_, .i32⟩
  | .hbm, ⟨17, _⟩ => ⟨S8x64x21x128x1, .i32⟩
  | .hbm, ⟨18, _⟩ => ⟨S8x64x21x128x1, .i1⟩
  | .hbm, ⟨19, _⟩ => ⟨S1x1x1x1x1, .i32⟩
  | .hbm, ⟨20, _⟩ => ⟨S8x64x21x128x1, .i32⟩
  | .hbm, ⟨21, _⟩ => ⟨S8x64x21x128x1, .i1⟩
  | .hbm, ⟨22, _⟩ => ⟨S8x64x21x128x1, .i1⟩
  | .hbm, ⟨23, _⟩ => ⟨S_, .i1⟩
  | .hbm, ⟨24, _⟩ => ⟨S8x64x21x128, .i1⟩
  | .hbm, ⟨25, _⟩ => ⟨S8x64x21x128, .f32⟩
  | .hbm, ⟨26, _⟩ => ⟨S_, .f32⟩
  | .hbm, ⟨27, _⟩ => ⟨S8x64x21x128, .f32⟩
  | .hbm, ⟨28, _⟩ => ⟨S8x64x21x128, .f32⟩
  | .hbm, ⟨29, _⟩ => ⟨S10752x128, .f32⟩
  | .hbm, ⟨30, _⟩ => ⟨S1x256, .f32⟩
  | .hbm, ⟨31, _⟩ => ⟨S1x256, .f32⟩
  | .hbm, ⟨32, _⟩ => ⟨S1x256, .f32⟩
  | .hbm, ⟨33, _⟩ => ⟨S256, .f32⟩
  | .hbm, ⟨34, _⟩ => ⟨S_, .f32⟩
  | .hbm, ⟨35, _⟩ => ⟨S256, .f32⟩
  | .hbm, ⟨36, _⟩ => ⟨S256, .f32⟩
  | .hbm, ⟨37, _⟩ => ⟨S256, .f32⟩
  | .hbm, ⟨38, _⟩ => ⟨S_, .f32⟩
  | .hbm, ⟨39, _⟩ => ⟨S256, .f32⟩
  | .hbm, ⟨40, _⟩ => ⟨S256, .f32⟩
  | .hbm, ⟨41, _⟩ => ⟨S256, .f32⟩
  | .hbm, ⟨42, _⟩ => ⟨S256, .f32⟩
  | .hbm, ⟨43, _⟩ => ⟨S_, .f32⟩
  | .hbm, ⟨44, _⟩ => ⟨S256, .f32⟩
  | .hbm, ⟨45, _⟩ => ⟨S256, .f32⟩
  | .hbm, ⟨46, _⟩ => ⟨S256, .f32⟩
  | .hbm, ⟨47, _⟩ => ⟨S256, .f32⟩
  | .hbm, ⟨48, _⟩ => ⟨S256, .f32⟩
  | .hbm, ⟨49, _⟩ => ⟨S256, .f32⟩
  | .hbm, ⟨50, _⟩ => ⟨S1x256, .f32⟩
  | .hbm, ⟨51, _⟩ => ⟨S1x256, .f32⟩
  | .hbm, ⟨52, _⟩ => ⟨S10752x256, .f32⟩
  | .hbm, ⟨53, _⟩ => ⟨S8x64x21x256, .f32⟩
  | .local _ .vmem, ⟨0, _⟩ => ⟨S1344x128, .f32⟩
  | .local _ .vmem, ⟨1, _⟩ => ⟨S1344x128, .f32⟩
  | .local _ .vmem, ⟨2, _⟩ => ⟨S128x256, .f32⟩
  | .local _ .vmem, ⟨3, _⟩ => ⟨S1x256, .f32⟩
  | .local _ .vmem, ⟨4, _⟩ => ⟨S1x256, .f32⟩
  | .local _ .vmem, ⟨5, _⟩ => ⟨S1x256, .f32⟩
  | .local _ .vmem, ⟨6, _⟩ => ⟨S1x256, .f32⟩
  | .local _ .vmem, ⟨7, _⟩ => ⟨S1x256, .f32⟩
  | .local _ .vmem, ⟨8, _⟩ => ⟨S1344x128, .f32⟩
  | .local _ .vmem, ⟨9, _⟩ => ⟨S1344x128, .f32⟩
  | .local _ .vmem, ⟨10, _⟩ => ⟨S128x256, .f32⟩
  | .local _ .vmem, ⟨11, _⟩ => ⟨S1x256, .f32⟩
  | .local _ .vmem, ⟨12, _⟩ => ⟨S1x256, .f32⟩
  | .local _ .vmem, ⟨13, _⟩ => ⟨S1x256, .f32⟩
  | .local _ .vmem, ⟨14, _⟩ => ⟨S1344x256, .f32⟩
  | .local _ .vmem, ⟨15, _⟩ => ⟨S1344x256, .f32⟩
  | _, _ => ⟨S8x64x21x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_call0_c : Ref sig .tc := ⟨.hbm, 7, rfl⟩
abbrev main_call0_v0 : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_c_1 : Ref sig .tc := ⟨.hbm, 15, rfl⟩
abbrev main_call0_c_2 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_3 : Ref sig .tc := ⟨.hbm, 23, rfl⟩
abbrev main_call0_v12 : Ref sig .tc := ⟨.hbm, 24, rfl⟩
abbrev main_call0_v13 : Ref sig .tc := ⟨.hbm, 25, rfl⟩
abbrev main_call0_cst : Ref sig .tc := ⟨.hbm, 26, rfl⟩
abbrev main_call0_v14 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_v4_0 : Ref sig .tc := ⟨.hbm, 31, rfl⟩
abbrev main_v4_1 : Ref sig .tc := ⟨.hbm, 32, rfl⟩
abbrev main_v5 : Ref sig .tc := ⟨.hbm, 33, rfl⟩
abbrev main_cst : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_cst_0 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_cst_1 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_scratch0 : Ref sig .tc := ⟨.vmem, 6, rfl⟩
abbrev cc0_scratch1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem5_1 : DmaSem sig := 13

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v28 : BitVec 1 := Scalar.cmpi .eq arg0 c7_i32
  let v29 : BitVec 32 := Scalar.extui v28
  let c0_i32_16 : BitVec 32 := 0#32
  let v30 : BitVec 1 := Scalar.cmpi .ne v29 c0_i32_16
  v30

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1344x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1344x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1344x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bcast_S21x128_S8x64x21x128_2_3 : S21x128.BroadcastsInDim S8x64x21x128 (![2, 3] : Fin 2 → Fin S8x64x21x128.rank)
  bcast_S_S8x64x21x128 : S_.BroadcastsInDim S8x64x21x128 (![] : Fin 0 → Fin S8x64x21x128.rank)
  shapeCasts_S8x64x21x128_S8x64x21x128x1 : S8x64x21x128.ShapeCasts S8x64x21x128x1
  bcast_S_S8x64x21x128x1 : S_.BroadcastsInDim S8x64x21x128x1 (![] : Fin 0 → Fin S8x64x21x128x1.rank)
  bcast_S1_S1x1x1x1x1_4 : S1.BroadcastsInDim S1x1x1x1x1 (![4] : Fin 1 → Fin S1x1x1x1x1.rank)
  bcast_S1x1x1x1x1_S8x64x21x128x1_0_1_2_3_4 : S1x1x1x1x1.BroadcastsInDim S8x64x21x128x1 (![0, 1, 2, 3, 4] : Fin 5 → Fin S8x64x21x128x1.rank)
  reducesTo_S8x64x21x128x1_S8x64x21x128_d4 : S8x64x21x128x1.ReducesTo [4] S8x64x21x128
  h_S_ : 0 < S_.numel
  shapeCasts_S8x64x21x128_S10752x128 : S8x64x21x128.ShapeCasts S10752x128
  shapeCasts_S256_S1x256 : S256.ShapeCasts S1x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S1344x128_S1344x128_0_0 : ∀ a, (![0, 0] : Fin 2 → Nat) a + S1344x128.size a ≤ S1344x128.size a
  h_S1344x128 : 0 < S1344x128.numel
  shapeCasts_S1344x128_S1344x128 : S1344x128.ShapeCasts S1344x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  broadcasts_S1x256_S1344x256 : S1x256.Broadcasts S1344x256
  reduces_S1344x256_S256 : S1344x256.Reduces [0] S256
  shapeCasts_S1x256_S256 : S1x256.ShapeCasts S256
  bcast_S_S256 : S_.BroadcastsInDim S256 (![] : Fin 0 → Fin S256.rank)
  inb_S1344x256_S1344x256_0_0 : ∀ a, (![0, 0] : Fin 2 → Nat) a + S1344x256.size a ≤ S1344x256.size a
  h_S1344x256 : 0 < S1344x256.numel
  shapeCasts_S10752x256_S8x64x21x256 : S10752x256.ShapeCasts S8x64x21x256
  gather_S8x64x21x128_S8x64x21x128x1_S8x64x21x128_n_2_013_013_2_4_1111_wf : GatherDims.WF S8x64x21x128 S8x64x21x128x1 S8x64x21x128 [] [2] [0, 1, 3] [2] [0, 1, 3] 4 ![1, 1, 1, 1]
  dot_S1344x128_S128x256_S1344x256_1_0_0_1_n_n_wf : DotDims.WF S1344x128 S128x256 S1344x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1344x128.size a ≤ S10752x128.size a
  hwx0_0 : ∀ i : grid0.Coords, EltTy.bits .f32 = 32 ∨ (Rect.block (s := S10752x128) S1344x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1344x128.size a ≤ S10752x128.size a
  hwx1_0 : ∀ i : grid1.Coords, EltTy.bits .f32 = 32 ∨ (Rect.block (s := S10752x128) S1344x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x256.size a ≤ S128x256.size a
  hwx1_1 : ∀ i : grid1.Coords, EltTy.bits .f32 = 32 ∨ (Rect.block (s := S128x256) S128x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1344x256.size a ≤ S10752x256.size a
  hwx1_5 : ∀ i : grid1.Coords, EltTy.bits .f32 = 32 ∨ (Rect.block (s := S10752x256) S1344x256.size (cc1_transform_5 i) (hinb1_5 i)).WholeWords (EltTy.packing .f32)

variable [Facts₀]

def gather_S8x64x21x128_S8x64x21x128x1_S8x64x21x128_n_2_013_013_2_4_1111 : GatherDims S8x64x21x128 S8x64x21x128x1 S8x64x21x128 where
  offsetDims := []
  collapsedSliceDims := [2]
  operandBatchingDims := [0, 1, 3]
  startIndicesBatchingDims := [0, 1, 3]
  startIndexMap := [2]
  indexVectorDim := 4
  sliceSizes := ![1, 1, 1, 1]
  wf := gather_S8x64x21x128_S8x64x21x128x1_S8x64x21x128_n_2_013_013_2_4_1111_wf
def dot_S1344x128_S128x256_S1344x256_1_0_0_1_n_n : DotDims S1344x128 S128x256 S1344x256 where
  lhsContracting := [1]
  rhsContracting := [0]
  lhsNonContracting := [0]
  rhsNonContracting := [1]
  lhsBatch := []
  rhsBatch := []
  wf := dot_S1344x128_S128x256_S1344x256_1_0_0_1_n_n_wf

abbrev win0_0 : Pipeline.Window sig grid0 :=
  Pipeline.Window.ofSpec (Memref.whole main_v2) S1344x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4_0) S1x256.size cc0_transform_3 reads0_3 true true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4_1) S1x256.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun i => !(k0_cond2 i == 1#1) | 4 => fun i => !(k0_cond2 i == 1#1) | ⟨_ + 5, h⟩ => absurd h (Nat.not_lt.2 (Nat.le_add_left _ _))

abbrev win1_0 : Pipeline.Window sig grid1 :=
  Pipeline.Window.ofSpec (Memref.whole main_v2) S1344x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S128x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v19) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v20) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v21) S1344x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S8x64x21x128 : Shape := ⟨4, ![8, 64, 21, 128]⟩
abbrev S128x256 : Shape := ⟨2, ![128, 256]⟩
abbrev S256 : Shape := ⟨1, ![256]⟩
abbrev S21x128 : Shape := ⟨2, ![21, 128]⟩
abbrev S128 : Shape := ⟨1, ![128]⟩
abbrev S_ : Shape := ⟨0, ![]⟩
abbrev S21x128x1 : Shape := ⟨3, ![21, 128, 1]⟩
abbrev S21x128x2 : Shape := ⟨3, ![21, 128, 2]⟩
abbrev S8x64x21x256 : Shape := ⟨4, ![8, 64, 21, 256]⟩
abbrev S1x1x1x256 : Shape := ⟨4, ![1, 1, 1, 256]⟩

abbrev nBuf : Space → Nat
  | .hbm => 73
  | .vmem => 0
  | .smem => 0
  | _ => 0

abbrev bufTy : (tb : Table) → Fin (tcTables nBuf tb) → BufTy
  | .hbm, ⟨0, _⟩ => ⟨S8x64x21x128, .f32⟩
  | .hbm, ⟨1, _⟩ => ⟨S128x256, .f32⟩
  | .hbm, ⟨2, _⟩ => ⟨S256, .f32⟩
  | .hbm, ⟨3, _⟩ => ⟨S256, .f32⟩
  | .hbm, ⟨4, _⟩ => ⟨S256, .f32⟩
  | .hbm, ⟨5, _⟩ => ⟨S21x128, .i32⟩
  | .hbm, ⟨6, _⟩ => ⟨S21x128, .i1⟩
  | .hbm, ⟨7, _⟩ => ⟨S128, .i32⟩
  | .hbm, ⟨8, _⟩ => ⟨S128, .i1⟩
  | .hbm, ⟨9, _⟩ => ⟨S_, .i32⟩
  | .hbm, ⟨10, _⟩ => ⟨S21x128, .i32⟩
  | .hbm, ⟨11, _⟩ => ⟨S21x128, .i32⟩
  | .hbm, ⟨12, _⟩ => ⟨S21x128, .i32⟩
  | .hbm, ⟨13, _⟩ => ⟨S_, .i32⟩
  | .hbm, ⟨14, _⟩ => ⟨S128, .i32⟩
  | .hbm, ⟨15, _⟩ => ⟨S128, .i32⟩
  | .hbm, ⟨16, _⟩ => ⟨S128, .i32⟩
  | .hbm, ⟨17, _⟩ => ⟨S21x128, .i32⟩
  | .hbm, ⟨18, _⟩ => ⟨S21x128x1, .i32⟩
  | .hbm, ⟨19, _⟩ => ⟨S21x128x1, .i32⟩
  | .hbm, ⟨20, _⟩ => ⟨S21x128x2, .i32⟩
  | .hbm, ⟨21, _⟩ => ⟨S8x64x21x128, .f32⟩
  | .hbm, ⟨22, _⟩ => ⟨S8x64x21x256, .f32⟩
  | .hbm, ⟨23, _⟩ => ⟨S1x1x1x256, .f32⟩
  | .hbm, ⟨24, _⟩ => ⟨S8x64x21x256, .f32⟩
  | .hbm, ⟨25, _⟩ => ⟨S8x64x21x256, .f32⟩
  | .hbm, ⟨26, _⟩ => ⟨S_, .f32⟩
  | .hbm, ⟨27, _⟩ => ⟨S256, .f32⟩
  | .hbm, ⟨28, _⟩ => ⟨S_, .f32⟩
  | .hbm, ⟨29, _⟩ => ⟨S256, .f32⟩
  | .hbm, ⟨30, _⟩ => ⟨S256, .f32⟩
  | .hbm, ⟨31, _⟩ => ⟨S_, .i32⟩
  | .hbm, ⟨32, _⟩ => ⟨S_, .f32⟩
  | .hbm, ⟨33, _⟩ => ⟨S256, .f32⟩
  | .hbm, ⟨34, _⟩ => ⟨S1x1x1x256, .f32⟩
  | .hbm, ⟨35, _⟩ => ⟨S_, .f32⟩
  | .hbm, ⟨36, _⟩ => ⟨S1x1x1x256, .f32⟩
  | .hbm, ⟨37, _⟩ => ⟨S1x1x1x256, .f32⟩
  | .hbm, ⟨38, _⟩ => ⟨S8x64x21x256, .f32⟩
  | .hbm, ⟨39, _⟩ => ⟨S8x64x21x256, .f32⟩
  | .hbm, ⟨40, _⟩ => ⟨S8x64x21x256, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S256, .f32⟩
  | .hbm, ⟨46, _⟩ => ⟨S256, .f32⟩
  | .hbm, ⟨47, _⟩ => ⟨S256, .f32⟩
  | .hbm, ⟨48, _⟩ => ⟨S_, .f32⟩
  | .hbm, ⟨49, _⟩ => ⟨S_, .i1⟩
  | .hbm, ⟨50, _⟩ => ⟨S_, .f32⟩
  | .hbm, ⟨51, _⟩ => ⟨S_, .f32⟩
  | .hbm, ⟨52, _⟩ => ⟨S256, .f32⟩
  | .hbm, ⟨53, _⟩ => ⟨S256, .f32⟩
  | .hbm, ⟨54, _⟩ => ⟨S1x1x1x256, .f32⟩
  | .hbm, ⟨55, _⟩ => ⟨S8x64x21x256, .f32⟩
  | .hbm, ⟨56, _⟩ => ⟨S8x64x21x256, .f32⟩
  | .hbm, ⟨57, _⟩ => ⟨S_, .f32⟩
  | .hbm, ⟨58, _⟩ => ⟨S256, .f32⟩
  | .hbm, ⟨59, _⟩ => ⟨S256, .f32⟩
  | .hbm, ⟨60, _⟩ => ⟨S256, .f32⟩
  | .hbm, ⟨61, _⟩ => ⟨S1x1x1x256, .f32⟩
  | .hbm, ⟨62, _⟩ => ⟨S8x64x21x256, .f32⟩
  | .hbm, ⟨63, _⟩ => ⟨S8x64x21x256, .f32⟩
  | .hbm, ⟨64, _⟩ => ⟨S1x1x1x256, .f32⟩
  | .hbm, ⟨65, _⟩ => ⟨S8x64x21x256, .f32⟩
  | .hbm, ⟨66, _⟩ => ⟨S8x64x21x256, .f32⟩
  | .hbm, ⟨67, _⟩ => ⟨S1x1x1x256, .f32⟩
  | .hbm, ⟨68, _⟩ => ⟨S8x64x21x256, .f32⟩
  | .hbm, ⟨69, _⟩ => ⟨S8x64x21x256, .f32⟩
  | .hbm, ⟨70, _⟩ => ⟨S_, .f32⟩
  | .hbm, ⟨71, _⟩ => ⟨S8x64x21x256, .f32⟩
  | .hbm, ⟨72, _⟩ => ⟨S8x64x21x256, .f32⟩
  | _, _ => ⟨S8x64x21x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_c_1 : Ref sig .tc := ⟨.hbm, 7, rfl⟩
abbrev main_c_2 : Ref sig .tc := ⟨.hbm, 8, rfl⟩
abbrev main_c_3 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_c_4 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst : Ref sig .tc := ⟨.hbm, 26, rfl⟩
abbrev main_v15 : Ref sig .tc := ⟨.hbm, 27, rfl⟩
abbrev main_cst_5 : Ref sig .tc := ⟨.hbm, 28, rfl⟩
abbrev main_v16 : Ref sig .tc := ⟨.hbm, 29, rfl⟩
abbrev main_v17 : Ref sig .tc := ⟨.hbm, 30, rfl⟩
abbrev main_c_6 : Ref sig .tc := ⟨.hbm, 31, rfl⟩
abbrev main_call0_cst : Ref sig .tc := ⟨.hbm, 32, rfl⟩
abbrev main_call0_v0 : Ref sig .tc := ⟨.hbm, 33, rfl⟩
abbrev main_call0_v1 : Ref sig .tc := ⟨.hbm, 34, rfl⟩
abbrev main_call0_cst_0 : Ref sig .tc := ⟨.hbm, 35, rfl⟩
abbrev main_call0_v2 : Ref sig .tc := ⟨.hbm, 36, rfl⟩
abbrev main_call0_v3 : Ref sig .tc := ⟨.hbm, 37, rfl⟩
abbrev main_call0_v4 : Ref sig .tc := ⟨.hbm, 38, rfl⟩
abbrev main_call0_v5 : Ref sig .tc := ⟨.hbm, 39, rfl⟩
abbrev main_call0_v6 : Ref sig .tc := ⟨.hbm, 40, rfl⟩
abbrev main_call0_v7 : Ref sig .tc := ⟨.hbm, 41, rfl⟩
abbrev main_call0_cst_1 : Ref sig .tc := ⟨.hbm, 42, rfl⟩
abbrev main_call0_v8 : Ref sig .tc := ⟨.hbm, 43, rfl⟩
abbrev main_call0_cst_2 : Ref sig .tc := ⟨.hbm, 44, rfl⟩
abbrev main_call0_v9 : Ref sig .tc := ⟨.hbm, 45, rfl⟩
abbrev main_call0_v10 : Ref sig .tc := ⟨.hbm, 46, rfl⟩
abbrev main_call0_v11 : Ref sig .tc := ⟨.hbm, 47, rfl⟩
abbrev main_call0_cst_3 : Ref sig .tc := ⟨.hbm, 48, rfl⟩
abbrev main_call0_v12 : Ref sig .tc := ⟨.hbm, 49, rfl⟩
abbrev main_call0_cst_4 : Ref sig .tc := ⟨.hbm, 50, rfl⟩
abbrev main_call0_call0_v0 : Ref sig .tc := ⟨.hbm, 51, rfl⟩
abbrev main_call0_call0_v1 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_cst_7 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_call1_cst : Ref sig .tc := ⟨.hbm, 70, rfl⟩
abbrev main_call1_v0 : Ref sig .tc := ⟨.hbm, 71, rfl⟩
abbrev main_v34 : Ref sig .tc := ⟨.hbm, 72, rfl⟩

abbrev nD : Nat := 1
abbrev τ : Topo := Topo.v7x

variable {F : FTy → Type} [FloatOps F]

class Facts₀ : Prop where
  bcast_S_S21x128 : S_.BroadcastsInDim S21x128 (![] : Fin 0 → Fin S21x128.rank)
  bcast_S_S128 : S_.BroadcastsInDim S128 (![] : Fin 0 → Fin S128.rank)
  bcast_S128_S21x128_1 : S128.BroadcastsInDim S21x128 (![1] : Fin 1 → Fin S21x128.rank)
  bcast_S21x128_S21x128x1_0_1 : S21x128.BroadcastsInDim S21x128x1 (![0, 1] : Fin 2 → Fin S21x128x1.rank)
  concatenates_S21x128x1_S21x128x1_S21x128x2_d2 : Shape.Concatenates [S21x128x1, S21x128x1] S21x128x2 2
  bcast_S256_S1x1x1x256_3 : S256.BroadcastsInDim S1x1x1x256 (![3] : Fin 1 → Fin S1x1x1x256.rank)
  bcast_S1x1x1x256_S8x64x21x256_0_1_2_3 : S1x1x1x256.BroadcastsInDim S8x64x21x256 (![0, 1, 2, 3] : Fin 4 → Fin S8x64x21x256.rank)
  reducesTo_S8x64x21x256_S256_d0_1_2 : S8x64x21x256.ReducesTo [0, 1, 2] S256
  h_S_ : 0 < S_.numel
  bcast_S_S256 : S_.BroadcastsInDim S256 (![] : Fin 0 → Fin S256.rank)
  bcast_S_S1x1x1x256 : S_.BroadcastsInDim S1x1x1x256 (![] : Fin 0 → Fin S1x1x1x256.rank)
  bcast_S_S8x64x21x256 : S_.BroadcastsInDim S8x64x21x256 (![] : Fin 0 → Fin S8x64x21x256.rank)
  gather_S8x64x21x128_S21x128x2_S8x64x21x128_01_23_n_n_23_2_86411_wf : GatherDims.WF S8x64x21x128 S21x128x2 S8x64x21x128 [0, 1] [2, 3] [] [2, 3] [] 2 ![8, 64, 1, 1]
  dot_S8x64x21x128_S128x256_S8x64x21x256_3_0_012_1_n_n_wf : DotDims.WF S8x64x21x128 S128x256 S8x64x21x256 [3] [0] [0, 1, 2] [1] [] []

variable [Facts₀]

def gather_S8x64x21x128_S21x128x2_S8x64x21x128_01_23_n_n_23_2_86411 : GatherDims S8x64x21x128 S21x128x2 S8x64x21x128 where
  offsetDims := [0, 1]
  collapsedSliceDims := [2, 3]
  operandBatchingDims := []
  startIndicesBatchingDims := []
  startIndexMap := [2, 3]
  indexVectorDim := 2
  sliceSizes := ![8, 64, 1, 1]
  wf := gather_S8x64x21x128_S21x128x2_S8x64x21x128_01_23_n_n_23_2_86411_wf
def dot_S8x64x21x128_S128x256_S8x64x21x256_3_0_012_1_n_n : DotDims S8x64x21x128 S128x256 S8x64x21x256 where
  lhsContracting := [3]
  rhsContracting := [0]
  lhsNonContracting := [0, 1, 2]
  rhsNonContracting := [1]
  lhsBatch := []
  rhsBatch := []
  wf := dot_S8x64x21x128_S128x256_S8x64x21x256_3_0_012_1_n_n_wf

class Facts : Prop extends Facts₀ where

variable [Facts]
-- ==== Proof.K.R0Base.lean ====
/-
  The statistics kernel (the first of the program's two kernels), part 1: what its runs are stated over.

  The kernel visits eight grid points; point t is handed rows 1344·t … 1344·t + 1343 of the flattened activation (window 0),
  the whole weight matrix (window 1) and the bias row (window 2), the last two fetched once, at the first point.  It keeps
  two rows of 256 running sums in scratch memory of its own: zeroed at the first point, added to at every point, and copied
  into its two result rows (windows 3 and 4) at the last point only; at every other point the result windows are idle and
  are not written back.  Stated here: a window's block at a point, that an input's staging memory holds that block at every
  point whether or not it was fetched there, the two branch conditions decided over the grid, where the result windows are
  idle, and the region's scoped memory split into the two scratch rows and the rest.
-/
import proofs.«102013_j71923522339050_1_alg».proof.Proof.Gen.Kernel.Launch
import proofs.«102013_j71923522339050_1_alg».proof.Proof.Gen.Kernel.Skeleton
import proofs.«102013_j71923522339050_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The activation window's staging memory holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight window's staging memory holds the weights at every point: fetched at the first, in place afterwards. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The bias window's staging memory holds the bias row at every point. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's two branches -/

/-- "This is the first point": the condition under which the running sums are zeroed. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

/-- "This is the last point": the condition under which the running sums are copied to the results. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Away from the last point the two result windows are idle and are not written back. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
/-- At the last point they are live. -/
theorem liveAt0_3 : ∀ t : Fin cfg0.N, cond0_1 (grid0.coords t) → cfg0.idle 3 (grid0.coords t) = false := by decide +kernel
theorem liveAt0_4 : ∀ t : Fin cfg0.N, cond0_1 (grid0.coords t) → cfg0.idle 4 (grid0.coords t) = false := by decide +kernel

/-! ## The memory the body is called with -/

/-- One staging buffer of each result window, through which its contents are stated. -/
abbrev VO0_3 : View sig .tc .vmem S1x256 .f32 := (Memref.whole cc0_stg3_0 : Memref sig .tc .vmem S1x256 .f32).view
abbrev VO0_4 : View sig .tc .vmem S1x256 .f32 := (Memref.whole cc0_stg4_0 : Memref sig .tc .vmem S1x256 .f32).view
/-- Each window's current staging memory at point `t`, and its wholeness. -/
abbrev ms0_0 (t : Fin cfg0.N) : Memref sig .tc .vmem S1344x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x256 .f32 := win0_4.stage (cfg0.slots t 4)
abbrev hs0_4 (t : Fin cfg0.N) : (ms0_4 t).IsWhole := hstage0_4 ((cfg0.slots t 4).cast nbuf0_4)
/-- The two scratch rows: the running column sums and the running column sums of squares. -/
abbrev scM0_0 : Memref sig .tc .vmem S1x256 .f32 := Memref.whole cc0_scratch0
abbrev scM0_1 : Memref sig .tc .vmem S1x256 .f32 := Memref.whole cc0_scratch1
abbrev VS0_0 : View sig .tc .vmem S1x256 .f32 := scM0_0.view
abbrev VS0_1 : View sig .tc .vmem S1x256 .f32 := scM0_1.view

/-- The scoped memory of this core that is neither a staging buffer of this kernel nor one of its scratch rows (the other
    kernel's staging buffers), each whole at some contents: it rides through the region untouched. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f))

/-- The region's scoped memory and generator register, with the two scratch rows named as memory the body can own. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ rest0 (F := F) c) ∗ (∃ r, prngReg c r)) := by
  unfold Pipeline.ΦA; rw [scopedRest0_eq]; unfold rest0; simp only [scM0_0, scM0_1, owns_whole]; try rfl

end Cert.Kernel.Hand

end
-- ==== Proof.K.R0RunA.lean ====
/-
  The statistics kernel, part 2A: the body's run at the FIRST point: the running sums are zeroed, then this point's block is added; the result windows are idle and are handed back untouched; the scratch rows may hold anything on entry.
  The run is the symbolic execution of the kernel's own text; what each written buffer ends with is recorded as the list of
  pieces that execution finds (last store first), not transcribed.
-/
import proofs.«102013_j71923522339050_1_alg».proof.Proof.K.R0Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at the FIRST point: the running sums are zeroed, then this point's block is added; the result windows are idle and are handed back untouched; the scratch rows may hold anything on entry. On whole memory — the three inputs' at their contents `x0 x1 x2` — it runs to the continuation holding
    the inputs as they were and every buffer it stored into with its pieces written. -/
noncomputable def kernelRun0_A (c : Dev nD) (i : grid0.Coords) (arg1 : Memref sig .tc .vmem S1344x128 .f32) (harg1 : arg1.IsWhole) (arg2 : Memref sig .tc .vmem S128x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (hc0 : cond0_0 i) (hc1 : ¬cond0_1 i)
    (x0 : Vec F S1344x128 .f32) (x1 : Vec F S128x256 .f32) (x2 : Vec F S1x256 .f32) :
    Σ' (LS0 : List (View.Piece (Elt F) S1x256 .f32)), { LS1 : List (View.Piece (Elt F) S1x256 .f32) //
      ∀ (xi3 xi4 : Vec F S1x256 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xi3 ∗ owns (c : Thread nD τ) arg5 fullShare xi4 ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare xi3 ∗ owns (c : Thread nD τ) arg5 fullShare xi4 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__stats_kernel i arg1 harg1 arg2 harg2 arg3 harg3 arg4 harg4 arg5 harg5 arg6 harg6 arg7 harg7) K } := by
  refine ⟨?_, ?_, fun xi3 xi4 E K => ?run⟩
  case run =>
    simp only [cc0__stats_kernel_eq_skeleton]; unfold cc0__stats_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [HS0]; · iexists _; iexact HS0
    iexists _; iexact HS1

end Cert.Kernel.Hand

end
-- ==== Proof.K.R0RunB.lean ====
/-
  The statistics kernel, part 2B: the body's run at a MIDDLE point: this point's block is added to the running sums the point before left; the result windows are idle and are handed back untouched.
  The run is the symbolic execution of the kernel's own text; what each written buffer ends with is recorded as the list of
  pieces that execution finds (last store first), not transcribed.
-/
import proofs.«102013_j71923522339050_1_alg».proof.Proof.K.R0Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a MIDDLE point: this point's block is added to the running sums the point before left; the result windows are idle and are handed back untouched. On whole memory — the three inputs' at their contents `x0 x1 x2` — it runs to the continuation holding
    the inputs as they were and every buffer it stored into with its pieces written. -/
noncomputable def kernelRun0_B (c : Dev nD) (i : grid0.Coords) (arg1 : Memref sig .tc .vmem S1344x128 .f32) (harg1 : arg1.IsWhole) (arg2 : Memref sig .tc .vmem S128x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (hc0 : ¬cond0_0 i) (hc1 : ¬cond0_1 i)
    (x0 : Vec F S1344x128 .f32) (x1 : Vec F S128x256 .f32) (x2 : Vec F S1x256 .f32) (xs0 xs1 : Vec F S1x256 .f32) :
    Σ' (LS0 : List (View.Piece (Elt F) S1x256 .f32)), { LS1 : List (View.Piece (Elt F) S1x256 .f32) //
      ∀ (xi3 xi4 : Vec F S1x256 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xi3 ∗ owns (c : Thread nD τ) arg5 fullShare xi4 ∗ owns (c : Thread nD τ) arg6 fullShare xs0 ∗ owns (c : Thread nD τ) arg7 fullShare xs1
            ∗ (iprop(owns (c : Thread nD τ) arg1 fullShare x0 ∗ owns (c : Thread nD τ) arg2 fullShare x1 ∗ owns (c : Thread nD τ) arg3 fullShare x2 ∗ owns (c : Thread nD τ) arg4 fullShare xi3 ∗ owns (c : Thread nD τ) arg5 fullShare xi4 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__stats_kernel i arg1 harg1 arg2 harg2 arg3 harg3 arg4 harg4 arg5 harg5 arg6 harg6 arg7 harg7) K } := by
  refine ⟨?_, ?_, fun xi3 xi4 E K => ?run⟩
  case run =>
    simp only [cc0__stats_kernel_eq_skeleton]; unfold cc0__stats_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hfs0; obtain rfl := harg7.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [HS0]; · iexists _; iexact HS0
    iexists _; iexact HS1

end Cert.Kernel.Hand

end
-- ==== Proof.K.R0RunC.lean ====
/-
  The statistics kernel, part 2C: the body's run at the LAST point: this point's block is added to the running sums the point before left, and the two sums are then copied into the two result rows.
  The run is the symbolic execution of the kernel's own text; what each written buffer ends with is recorded as the list of
  pieces that execution finds (last store first), not transcribed.
-/
import proofs.«102013_j71923522339050_1_alg».proof.Proof.K.R0Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at the LAST point: this point's block is added to the running sums the point before left, and the two sums are then copied into the two result rows. On whole memory — the three inputs' at their contents `x0 x1 x2` — it runs to the continuation holding
    the inputs as they were and every buffer it stored into with its pieces written. -/
noncomputable def kernelRun0_C (c : Dev nD) (i : grid0.Coords) (arg1 : Memref sig .tc .vmem S1344x128 .f32) (harg1 : arg1.IsWhole) (arg2 : Memref sig .tc .vmem S128x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (hc0 : ¬cond0_0 i) (hc1 : cond0_1 i)
    (x0 : Vec F S1344x128 .f32) (x1 : Vec F S128x256 .f32) (x2 : Vec F S1x256 .f32) (xs0 xs1 : Vec F S1x256 .f32) :
    Σ' (L3 : List (View.Piece (Elt F) S1x256 .f32)) (L4 : List (View.Piece (Elt F) S1x256 .f32)) (LS0 : List (View.Piece (Elt F) S1x256 .f32)), { LS1 : List (View.Piece (Elt F) S1x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ owns (c : Thread nD τ) arg6 fullShare xs0 ∗ owns (c : Thread nD τ) arg7 fullShare xs1
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__stats_kernel i arg1 harg1 arg2 harg2 arg3 harg3 arg4 harg4 arg5 harg5 arg6 harg6 arg7 harg7) K } := by
  refine ⟨?_, ?_, ?_, ?_, fun E K => ?run⟩
  case run =>
    simp only [cc0__stats_kernel_eq_skeleton]; unfold cc0__stats_kernel_skel
    unfold owns
    iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg6.eq_unread hfs0; obtain rfl := harg7.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    isplitl [HS0]; · iexists _; iexact HS0
    iexists _; iexact HS1

end Cert.Kernel.Hand

end
-- ==== Proof.K.R0Cases.lean ====
/-
  The statistics kernel, part 3: what each of the three runs leaves behind, read back from the pieces the run found.

  At the first point and at a middle point the body stores only into its two scratch rows (the running column sums of Y and
  of Y²); at the last point it also copies the two sums into the two result rows.  Each written row's contents are the run's
  pieces read back; the pieces of each row tile it, so the read-back does not depend on what the row held before.
-/
import proofs.«102013_j71923522339050_1_alg».proof.Proof.K.R0RunA
import proofs.«102013_j71923522339050_1_alg».proof.Proof.K.R0RunB
import proofs.«102013_j71923522339050_1_alg».proof.Proof.K.R0RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem N0_eq : cfg0.N = 8 := N_0

/-- Every point after the first fails the first-point test. -/
theorem ncond0_0_of_pos (t : Fin cfg0.N) (h : t.val ≠ 0) : ¬cond0_0 (grid0.coords t) := fun hc => by
  have h0 := (hcond0_0 t).mp hc
  have hN : t.val < 8 := lt_of_lt_of_eq t.isLt N0_eq
  omega

/-- The first point fails the last-point test. -/
theorem ncond0_1_of_zero (t : Fin cfg0.N) (h : t.val = 0) : ¬cond0_1 (grid0.coords t) := fun hc => by
  have h0 := (hcond0_1 t).mp hc
  omega

/-- A placeholder for a result row at a point where its window is idle: nothing consults it. -/
def idleRow : Vec F S1x256 .f32 := VO0_3.read (Elt F) (VO0_3.junk)

/-! ## What each case's run leaves -/

section Cases
variable (c : Dev nD) (i : grid0.Coords) (arg1 : Memref sig .tc .vmem S1344x128 .f32) (harg1 : arg1.IsWhole) (arg2 : Memref sig .tc .vmem S128x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole)
variable (x0 : Vec F S1344x128 .f32) (x1 : Vec F S128x256 .f32) (x2 : Vec F S1x256 .f32)

/-- First point: the running sums after it. -/
def sout0_A_0 (hc0 : cond0_0 i) (hc1 : ¬cond0_1 i) : Vec F S1x256 .f32 :=
  VS0_0.read (Elt F) (VS0_0.writes (Elt F) (VS0_0.junk) (kernelRun0_A c i arg1 harg1 arg2 harg2 arg3 harg3 arg4 harg4 arg5 harg5 arg6 harg6 arg7 harg7 hc0 hc1 x0 x1 x2).1)
def sout0_A_1 (hc0 : cond0_0 i) (hc1 : ¬cond0_1 i) : Vec F S1x256 .f32 :=
  VS0_1.read (Elt F) (VS0_1.writes (Elt F) (VS0_1.junk) (kernelRun0_A c i arg1 harg1 arg2 harg2 arg3 harg3 arg4 harg4 arg5 harg5 arg6 harg6 arg7 harg7 hc0 hc1 x0 x1 x2).2.1)
theorem scover0_A_0 (hc0 : cond0_0 i) (hc1 : ¬cond0_1 i) (y : S1x256.Idx) :
    ∃ pc ∈ (kernelRun0_A c i arg1 harg1 arg2 harg2 arg3 harg3 arg4 harg4 arg5 harg5 arg6 harg6 arg7 harg7 hc0 hc1 x0 x1 x2).1, y ∈ pc.1.set :=
  View.cover_of_tiledL (kernelRun0_A c i arg1 harg1 arg2 harg2 arg3 harg3 arg4 harg4 arg5 harg5 arg6 harg6 arg7 harg7 hc0 hc1 x0 x1 x2).1 S1x256.size (by sl_kernel_rfl) y
theorem scover0_A_1 (hc0 : cond0_0 i) (hc1 : ¬cond0_1 i) (y : S1x256.Idx) :
    ∃ pc ∈ (kernelRun0_A c i arg1 harg1 arg2 harg2 arg3 harg3 arg4 harg4 arg5 harg5 arg6 harg6 arg7 harg7 hc0 hc1 x0 x1 x2).2.1, y ∈ pc.1.set :=
  View.cover_of_tiledL (kernelRun0_A c i arg1 harg1 arg2 harg2 arg3 harg3 arg4 harg4 arg5 harg5 arg6 harg6 arg7 harg7 hc0 hc1 x0 x1 x2).2.1 S1x256.size (by sl_kernel_rfl) y

variable (xs0 xs1 : Vec F S1x256 .f32)

/-- Middle point: the running sums after it, from those before it. -/
def sout0_B_0 (hc0 : ¬cond0_0 i) (hc1 : ¬cond0_1 i) : Vec F S1x256 .f32 :=
  VS0_0.read (Elt F) (VS0_0.writes (Elt F) (VS0_0.junk) (kernelRun0_B c i arg1 harg1 arg2 harg2 arg3 harg3 arg4 harg4 arg5 harg5 arg6 harg6 arg7 harg7 hc0 hc1 x0 x1 x2 xs0 xs1).1)
def sout0_B_1 (hc0 : ¬cond0_0 i) (hc1 : ¬cond0_1 i) : Vec F S1x256 .f32 :=
  VS0_1.read (Elt F) (VS0_1.writes (Elt F) (VS0_1.junk) (kernelRun0_B c i arg1 harg1 arg2 harg2 arg3 harg3 arg4 harg4 arg5 harg5 arg6 harg6 arg7 harg7 hc0 hc1 x0 x1 x2 xs0 xs1).2.1)
theorem scover0_B_0 (hc0 : ¬cond0_0 i) (hc1 : ¬cond0_1 i) (y : S1x256.Idx) :
    ∃ pc ∈ (kernelRun0_B c i arg1 harg1 arg2 harg2 arg3 harg3 arg4 harg4 arg5 harg5 arg6 harg6 arg7 harg7 hc0 hc1 x0 x1 x2 xs0 xs1).1, y ∈ pc.1.set :=
  View.cover_of_tiledL (kernelRun0_B c i arg1 harg1 arg2 harg2 arg3 harg3 arg4 harg4 arg5 harg5 arg6 harg6 arg7 harg7 hc0 hc1 x0 x1 x2 xs0 xs1).1 S1x256.size (by sl_kernel_rfl) y
theorem scover0_B_1 (hc0 : ¬cond0_0 i) (hc1 : ¬cond0_1 i) (y : S1x256.Idx) :
    ∃ pc ∈ (kernelRun0_B c i arg1 harg1 arg2 harg2 arg3 harg3 arg4 harg4 arg5 harg5 arg6 harg6 arg7 harg7 hc0 hc1 x0 x1 x2 xs0 xs1).2.1, y ∈ pc.1.set :=
  View.cover_of_tiledL (kernelRun0_B c i arg1 harg1 arg2 harg2 arg3 harg3 arg4 harg4 arg5 harg5 arg6 harg6 arg7 harg7 hc0 hc1 x0 x1 x2 xs0 xs1).2.1 S1x256.size (by sl_kernel_rfl) y

/-- Last point: the two result rows and the running sums after it, from the sums before it. -/
def out0_C_3 (hc0 : ¬cond0_0 i) (hc1 : cond0_1 i) : Vec F S1x256 .f32 :=
  VO0_3.read (Elt F) (VO0_3.writes (Elt F) (VO0_3.junk) (kernelRun0_C c i arg1 harg1 arg2 harg2 arg3 harg3 arg4 harg4 arg5 harg5 arg6 harg6 arg7 harg7 hc0 hc1 x0 x1 x2 xs0 xs1).1)
def out0_C_4 (hc0 : ¬cond0_0 i) (hc1 : cond0_1 i) : Vec F S1x256 .f32 :=
  VO0_4.read (Elt F) (VO0_4.writes (Elt F) (VO0_4.junk) (kernelRun0_C c i arg1 harg1 arg2 harg2 arg3 harg3 arg4 harg4 arg5 harg5 arg6 harg6 arg7 harg7 hc0 hc1 x0 x1 x2 xs0 xs1).2.1)
def sout0_C_0 (hc0 : ¬cond0_0 i) (hc1 : cond0_1 i) : Vec F S1x256 .f32 :=
  VS0_0.read (Elt F) (VS0_0.writes (Elt F) (VS0_0.junk) (kernelRun0_C c i arg1 harg1 arg2 harg2 arg3 harg3 arg4 harg4 arg5 harg5 arg6 harg6 arg7 harg7 hc0 hc1 x0 x1 x2 xs0 xs1).2.2.1)
def sout0_C_1 (hc0 : ¬cond0_0 i) (hc1 : cond0_1 i) : Vec F S1x256 .f32 :=
  VS0_1.read (Elt F) (VS0_1.writes (Elt F) (VS0_1.junk) (kernelRun0_C c i arg1 harg1 arg2 harg2 arg3 harg3 arg4 harg4 arg5 harg5 arg6 harg6 arg7 harg7 hc0 hc1 x0 x1 x2 xs0 xs1).2.2.2.1)
theorem cover0_C_3 (hc0 : ¬cond0_0 i) (hc1 : cond0_1 i) (y : S1x256.Idx) :
    ∃ pc ∈ (kernelRun0_C c i arg1 harg1 arg2 harg2 arg3 harg3 arg4 harg4 arg5 harg5 arg6 harg6 arg7 harg7 hc0 hc1 x0 x1 x2 xs0 xs1).1, y ∈ pc.1.set :=
  View.cover_of_tiledL (kernelRun0_C c i arg1 harg1 arg2 harg2 arg3 harg3 arg4 harg4 arg5 harg5 arg6 harg6 arg7 harg7 hc0 hc1 x0 x1 x2 xs0 xs1).1 S1x256.size (by sl_kernel_rfl) y
theorem cover0_C_4 (hc0 : ¬cond0_0 i) (hc1 : cond0_1 i) (y : S1x256.Idx) :
    ∃ pc ∈ (kernelRun0_C c i arg1 harg1 arg2 harg2 arg3 harg3 arg4 harg4 arg5 harg5 arg6 harg6 arg7 harg7 hc0 hc1 x0 x1 x2 xs0 xs1).2.1, y ∈ pc.1.set :=
  View.cover_of_tiledL (kernelRun0_C c i arg1 harg1 arg2 harg2 arg3 harg3 arg4 harg4 arg5 harg5 arg6 harg6 arg7 harg7 hc0 hc1 x0 x1 x2 xs0 xs1).2.1 S1x256.size (by sl_kernel_rfl) y
theorem scover0_C_0 (hc0 : ¬cond0_0 i) (hc1 : cond0_1 i) (y : S1x256.Idx) :
    ∃ pc ∈ (kernelRun0_C c i arg1 harg1 arg2 harg2 arg3 harg3 arg4 harg4 arg5 harg5 arg6 harg6 arg7 harg7 hc0 hc1 x0 x1 x2 xs0 xs1).2.2.1, y ∈ pc.1.set :=
  View.cover_of_tiledL (kernelRun0_C c i arg1 harg1 arg2 harg2 arg3 harg3 arg4 harg4 arg5 harg5 arg6 harg6 arg7 harg7 hc0 hc1 x0 x1 x2 xs0 xs1).2.2.1 S1x256.size (by sl_kernel_rfl) y
theorem scover0_C_1 (hc0 : ¬cond0_0 i) (hc1 : cond0_1 i) (y : S1x256.Idx) :
    ∃ pc ∈ (kernelRun0_C c i arg1 harg1 arg2 harg2 arg3 harg3 arg4 harg4 arg5 harg5 arg6 harg6 arg7 harg7 hc0 hc1 x0 x1 x2 xs0 xs1).2.2.2.1, y ∈ pc.1.set :=
  View.cover_of_tiledL (kernelRun0_C c i arg1 harg1 arg2 harg2 arg3 harg3 arg4 harg4 arg5 harg5 arg6 harg6 arg7 harg7 hc0 hc1 x0 x1 x2 xs0 xs1).2.2.2.1 S1x256.size (by sl_kernel_rfl) y

end Cases

end Cert.Kernel.Hand

end
-- ==== Proof.K.Region0.lean ====
/-
  The statistics kernel, part 4: what every point leaves behind, the invariant that carries the running sums from point to
  point, and the body's obligation to the pipeline at every point.

  After point t the two scratch rows hold the running sums over the blocks 0 … t; the two result rows hold something only
  after the last point, where the body copies the sums into them.  This is stated by recursion on the point (`outsAt0`): the
  first point's run starts from anything, every later point's run starts from what the point before left.  Between points
  the region's invariant (`PhiS`) owns the two scratch rows at exactly those contents, beside the scoped memory the kernel
  never touches and the generator register.
-/
import proofs.«102013_j71923522339050_1_alg».proof.Proof.K.R0Cases

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The four rows a point leaves: result row 0, result row 1, the running sums, the running sums of squares. -/
abbrev Rows (F : FTy → Type) [FloatOps F] : Type := Vec F S1x256 .f32 × Vec F S1x256 .f32 × Vec F S1x256 .f32 × Vec F S1x256 .f32

/-- THE ACCUMULATION, by recursion on the point. -/
def outsAt0 (c : Dev nD) : (n : ℕ) → n < cfg0.N → Rows F
  | 0, hn =>
    (idleRow, idleRow,
     sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) (iblk0 V c 0 ⟨0, hn⟩) (iblk0 V c 1 ⟨0, hn⟩) (iblk0 V c 2 ⟨0, hn⟩) ((hcond0_0 ⟨0, hn⟩).mpr (Nat.zero_mod _)) (ncond0_1_of_zero ⟨0, hn⟩ rfl),
     sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) (iblk0 V c 0 ⟨0, hn⟩) (iblk0 V c 1 ⟨0, hn⟩) (iblk0 V c 2 ⟨0, hn⟩) ((hcond0_0 ⟨0, hn⟩).mpr (Nat.zero_mod _)) (ncond0_1_of_zero ⟨0, hn⟩ rfl))
  | n + 1, hn =>
    if h1 : (n + 1) % 8 = 7 then
      (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (iblk0 V c 0 ⟨n + 1, hn⟩) (iblk0 V c 1 ⟨n + 1, hn⟩) (iblk0 V c 2 ⟨n + 1, hn⟩) (outsAt0 c n (Nat.lt_of_succ_lt hn)).2.2.1 (outsAt0 c n (Nat.lt_of_succ_lt hn)).2.2.2 (ncond0_0_of_pos ⟨n + 1, hn⟩ (Nat.succ_ne_zero n)) ((hcond0_1 ⟨n + 1, hn⟩).mpr h1),
       out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (iblk0 V c 0 ⟨n + 1, hn⟩) (iblk0 V c 1 ⟨n + 1, hn⟩) (iblk0 V c 2 ⟨n + 1, hn⟩) (outsAt0 c n (Nat.lt_of_succ_lt hn)).2.2.1 (outsAt0 c n (Nat.lt_of_succ_lt hn)).2.2.2 (ncond0_0_of_pos ⟨n + 1, hn⟩ (Nat.succ_ne_zero n)) ((hcond0_1 ⟨n + 1, hn⟩).mpr h1),
       sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (iblk0 V c 0 ⟨n + 1, hn⟩) (iblk0 V c 1 ⟨n + 1, hn⟩) (iblk0 V c 2 ⟨n + 1, hn⟩) (outsAt0 c n (Nat.lt_of_succ_lt hn)).2.2.1 (outsAt0 c n (Nat.lt_of_succ_lt hn)).2.2.2 (ncond0_0_of_pos ⟨n + 1, hn⟩ (Nat.succ_ne_zero n)) ((hcond0_1 ⟨n + 1, hn⟩).mpr h1),
       sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (iblk0 V c 0 ⟨n + 1, hn⟩) (iblk0 V c 1 ⟨n + 1, hn⟩) (iblk0 V c 2 ⟨n + 1, hn⟩) (outsAt0 c n (Nat.lt_of_succ_lt hn)).2.2.1 (outsAt0 c n (Nat.lt_of_succ_lt hn)).2.2.2 (ncond0_0_of_pos ⟨n + 1, hn⟩ (Nat.succ_ne_zero n)) ((hcond0_1 ⟨n + 1, hn⟩).mpr h1))
    else
      (idleRow, idleRow,
       sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (iblk0 V c 0 ⟨n + 1, hn⟩) (iblk0 V c 1 ⟨n + 1, hn⟩) (iblk0 V c 2 ⟨n + 1, hn⟩) (outsAt0 c n (Nat.lt_of_succ_lt hn)).2.2.1 (outsAt0 c n (Nat.lt_of_succ_lt hn)).2.2.2 (ncond0_0_of_pos ⟨n + 1, hn⟩ (Nat.succ_ne_zero n)) (fun h => h1 ((hcond0_1 ⟨n + 1, hn⟩).mp h)),
       sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (iblk0 V c 0 ⟨n + 1, hn⟩) (iblk0 V c 1 ⟨n + 1, hn⟩) (iblk0 V c 2 ⟨n + 1, hn⟩) (outsAt0 c n (Nat.lt_of_succ_lt hn)).2.2.1 (outsAt0 c n (Nat.lt_of_succ_lt hn)).2.2.2 (ncond0_0_of_pos ⟨n + 1, hn⟩ (Nat.succ_ne_zero n)) (fun h => h1 ((hcond0_1 ⟨n + 1, hn⟩).mp h)))

/-- `outsAt0` at the first point. -/
theorem outsAt0_A (c : Dev nD) (t : Fin cfg0.N) (h0 : t.val = 0) :
    outsAt0 V c t.val t.isLt = (idleRow, idleRow,
      sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (iblk0 V c 0 t) (iblk0 V c 1 t) (iblk0 V c 2 t) ((hcond0_0 t).mpr (by rw [h0])) (ncond0_1_of_zero t h0),
      sout0_A_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (iblk0 V c 0 t) (iblk0 V c 1 t) (iblk0 V c 2 t) ((hcond0_0 t).mpr (by rw [h0])) (ncond0_1_of_zero t h0)) := by
  obtain ⟨n, hn⟩ := t
  cases n with
  | zero => rfl
  | succ n => exact absurd h0 (Nat.succ_ne_zero n)

/-- `outsAt0` at a middle point: over what the point before left. -/
theorem outsAt0_B (c : Dev nD) (t : Fin cfg0.N) (h0 : t.val ≠ 0) (h1 : ¬t.val % 8 = 7) :
    outsAt0 V c t.val t.isLt = (idleRow, idleRow,
      sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (iblk0 V c 0 t) (iblk0 V c 1 t) (iblk0 V c 2 t) (outsAt0 V c (t.val - 1) (Nat.lt_of_le_of_lt (Nat.sub_le _ _) t.isLt)).2.2.1 (outsAt0 V c (t.val - 1) (Nat.lt_of_le_of_lt (Nat.sub_le _ _) t.isLt)).2.2.2 (ncond0_0_of_pos t h0) (fun h => h1 ((hcond0_1 t).mp h)),
      sout0_B_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (iblk0 V c 0 t) (iblk0 V c 1 t) (iblk0 V c 2 t) (outsAt0 V c (t.val - 1) (Nat.lt_of_le_of_lt (Nat.sub_le _ _) t.isLt)).2.2.1 (outsAt0 V c (t.val - 1) (Nat.lt_of_le_of_lt (Nat.sub_le _ _) t.isLt)).2.2.2 (ncond0_0_of_pos t h0) (fun h => h1 ((hcond0_1 t).mp h))) := by
  obtain ⟨n, hn⟩ := t
  cases n with
  | zero => exact absurd rfl h0
  | succ n => exact (dif_neg h1).trans rfl

/-- `outsAt0` at the last point: over what the point before left. -/
theorem outsAt0_C (c : Dev nD) (t : Fin cfg0.N) (h0 : t.val ≠ 0) (h1 : t.val % 8 = 7) :
    outsAt0 V c t.val t.isLt = (
      out0_C_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (iblk0 V c 0 t) (iblk0 V c 1 t) (iblk0 V c 2 t) (outsAt0 V c (t.val - 1) (Nat.lt_of_le_of_lt (Nat.sub_le _ _) t.isLt)).2.2.1 (outsAt0 V c (t.val - 1) (Nat.lt_of_le_of_lt (Nat.sub_le _ _) t.isLt)).2.2.2 (ncond0_0_of_pos t h0) ((hcond0_1 t).mpr h1),
      out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (iblk0 V c 0 t) (iblk0 V c 1 t) (iblk0 V c 2 t) (outsAt0 V c (t.val - 1) (Nat.lt_of_le_of_lt (Nat.sub_le _ _) t.isLt)).2.2.1 (outsAt0 V c (t.val - 1) (Nat.lt_of_le_of_lt (Nat.sub_le _ _) t.isLt)).2.2.2 (ncond0_0_of_pos t h0) ((hcond0_1 t).mpr h1),
      sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (iblk0 V c 0 t) (iblk0 V c 1 t) (iblk0 V c 2 t) (outsAt0 V c (t.val - 1) (Nat.lt_of_le_of_lt (Nat.sub_le _ _) t.isLt)).2.2.1 (outsAt0 V c (t.val - 1) (Nat.lt_of_le_of_lt (Nat.sub_le _ _) t.isLt)).2.2.2 (ncond0_0_of_pos t h0) ((hcond0_1 t).mpr h1),
      sout0_C_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (iblk0 V c 0 t) (iblk0 V c 1 t) (iblk0 V c 2 t) (outsAt0 V c (t.val - 1) (Nat.lt_of_le_of_lt (Nat.sub_le _ _) t.isLt)).2.2.1 (outsAt0 V c (t.val - 1) (Nat.lt_of_le_of_lt (Nat.sub_le _ _) t.isLt)).2.2.2 (ncond0_0_of_pos t h0) ((hcond0_1 t).mpr h1)) := by
  obtain ⟨n, hn⟩ := t
  cases n with
  | zero => exact absurd rfl h0
  | succ n => exact (dif_pos h1).trans rfl

/-! ## The invariant between points -/

/-- Before the first point: the scoped memory at anything and the generator register. Before a later point: the two scratch
    rows at what the point before left, the untouched scoped memory, the generator register. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.2.1) ∗ owns (c : Thread nD τ) scM0_1 fullShare ((outsAt0 V c n hn).2.2.2) ∗ rest0 (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2.2.1) ∗ owns (c : Thread nD τ) scM0_1 fullShare ((outsAt0 V c n hn).2.2.2) ∗ rest0 (F := F) c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2.2.1) ∗ owns (c : Thread nD τ) scM0_1 fullShare ((outsAt0 V c (n - 1) (by omega)).2.2.2) ∗ rest0 (F := F) c) ∗ (∃ r, prngReg c r)) := by
  cases n with
  | zero => exact absurd rfl hz
  | succ n => rfl

/-! ## The pipeline's proof data -/

/-- The arrays as the region finds them; after the body at point `t` each input's staging memory at its block and the result
    rows' at `outsAt0`; the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
    | ⟨4, _⟩ => (outsAt0 V c t.val t.isLt).2.1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]
theorem after0_4 (c : Dev nD) (t : Fin cfg0.N) : (dat0 V c).after 4 t = (outsAt0 V c t.val t.isLt).2.1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 4800000 in
/-- The body at any point. The inputs' staging memory holds their blocks; the point's position says which of the three runs
    applies; the invariant hands the run the scratch rows (at anything at the first point, at what the point before left
    afterwards) and takes them back at this point's contents; the result rows are handed back untouched where their windows
    are idle and at the copied sums at the last point; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS V c (t.val + 1) t.isLt from rfl, PhiS_succ]
  have hN : t.val < 8 := lt_of_lt_of_eq t.isLt N0_eq
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  by_cases hz : t.val = 0
  · have hc1 := ncond0_1_of_zero t hz
    rw [Dat.leavesExact_idle (dat0 V c) 3 t (idleAt0_3 t hc1) (noFlush0_3 t hc1),
      Dat.leavesExact_idle (dat0 V c) 4 t (idleAt0_4 t hc1) (noFlush0_4 t hc1)]
    rw [outsAt0_A V c t hz]
    unfold sout0_A_0 sout0_A_1; (try dsimp only)
    rw [PhiS_castSucc V c t, PhiS_zero V c _ _ hz, PhiA0_eq]
    iintro ⟨⟨⟨HS0, HS1, Hrest⟩, Hg⟩, Ho, ⟨%d0, H0⟩, ⟨%d1, H1⟩, ⟨%d2, H2⟩, ⟨%d3, H3⟩, ⟨%d4, H4⟩⟩
    iapply ((kernelRun0_A c (grid0.coords t) _ _ _ _ _ _ _ _ _ _ _ _ _ _ ((hcond0_0 t).mpr (by rw [hz])) hc1 (iblk0 V c 0 t) (iblk0 V c 1 t) (iblk0 V c 2 t)).2.2 _ _ Set.univ _)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    iintro ⟨H0, H1, H2, H3, H4, ⟨%es0, HS0⟩, ⟨%es1, HS1⟩⟩
    isplitl [HS0 HS1 Hrest Hg]
    · isplitl [HS0 HS1 Hrest]
      · isplitl [HS0]
        · unfold owns; iexists _; isplitr
          swap; · iexact HS0
          ipureintro; exact View.read_writes_of_cover _ _ _ _ _ (scover0_A_0 c _ _ _ _ _ _ _ _ _ _ _ _ _ _ _ _ _ _ _ _)
        isplitl [HS1]
        · unfold owns; iexists _; isplitr
          swap; · iexact HS1
          ipureintro; exact View.read_writes_of_cover _ _ _ _ _ (scover0_A_1 c _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]; · iexists _; iexact H3
    iexists _; iexact H4
  · by_cases h7 : t.val % 8 = 7
    · have hc0 := ncond0_0_of_pos t hz
      have hc1 := (hcond0_1 t).mpr h7
      rw [show (dat0 V c).leavesExact 3 t = owns (c : Thread nD τ) (ms0_3 t) fullShare ((dat0 V c).after 3 t) from by
        unfold Dat.leavesExact; rw [liveAt0_3 t hc1], after0_3]
      rw [show (dat0 V c).leavesExact 4 t = owns (c : Thread nD τ) (ms0_4 t) fullShare ((dat0 V c).after 4 t) from by
        unfold Dat.leavesExact; rw [liveAt0_4 t hc1], after0_4]
      rw [outsAt0_C V c t hz h7]
      unfold out0_C_3 out0_C_4 sout0_C_0 sout0_C_1; (try dsimp only)
      rw [PhiS_castSucc V c t, PhiS_pos V c _ _ hz]
      iintro ⟨⟨⟨HS0, HS1, Hrest⟩, Hg⟩, Ho, ⟨%d0, H0⟩, ⟨%d1, H1⟩, ⟨%d2, H2⟩, ⟨%d3, H3⟩, ⟨%d4, H4⟩⟩
      iapply ((kernelRun0_C c (grid0.coords t) _ _ _ _ _ _ _ _ _ _ _ _ _ _ hc0 hc1 (iblk0 V c 0 t) (iblk0 V c 1 t) (iblk0 V c 2 t) _ _).2.2.2.2 Set.univ _)
      isplitl [H0]; · iexact H0
      isplitl [H1]; · iexact H1
      isplitl [H2]; · iexact H2
      isplitl [H3]; · iexists _; iexact H3
      isplitl [H4]; · iexists _; iexact H4
      isplitl [HS0]; · iexact HS0
      isplitl [HS1]; · iexact HS1
      iintro ⟨H0, H1, H2, ⟨%e3, H3⟩, ⟨%e4, H4⟩, ⟨%es0, HS0⟩, ⟨%es1, HS1⟩⟩
      isplitl [HS0 HS1 Hrest Hg]
      · isplitl [HS0 HS1 Hrest]
        · isplitl [HS0]
          · unfold owns; iexists _; isplitr
            swap; · iexact HS0
            ipureintro; exact View.read_writes_of_cover _ _ _ _ _ (scover0_C_0 c _ _ _ _ _ _ _ _ _ _ _ _ _ _ _ _ _ _ _ _ _ _)
          isplitl [HS1]
          · unfold owns; iexists _; isplitr
            swap; · iexact HS1
            ipureintro; exact View.read_writes_of_cover _ _ _ _ _ (scover0_C_1 c _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover0_C_3 c _ _ _ _ _ _ _ _ _ _ _ _ _ _ _ _ _ _ _ _ _ _)
      unfold owns; iexists _; isplitr
      swap; · iexact H4
      ipureintro; exact View.read_writes_of_cover _ _ _ _ _ (cover0_C_4 c _ _ _ _ _ _ _ _ _ _ _ _ _ _ _ _ _ _ _ _ _ _)
    · have hc0 := ncond0_0_of_pos t hz
      have hc1 : ¬cond0_1 (grid0.coords t) := fun h => h7 ((hcond0_1 t).mp h)
      rw [Dat.leavesExact_idle (dat0 V c) 3 t (idleAt0_3 t hc1) (noFlush0_3 t hc1),
        Dat.leavesExact_idle (dat0 V c) 4 t (idleAt0_4 t hc1) (noFlush0_4 t hc1)]
      rw [outsAt0_B V c t hz h7]
      unfold sout0_B_0 sout0_B_1; (try dsimp only)
      rw [PhiS_castSucc V c t, PhiS_pos V c _ _ hz]
      iintro ⟨⟨⟨HS0, HS1, Hrest⟩, Hg⟩, Ho, ⟨%d0, H0⟩, ⟨%d1, H1⟩, ⟨%d2, H2⟩, ⟨%d3, H3⟩, ⟨%d4, H4⟩⟩
      iapply ((kernelRun0_B c (grid0.coords t) _ _ _ _ _ _ _ _ _ _ _ _ _ _ hc0 hc1 (iblk0 V c 0 t) (iblk0 V c 1 t) (iblk0 V c 2 t) _ _).2.2 _ _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, ⟨%es0, HS0⟩, ⟨%es1, HS1⟩⟩
      isplitl [HS0 HS1 Hrest Hg]
      · isplitl [HS0 HS1 Hrest]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _)
          isplitl [HS1]
          · unfold owns; iexists _; isplitr
            swap; · iexact HS1
            ipureintro; exact View.read_writes_of_cover _ _ _ _ _ (scover0_B_1 c _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexists _; iexact H3
      iexists _; iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the scoped memory back: the running sums' named contents are forgotten. -/
theorem hout0 (c : Dev nD) : (dat0 V c).Φ (Fin.last cfg0.N) ⊢ Pipeline.ΦA spec0 c := by
  have ht : (Fin.last cfg0.N).val ≠ 0 := by rw [Fin.val_last]; have : cfg0.N = 8 := N_0; omega
  rw [show (dat0 V c).Φ (Fin.last cfg0.N) = PhiS V c (Fin.last cfg0.N).val (Nat.le_of_lt_succ (Fin.last cfg0.N).isLt) from rfl,
    PhiS_pos V c _ _ ht, PhiA0_eq]
  iintro ⟨⟨HS0, HS1, Hrest⟩, Hg⟩
  isplitl [HS0 HS1 Hrest]
  · isplitl [HS0]; · iexists _; iexact HS0
    isplitl [HS1]; · iexists _; iexact HS1
    iexact Hrest
  iexact Hg

end Cert.Kernel.Hand

end
-- ==== Proof.K.Region1.lean ====
/- REGION 1's half of the frame: the second pallas_call (the affine map followed by the positive part), generic in
   the float instance, at a parameter `V` — the TensorCore's buffer contents when the region is entered.

   The body at a grid point reads its five input blocks whole — a block of 1344 rows of the flattened input, the
   128x256 weight matrix, and the three rows bias, scale and shift —, and stores ONE value, the payload
   `k1_pay1` of those five loads (max(((x·W + b)·scale + shift), 0), blockwise), over the whole 1344x256 output
   block.  So after the body every input buffer still holds its block and the output buffer holds that payload.
   The weight matrix and the three rows have a constant block index: they are fetched at the first point only and
   found unchanged at the later ones. -/
import proofs.«102013_j71923522339050_1_alg».proof.Proof.Gen.Kernel.Launch
import proofs.«102013_j71923522339050_1_alg».proof.Proof.Gen.Kernel.Skeleton
import proofs.«102013_j71923522339050_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

-- membership in a rectangle with a long axis recurses once per coordinate of that axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, whether the pipeline fetched it there
    or not (unfetched, the block index has not moved since the point before), for any proof data whose array is
    `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, whether the pipeline fetched it there
    or not (unfetched, the block index has not moved since the point before), for any proof data whose array is
    `V`'s and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, whether the pipeline fetched it there
    or not (unfetched, the block index has not moved since the point before), for any proof data whose array is
    `V`'s and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, whether the pipeline fetched it there
    or not (unfetched, the block index has not moved since the point before), for any proof data whose array is
    `V`'s and whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, whether the pipeline fetched it there
    or not (unfetched, the block index has not moved since the point before), for any proof data whose array is
    `V`'s and whose body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the one store go through the whole rectangle of their buffer -/

abbrev r1_0 : Rect S1344x128 := Rect.unit (s := S1344x128) ![0, 0] S1344x128.size inb_S1344x128_S1344x128_0_0
abbrev r1_1 : Rect S128x256 := Rect.unit (s := S128x256) ![0, 0] S128x256.size inb_S128x256_S128x256_0_0
abbrev r1_2 : Rect S1x256 := Rect.unit (s := S1x256) ![0, 0] S1x256.size inb_S1x256_S1x256_0_0
abbrev r1_5 : Rect S1344x256 := Rect.unit (s := S1344x256) ![0, 0] S1344x256.size inb_S1344x256_S1344x256_0_0

/-! ## What the body leaves in the output window's buffer -/

/-- The output window's staging buffer after the body, from the five input blocks: its one store, the payload
    of the five loads over the whole block. -/
def out1_5 (x0 : Vec F S1344x128 .f32) (x1 : Vec F S128x256 .f32) (x2 x3 x4 : Vec F S1x256 .f32) : Vec F S1344x256 .f32 :=
  View.canon [⟨r1_5, k1_pay1 (View.ld x0 r1_0) (View.ld x1 r1_1) (View.ld x2 r1_2) (View.ld x3 r1_2) (View.ld x4 r1_2)⟩]

/-- The one store's rectangle is the whole buffer, so it covers it. -/
theorem cover1_5 (p0 : Vec F S1344x256 .f32) (y : S1344x256.Idx) :
    ∃ pc ∈ ([⟨r1_5, p0⟩] : List (View.Piece (Elt F) S1344x256 .f32)), y ∈ pc.1.set :=
  View.cover_of_tiled [⟨r1_5, p0⟩] S1344x256.size (by rfl) y

/-! ## The body's triple -/

set_option maxHeartbeats 1000000 in
/-- The kernel body on whole staging memrefs, the five inputs' at read contents `x0 … x4` and the output's at
    anything, runs to the continuation holding the inputs' as they were and the output's at `out1_5` of the inputs:
    the body reads the output buffer once too, and uses nothing of what it read. -/
theorem sound_kernel1 (c : Dev nD) (E : Set ℕ) (i : grid1.Coords) (arg1 : Memref sig .tc .vmem S1344x128 .f32) (harg1 : arg1.IsWhole) (arg2 : Memref sig .tc .vmem S128x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1344x256 .f32) (harg6 : arg6.IsWhole)
    (x0 : Vec F S1344x128 .f32) (x1 : Vec F S128x256 .f32) (x2 x3 x4 : Vec F S1x256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E (cc1__affine_relu_kernel i arg1 harg1 arg2 harg2 arg3 harg3 arg4 harg4 arg5 harg5 arg6 harg6) K := by
  simp only [cc1__affine_relu_kernel_eq_skeleton]; unfold cc1__affine_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The pipeline's proof data -/

/-- The proof data of this pipeline on core `c`: the arrays as the region finds them (`V`); after the body at
    point `t` each input's buffer at its block and the output's at `out1_5` of the five input blocks; the
    invariant the scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks (`before1_W`), so `sound_kernel1` applies; the
    invariant and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## The one whole-block store read back: its canon is the payload -/

theorem r1_zeros : (![0, 0] : Fin 2 → Nat) = fun _ => 0 := funext fun a => by fin_cases a <;> rfl

/-- The output block after the body IS the payload of the five input blocks: every load reads its buffer whole
    and the one store covers the buffer whole, at offset zero. -/
theorem out1_5_eq (x0 : Vec F S1344x128 .f32) (x1 : Vec F S128x256 .f32) (x2 x3 x4 : Vec F S1x256 .f32) :
    out1_5 x0 x1 x2 x3 x4 = k1_pay1 x0 x1 x2 x3 x4 := by
  unfold out1_5
  rw [View.canon_unit_zero (S := S1344x256) r1_zeros]
  simp only [View.ld_unit_zero (S := S1344x128) r1_zeros, View.ld_unit_zero (S := S128x256) r1_zeros, View.ld_unit_zero (S := S1x256) r1_zeros]

end Cert.Kernel.Hand

end
-- ==== Proof.K.Run.lean ====
/-
  The whole program as a run: three stretches of host operations (the per-channel shift of the activation and two reshapes),
  the statistics kernel, a stretch of host operations (mean, variance, scale and shift per column), the normalising kernel,
  and a last reshape.  The contents of every buffer at each boundary are named by a fold from the launch memory (`W0` … `W7`):
  a host stretch applies its operations; a kernel leaves its windows' arrays at what its write-backs produce and every other
  buffer as it found it.  The run ends with every unscoped buffer read against `W7`; the frame (each argument array ends as
  launched) and the result's value are both read off that.
-/
import proofs.«102013_j71923522339050_1_alg».proof.Proof.K.Region0
import proofs.«102013_j71923522339050_1_alg».proof.Proof.K.Region1
import proofs.«102013_j71923522339050_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

abbrev W0 : Dev nD → Valuation τ sig (Elt F) := fun c b => (s₀ m ρ).mem ((c : Dev nD), b)
abbrev W1 : Dev nD → Valuation τ sig (Elt F) := fun c => StableHlo.after hostOps0 (W0 m ρ c)
abbrev W2 : Dev nD → Valuation τ sig (Elt F) := fun c => StableHlo.after hostOps0_1 (W1 m ρ c)
abbrev W3 : Dev nD → Valuation τ sig (Elt F) := fun c => StableHlo.after hostOps0_2 (W2 m ρ c)
/-- What the statistics kernel finds. -/
abbrev Vr0 : (c : Dev nD) → (b : Ref sig .tc) → Buf (Elt F) ((c : Thread nD τ).loc b) := fun c b => W3 m ρ c b
def W4 (c : Dev nD) : Valuation τ sig (Elt F) :=
  Pipeline.withArrays spec0 c (W3 m ρ c) fun w => (dat0 (Vr0 m ρ) c).arrAt w cfg0.N
theorem W4_arr (c : Dev nD) (w : Fin cfg0.W) :
    W4 m ρ c (Proc.devRef .tc (Pipeline.arrRef spec0 w)) = (dat0 (Vr0 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
abbrev Vr0' : (c : Dev nD) → (b : Ref sig .tc) → Buf (Elt F) ((c : Thread nD τ).loc b) := fun c b => W4 m ρ c b
theorem hF0 (c : Dev nD) (w : Fin cfg0.W) : (dat0 (Vr0 m ρ) c).arrAt w cfg0.N = Vr0' m ρ c (Pipeline.arrRef spec0 w) :=
  (W4_arr m ρ c w).symm
theorem hrest0 (c : Dev nD) : ∀ b, b ∉ Finset.univ.image (Pipeline.arrRef spec0) → Vr0' m ρ c b = Vr0 m ρ c b :=
  fun b hb => W4_of_ne m ρ c b fun w e => hb (Finset.mem_image.mpr ⟨w, Finset.mem_univ _, e⟩)

abbrev W5 : Dev nD → Valuation τ sig (Elt F) := fun c => StableHlo.after hostOps1 (W4 m ρ c)
/-- What the normalising kernel finds. -/
abbrev Vr1 : (c : Dev nD) → (b : Ref sig .tc) → Buf (Elt F) ((c : Thread nD τ).loc b) := fun c b => W5 m ρ c b
def W6 (c : Dev nD) : Valuation τ sig (Elt F) :=
  Pipeline.withArrays spec1 c (W5 m ρ c) fun w => (dat1 (Vr1 m ρ) c).arrAt w cfg1.N
theorem W6_arr (c : Dev nD) (w : Fin cfg1.W) :
    W6 m ρ c (Proc.devRef .tc (Pipeline.arrRef spec1 w)) = (dat1 (Vr1 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
abbrev Vr1' : (c : Dev nD) → (b : Ref sig .tc) → Buf (Elt F) ((c : Thread nD τ).loc b) := fun c b => W6 m ρ c b
theorem hF1 (c : Dev nD) (w : Fin cfg1.W) : (dat1 (Vr1 m ρ) c).arrAt w cfg1.N = Vr1' m ρ c (Pipeline.arrRef spec1 w) :=
  (W6_arr m ρ c w).symm
theorem hrest1 (c : Dev nD) : ∀ b, b ∉ Finset.univ.image (Pipeline.arrRef spec1) → Vr1' m ρ c b = Vr1 m ρ c b :=
  fun b hb => W6_of_ne m ρ c b fun w e => hb (Finset.mem_image.mpr ⟨w, Finset.mem_univ _, e⟩)

abbrev W7 : Dev nD → Valuation τ sig (Elt F) := fun c => StableHlo.after hostOps2 (W6 m ρ c)

/-! ## The arguments end as launched -/

theorem W7_main_arg0 (c : Dev nD) : W7 m ρ c (Proc.devRef .tc main_arg0) = m ((c : Thread nD τ).loc main_arg0) :=
  calc W7 m ρ c (Proc.devRef .tc main_arg0)
    _ = W6 m ρ c (Proc.devRef .tc main_arg0) := StableHlo.after_of_writes_sub hostOps2 _ hostOps2_writes (by decide)
    _ = W5 m ρ c (Proc.devRef .tc main_arg0) := W6_of_ne m ρ c main_arg0 (by decide)
    _ = W4 m ρ c (Proc.devRef .tc main_arg0) := StableHlo.after_of_writes_sub hostOps1 _ hostOps1_writes (by decide)
    _ = W3 m ρ c (Proc.devRef .tc main_arg0) := W4_of_ne m ρ c main_arg0 (by decide)
    _ = W2 m ρ c (Proc.devRef .tc main_arg0) := StableHlo.after_of_writes_sub hostOps0_2 _ hostOps0_2_writes (by decide)
    _ = W1 m ρ c (Proc.devRef .tc main_arg0) := StableHlo.after_of_writes_sub hostOps0_1 _ hostOps0_1_writes (by decide)
    _ = W0 m ρ c (Proc.devRef .tc main_arg0) := StableHlo.after_of_writes_sub hostOps0 _ hostOps0_writes (by decide)
    _ = m ((c : Thread nD τ).loc main_arg0) := rfl

theorem W7_main_arg1 (c : Dev nD) : W7 m ρ c (Proc.devRef .tc main_arg1) = m ((c : Thread nD τ).loc main_arg1) :=
  calc W7 m ρ c (Proc.devRef .tc main_arg1)
    _ = W6 m ρ c (Proc.devRef .tc main_arg1) := StableHlo.after_of_writes_sub hostOps2 _ hostOps2_writes (by decide)
    _ = W5 m ρ c (Proc.devRef .tc main_arg1) := (W6_arr m ρ c 1).trans (((dat1 (Vr1 m ρ) c).arrAt_in 1 rfl _).trans (A_eq1 (Vr1 m ρ) c 1))
    _ = W4 m ρ c (Proc.devRef .tc main_arg1) := StableHlo.after_of_writes_sub hostOps1 _ hostOps1_writes (by decide)
    _ = W3 m ρ c (Proc.devRef .tc main_arg1) := (W4_arr m ρ c 1).trans (((dat0 (Vr0 m ρ) c).arrAt_in 1 rfl _).trans (A_eq0 (Vr0 m ρ) c 1))
    _ = W2 m ρ c (Proc.devRef .tc main_arg1) := StableHlo.after_of_writes_sub hostOps0_2 _ hostOps0_2_writes (by decide)
    _ = W1 m ρ c (Proc.devRef .tc main_arg1) := StableHlo.after_of_writes_sub hostOps0_1 _ hostOps0_1_writes (by decide)
    _ = W0 m ρ c (Proc.devRef .tc main_arg1) := StableHlo.after_of_writes_sub hostOps0 _ hostOps0_writes (by decide)
    _ = m ((c : Thread nD τ).loc main_arg1) := rfl

theorem W7_main_arg2 (c : Dev nD) : W7 m ρ c (Proc.devRef .tc main_arg2) = m ((c : Thread nD τ).loc main_arg2) :=
  calc W7 m ρ c (Proc.devRef .tc main_arg2)
    _ = W6 m ρ c (Proc.devRef .tc main_arg2) := StableHlo.after_of_writes_sub hostOps2 _ hostOps2_writes (by decide)
    _ = W5 m ρ c (Proc.devRef .tc main_arg2) := W6_of_ne m ρ c main_arg2 (by decide)
    _ = W4 m ρ c (Proc.devRef .tc main_arg2) := StableHlo.after_of_writes_sub hostOps1 _ hostOps1_writes (by decide)
    _ = W3 m ρ c (Proc.devRef .tc main_arg2) := W4_of_ne m ρ c main_arg2 (by decide)
    _ = W2 m ρ c (Proc.devRef .tc main_arg2) := StableHlo.after_of_writes_sub hostOps0_2 _ hostOps0_2_writes (by decide)
    _ = W1 m ρ c (Proc.devRef .tc main_arg2) := StableHlo.after_of_writes_sub hostOps0_1 _ hostOps0_1_writes (by decide)
    _ = W0 m ρ c (Proc.devRef .tc main_arg2) := StableHlo.after_of_writes_sub hostOps0 _ hostOps0_writes (by decide)
    _ = m ((c : Thread nD τ).loc main_arg2) := rfl

theorem W7_main_arg3 (c : Dev nD) : W7 m ρ c (Proc.devRef .tc main_arg3) = m ((c : Thread nD τ).loc main_arg3) :=
  calc W7 m ρ c (Proc.devRef .tc main_arg3)
    _ = W6 m ρ c (Proc.devRef .tc main_arg3) := StableHlo.after_of_writes_sub hostOps2 _ hostOps2_writes (by decide)
    _ = W5 m ρ c (Proc.devRef .tc main_arg3) := W6_of_ne m ρ c main_arg3 (by decide)
    _ = W4 m ρ c (Proc.devRef .tc main_arg3) := StableHlo.after_of_writes_sub hostOps1 _ hostOps1_writes (by decide)
    _ = W3 m ρ c (Proc.devRef .tc main_arg3) := W4_of_ne m ρ c main_arg3 (by decide)
    _ = W2 m ρ c (Proc.devRef .tc main_arg3) := StableHlo.after_of_writes_sub hostOps0_2 _ hostOps0_2_writes (by decide)
    _ = W1 m ρ c (Proc.devRef .tc main_arg3) := StableHlo.after_of_writes_sub hostOps0_1 _ hostOps0_1_writes (by decide)
    _ = W0 m ρ c (Proc.devRef .tc main_arg3) := StableHlo.after_of_writes_sub hostOps0 _ hostOps0_writes (by decide)
    _ = m ((c : Thread nD τ).loc main_arg3) := rfl

theorem W7_main_arg4 (c : Dev nD) : W7 m ρ c (Proc.devRef .tc main_arg4) = m ((c : Thread nD τ).loc main_arg4) :=
  calc W7 m ρ c (Proc.devRef .tc main_arg4)
    _ = W6 m ρ c (Proc.devRef .tc main_arg4) := StableHlo.after_of_writes_sub hostOps2 _ hostOps2_writes (by decide)
    _ = W5 m ρ c (Proc.devRef .tc main_arg4) := W6_of_ne m ρ c main_arg4 (by decide)
    _ = W4 m ρ c (Proc.devRef .tc main_arg4) := StableHlo.after_of_writes_sub hostOps1 _ hostOps1_writes (by decide)
    _ = W3 m ρ c (Proc.devRef .tc main_arg4) := W4_of_ne m ρ c main_arg4 (by decide)
    _ = W2 m ρ c (Proc.devRef .tc main_arg4) := StableHlo.after_of_writes_sub hostOps0_2 _ hostOps0_2_writes (by decide)
    _ = W1 m ρ c (Proc.devRef .tc main_arg4) := StableHlo.after_of_writes_sub hostOps0_1 _ hostOps0_1_writes (by decide)
    _ = W0 m ρ c (Proc.devRef .tc main_arg4) := StableHlo.after_of_writes_sub hostOps0 _ hostOps0_writes (by decide)
    _ = m ((c : Thread nD τ).loc main_arg4) := rfl

/-! ## The proof data family and the thread state -/

/-- Both kernels' proof data, each at its region's entry contents. -/
def pdats : (p : Fin 2) → (c : Dev nD) → Dat τ (Elt F) Unit ℕ (UR sig nD τ) ℕ (Pipeline.pin (pcfgs (F := F)) adm p) c
  | ⟨0, _⟩ => fun c => dat0 (Vr0 m ρ) c
  | ⟨1, _⟩ => fun c => dat1 (Vr1 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W7 m ρ c) ∗ ∃ r, prngReg c r)

/-! ## The two kernels as segments -/

-- the library's lemmas are stated over the pinned configuration; unifying with it needs plain definitions unfolded in a
-- metavariable's type
set_option backward.isDefEq.respectTransparency.types false in
/-- Kernel 0 as a segment of the program: entered with every unscoped buffer at `W3`, left with them at `W4`. Its windows'
    arrays are split out of the unscoped buffers on entry and put back at their final contents on exit; the generator register
    goes into the region's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vr0 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (Vr0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (Vr0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ Pipeline.ΦA spec0 c).trans (hin0 (Vr0 m ρ) c)
    unfold Pipeline.ΦA
    iintro ⟨Hp, -, Hr⟩
    isplitl [Hr]; · iexact Hr
    iexact Hp
  hout c := by
    rw [Pipeline.ownSems0_none]
    refine (hout0 (Vr0 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (Vr0 m ρ c) (Vr0' m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library's lemmas are stated over the pinned configuration; unifying with it needs plain definitions unfolded in a
-- metavariable's type
set_option backward.isDefEq.respectTransparency.types false in
/-- Kernel 1 as a segment of the program: entered with every unscoped buffer at `W5`, left with them at `W6`. Its windows'
    arrays are split out of the unscoped buffers on entry and put back at their final contents on exit; the generator register
    goes into the region's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vr1 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec1 c (Vr1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (Vr1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (Vr1 m ρ c) (Vr1' m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .region (reg1 m ρ),
    .host (hseg hostOps2 hostOps2_sub hostOps2_fresh (W6 m ρ)) ]

theorem main_run (c : Dev nD) : main (F := F) c = Pipeline.Seg.run (segs m ρ) := (main_chain c).trans (by chain_rfl)

set_option backward.isDefEq.respectTransparency.types false in
/-- THE RUN. From any memory with zero counters every weakly fair execution of the program on the core terminates, nothing
    faulting, and in every final state every unscoped buffer holds what the fold `W7` says. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (W7 m ρ c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c => h c)

/-- THE FRAME at any instance: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W7_main_arg0 m ρ c),
     (h c _ (mem_uc main_arg1 (by decide))).trans (W7_main_arg1 m ρ c),
     (h c _ (mem_uc main_arg2 (by decide))).trans (W7_main_arg2 m ρ c),
     (h c _ (mem_uc main_arg3 (by decide))).trans (W7_main_arg3 m ρ c),
     (h c _ (mem_uc main_arg4 (by decide))).trans (W7_main_arg4 m ρ c)⟩) (run_all m ρ)

end Cert.Kernel.Hand

end
-- ==== Proof.KI.R0Base.lean ====
/-
  The statistics kernel (the first of the program's two kernels), part 1: what its runs are stated over.

  The kernel visits eight grid points; point t is handed rows 1344·t … 1344·t + 1343 of the flattened activation (window 0),
  the whole weight matrix (window 1) and the bias row (window 2), the last two fetched once, at the first point.  It keeps
  two rows of 256 running sums in scratch memory of its own: zeroed at the first point, added to at every point, and copied
  into its two result rows (windows 3 and 4) at the last point only; at every other point the result windows are idle and
  are not written back.  Stated here: a window's block at a point, that an input's staging memory holds that block at every
  point whether or not it was fetched there, the two branch conditions decided over the grid, where the result windows are
  idle, and the region's scoped memory split into the two scratch rows and the rest.
-/
import proofs.«102013_j71923522339050_1_alg».proof.Proof.Gen.KernelIdeal.Launch
import proofs.«102013_j71923522339050_1_alg».proof.Proof.Gen.KernelIdeal.Skeleton
import proofs.«102013_j71923522339050_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The activation window's staging memory holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight window's staging memory holds the weights at every point: fetched at the first, in place afterwards. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The bias window's staging memory holds the bias row at every point. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's two branches -/

/-- "This is the first point": the condition under which the running sums are zeroed. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

/-- "This is the last point": the condition under which the running sums are copied to the results. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Away from the last point the two result windows are idle and are not written back. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
/-- At the last point they are live. -/
theorem liveAt0_3 : ∀ t : Fin cfg0.N, cond0_1 (grid0.coords t) → cfg0.idle 3 (grid0.coords t) = false := by decide +kernel
theorem liveAt0_4 : ∀ t : Fin cfg0.N, cond0_1 (grid0.coords t) → cfg0.idle 4 (grid0.coords t) = false := by decide +kernel

/-! ## The memory the body is called with -/

/-- One staging buffer of each result window, through which its contents are stated. -/
abbrev VO0_3 : View sig .tc .vmem S1x256 .f32 := (Memref.whole cc0_stg3_0 : Memref sig .tc .vmem S1x256 .f32).view
abbrev VO0_4 : View sig .tc .vmem S1x256 .f32 := (Memref.whole cc0_stg4_0 : Memref sig .tc .vmem S1x256 .f32).view
/-- Each window's current staging memory at point `t`, and its wholeness. -/
abbrev ms0_0 (t : Fin cfg0.N) : Memref sig .tc .vmem S1344x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x256 .f32 := win0_4.stage (cfg0.slots t 4)
abbrev hs0_4 (t : Fin cfg0.N) : (ms0_4 t).IsWhole := hstage0_4 ((cfg0.slots t 4).cast nbuf0_4)
/-- The two scratch rows: the running column sums and the running column sums of squares. -/
abbrev scM0_0 : Memref sig .tc .vmem S1x256 .f32 := Memref.whole cc0_scratch0
abbrev scM0_1 : Memref sig .tc .vmem S1x256 .f32 := Memref.whole cc0_scratch1
abbrev VS0_0 : View sig .tc .vmem S1x256 .f32 := scM0_0.view
abbrev VS0_1 : View sig .tc .vmem S1x256 .f32 := scM0_1.view

/-- The scoped memory of this core that is neither a staging buffer of this kernel nor one of its scratch rows (the other
    kernel's staging buffers), each whole at some contents: it rides through the region untouched. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f))

/-- The region's scoped memory and generator register, with the two scratch rows named as memory the body can own. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ rest0 (F := F) c) ∗ (∃ r, prngReg c r)) := by
  unfold Pipeline.ΦA; rw [scopedRest0_eq]; unfold rest0; simp only [scM0_0, scM0_1, owns_whole]; try rfl

end Cert.KernelIdeal.Hand

end
-- ==== Proof.KI.R0RunA.lean ====
/-
  The statistics kernel, part 2A: the body's run at the FIRST point: the running sums are zeroed, then this point's block is added; the result windows are idle and are handed back untouched; the scratch rows may hold anything on entry.
  The run is the symbolic execution of the kernel's own text; what each written buffer ends with is recorded as the list of
  pieces that execution finds (last store first), not transcribed.
-/
import proofs.«102013_j71923522339050_1_alg».proof.Proof.KI.R0Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at the FIRST point: the running sums are zeroed, then this point's block is added; the result windows are idle and are handed back untouched; the scratch rows may hold anything on entry. On whole memory — the three inputs' at their contents `x0 x1 x2` — it runs to the continuation holding
    the inputs as they were and every buffer it stored into with its pieces written. -/
noncomputable def kernelRun0_A (c : Dev nD) (i : grid0.Coords) (arg1 : Memref sig .tc .vmem S1344x128 .f32) (harg1 : arg1.IsWhole) (arg2 : Memref sig .tc .vmem S128x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (hc0 : cond0_0 i) (hc1 : ¬cond0_1 i)
    (x0 : Vec F S1344x128 .f32) (x1 : Vec F S128x256 .f32) (x2 : Vec F S1x256 .f32) :
    Σ' (LS0 : List (View.Piece (Elt F) S1x256 .f32)), { LS1 : List (View.Piece (Elt F) S1x256 .f32) //
      ∀ (xi3 xi4 : Vec F S1x256 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xi3 ∗ owns (c : Thread nD τ) arg5 fullShare xi4 ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare xi3 ∗ owns (c : Thread nD τ) arg5 fullShare xi4 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__stats_kernel i arg1 harg1 arg2 harg2 arg3 harg3 arg4 harg4 arg5 harg5 arg6 harg6 arg7 harg7) K } := by
  refine ⟨?_, ?_, fun xi3 xi4 E K => ?run⟩
  case run =>
    simp only [cc0__stats_kernel_eq_skeleton]; unfold cc0__stats_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [HS0]; · iexists _; iexact HS0
    iexists _; iexact HS1

end Cert.KernelIdeal.Hand

end
-- ==== Proof.KI.R0RunB.lean ====
/-
  The statistics kernel, part 2B: the body's run at a MIDDLE point: this point's block is added to the running sums the point before left; the result windows are idle and are handed back untouched.
  The run is the symbolic execution of the kernel's own text; what each written buffer ends with is recorded as the list of
  pieces that execution finds (last store first), not transcribed.
-/
import proofs.«102013_j71923522339050_1_alg».proof.Proof.KI.R0Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a MIDDLE point: this point's block is added to the running sums the point before left; the result windows are idle and are handed back untouched. On whole memory — the three inputs' at their contents `x0 x1 x2` — it runs to the continuation holding
    the inputs as they were and every buffer it stored into with its pieces written. -/
noncomputable def kernelRun0_B (c : Dev nD) (i : grid0.Coords) (arg1 : Memref sig .tc .vmem S1344x128 .f32) (harg1 : arg1.IsWhole) (arg2 : Memref sig .tc .vmem S128x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (hc0 : ¬cond0_0 i) (hc1 : ¬cond0_1 i)
    (x0 : Vec F S1344x128 .f32) (x1 : Vec F S128x256 .f32) (x2 : Vec F S1x256 .f32) (xs0 xs1 : Vec F S1x256 .f32) :
    Σ' (LS0 : List (View.Piece (Elt F) S1x256 .f32)), { LS1 : List (View.Piece (Elt F) S1x256 .f32) //
      ∀ (xi3 xi4 : Vec F S1x256 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xi3 ∗ owns (c : Thread nD τ) arg5 fullShare xi4 ∗ owns (c : Thread nD τ) arg6 fullShare xs0 ∗ owns (c : Thread nD τ) arg7 fullShare xs1
            ∗ (iprop(owns (c : Thread nD τ) arg1 fullShare x0 ∗ owns (c : Thread nD τ) arg2 fullShare x1 ∗ owns (c : Thread nD τ) arg3 fullShare x2 ∗ owns (c : Thread nD τ) arg4 fullShare xi3 ∗ owns (c : Thread nD τ) arg5 fullShare xi4 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__stats_kernel i arg1 harg1 arg2 harg2 arg3 harg3 arg4 harg4 arg5 harg5 arg6 harg6 arg7 harg7) K } := by
  refine ⟨?_, ?_, fun xi3 xi4 E K => ?run⟩
  case run =>
    simp only [cc0__stats_kernel_eq_skeleton]; unfold cc0__stats_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hfs0; obtain rfl := harg7.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [HS0]; · iexists _; iexact HS0
    iexists _; iexact HS1

end Cert.KernelIdeal.Hand

end
-- ==== Proof.KI.R0RunC.lean ====
/-
  The statistics kernel, part 2C: the body's run at the LAST point: this point's block is added to the running sums the point before left, and the two sums are then copied into the two result rows.
  The run is the symbolic execution of the kernel's own text; what each written buffer ends with is recorded as the list of
  pieces that execution finds (last store first), not transcribed.
-/
import proofs.«102013_j71923522339050_1_alg».proof.Proof.KI.R0Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at the LAST point: this point's block is added to the running sums the point before left, and the two sums are then copied into the two result rows. On whole memory — the three inputs' at their contents `x0 x1 x2` — it runs to the continuation holding
    the inputs as they were and every buffer it stored into with its pieces written. -/
noncomputable def kernelRun0_C (c : Dev nD) (i : grid0.Coords) (arg1 : Memref sig .tc .vmem S1344x128 .f32) (harg1 : arg1.IsWhole) (arg2 : Memref sig .tc .vmem S128x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (hc0 : ¬cond0_0 i) (hc1 : cond0_1 i)
    (x0 : Vec F S1344x128 .f32) (x1 : Vec F S128x256 .f32) (x2 : Vec F S1x256 .f32) (xs0 xs1 : Vec F S1x256 .f32) :
    Σ' (L3 : List (View.Piece (Elt F) S1x256 .f32)) (L4 : List (View.Piece (Elt F) S1x256 .f32)) (LS0 : List (View.Piece (Elt F) S1x256 .f32)), { LS1 : List (View.Piece (Elt F) S1x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ owns (c : Thread nD τ) arg6 fullShare xs0 ∗ owns (c : Thread nD τ) arg7 fullShare xs1
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__stats_kernel i arg1 harg1 arg2 harg2 arg3 harg3 arg4 harg4 arg5 harg5 arg6 harg6 arg7 harg7) K } := by
  refine ⟨?_, ?_, ?_, ?_, fun E K => ?run⟩
  case run =>
    simp only [cc0__stats_kernel_eq_skeleton]; unfold cc0__stats_kernel_skel
    unfold owns
    iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg6.eq_unread hfs0; obtain rfl := harg7.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    isplitl [HS0]; · iexists _; iexact HS0
    iexists _; iexact HS1

end Cert.KernelIdeal.Hand

end
-- ==== Proof.KI.R0Cases.lean ====
/-
  The statistics kernel, part 3: what each of the three runs leaves behind, read back from the pieces the run found.

  At the first point and at a middle point the body stores only into its two scratch rows (the running column sums of Y and
  of Y²); at the last point it also copies the two sums into the two result rows.  Each written row's contents are the run's
  pieces read back; the pieces of each row tile it, so the read-back does not depend on what the row held before.
-/
import proofs.«102013_j71923522339050_1_alg».proof.Proof.KI.R0RunA
import proofs.«102013_j71923522339050_1_alg».proof.Proof.KI.R0RunB
import proofs.«102013_j71923522339050_1_alg».proof.Proof.KI.R0RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem N0_eq : cfg0.N = 8 := N_0

/-- Every point after the first fails the first-point test. -/
theorem ncond0_0_of_pos (t : Fin cfg0.N) (h : t.val ≠ 0) : ¬cond0_0 (grid0.coords t) := fun hc => by
  have h0 := (hcond0_0 t).mp hc
  have hN : t.val < 8 := lt_of_lt_of_eq t.isLt N0_eq
  omega

/-- The first point fails the last-point test. -/
theorem ncond0_1_of_zero (t : Fin cfg0.N) (h : t.val = 0) : ¬cond0_1 (grid0.coords t) := fun hc => by
  have h0 := (hcond0_1 t).mp hc
  omega

/-- A placeholder for a result row at a point where its window is idle: nothing consults it. -/
def idleRow : Vec F S1x256 .f32 := VO0_3.read (Elt F) (VO0_3.junk)

/-! ## What each case's run leaves -/

section Cases
variable (c : Dev nD) (i : grid0.Coords) (arg1 : Memref sig .tc .vmem S1344x128 .f32) (harg1 : arg1.IsWhole) (arg2 : Memref sig .tc .vmem S128x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole)
variable (x0 : Vec F S1344x128 .f32) (x1 : Vec F S128x256 .f32) (x2 : Vec F S1x256 .f32)

/-- First point: the running sums after it. -/
def sout0_A_0 (hc0 : cond0_0 i) (hc1 : ¬cond0_1 i) : Vec F S1x256 .f32 :=
  VS0_0.read (Elt F) (VS0_0.writes (Elt F) (VS0_0.junk) (kernelRun0_A c i arg1 harg1 arg2 harg2 arg3 harg3 arg4 harg4 arg5 harg5 arg6 harg6 arg7 harg7 hc0 hc1 x0 x1 x2).1)
def sout0_A_1 (hc0 : cond0_0 i) (hc1 : ¬cond0_1 i) : Vec F S1x256 .f32 :=
  VS0_1.read (Elt F) (VS0_1.writes (Elt F) (VS0_1.junk) (kernelRun0_A c i arg1 harg1 arg2 harg2 arg3 harg3 arg4 harg4 arg5 harg5 arg6 harg6 arg7 harg7 hc0 hc1 x0 x1 x2).2.1)
theorem scover0_A_0 (hc0 : cond0_0 i) (hc1 : ¬cond0_1 i) (y : S1x256.Idx) :
    ∃ pc ∈ (kernelRun0_A c i arg1 harg1 arg2 harg2 arg3 harg3 arg4 harg4 arg5 harg5 arg6 harg6 arg7 harg7 hc0 hc1 x0 x1 x2).1, y ∈ pc.1.set :=
  View.cover_of_tiledL (kernelRun0_A c i arg1 harg1 arg2 harg2 arg3 harg3 arg4 harg4 arg5 harg5 arg6 harg6 arg7 harg7 hc0 hc1 x0 x1 x2).1 S1x256.size (by sl_kernel_rfl) y
theorem scover0_A_1 (hc0 : cond0_0 i) (hc1 : ¬cond0_1 i) (y : S1x256.Idx) :
    ∃ pc ∈ (kernelRun0_A c i arg1 harg1 arg2 harg2 arg3 harg3 arg4 harg4 arg5 harg5 arg6 harg6 arg7 harg7 hc0 hc1 x0 x1 x2).2.1, y ∈ pc.1.set :=
  View.cover_of_tiledL (kernelRun0_A c i arg1 harg1 arg2 harg2 arg3 harg3 arg4 harg4 arg5 harg5 arg6 harg6 arg7 harg7 hc0 hc1 x0 x1 x2).2.1 S1x256.size (by sl_kernel_rfl) y

variable (xs0 xs1 : Vec F S1x256 .f32)

/-- Middle point: the running sums after it, from those before it. -/
def sout0_B_0 (hc0 : ¬cond0_0 i) (hc1 : ¬cond0_1 i) : Vec F S1x256 .f32 :=
  VS0_0.read (Elt F) (VS0_0.writes (Elt F) (VS0_0.junk) (kernelRun0_B c i arg1 harg1 arg2 harg2 arg3 harg3 arg4 harg4 arg5 harg5 arg6 harg6 arg7 harg7 hc0 hc1 x0 x1 x2 xs0 xs1).1)
def sout0_B_1 (hc0 : ¬cond0_0 i) (hc1 : ¬cond0_1 i) : Vec F S1x256 .f32 :=
  VS0_1.read (Elt F) (VS0_1.writes (Elt F) (VS0_1.junk) (kernelRun0_B c i arg1 harg1 arg2 harg2 arg3 harg3 arg4 harg4 arg5 harg5 arg6 harg6 arg7 harg7 hc0 hc1 x0 x1 x2 xs0 xs1).2.1)
theorem scover0_B_0 (hc0 : ¬cond0_0 i) (hc1 : ¬cond0_1 i) (y : S1x256.Idx) :
    ∃ pc ∈ (kernelRun0_B c i arg1 harg1 arg2 harg2 arg3 harg3 arg4 harg4 arg5 harg5 arg6 harg6 arg7 harg7 hc0 hc1 x0 x1 x2 xs0 xs1).1, y ∈ pc.1.set :=
  View.cover_of_tiledL (kernelRun0_B c i arg1 harg1 arg2 harg2 arg3 harg3 arg4 harg4 arg5 harg5 arg6 harg6 arg7 harg7 hc0 hc1 x0 x1 x2 xs0 xs1).1 S1x256.size (by sl_kernel_rfl) y
theorem scover0_B_1 (hc0 : ¬cond0_0 i) (hc1 : ¬cond0_1 i) (y : S1x256.Idx) :
    ∃ pc ∈ (kernelRun0_B c i arg1 harg1 arg2 harg2 arg3 harg3 arg4 harg4 arg5 harg5 arg6 harg6 arg7 harg7 hc0 hc1 x0 x1 x2 xs0 xs1).2.1, y ∈ pc.1.set :=
  View.cover_of_tiledL (kernelRun0_B c i arg1 harg1 arg2 harg2 arg3 harg3 arg4 harg4 arg5 harg5 arg6 harg6 arg7 harg7 hc0 hc1 x0 x1 x2 xs0 xs1).2.1 S1x256.size (by sl_kernel_rfl) y

/-- Last point: the two result rows and the running sums after it, from the sums before it. -/
def out0_C_3 (hc0 : ¬cond0_0 i) (hc1 : cond0_1 i) : Vec F S1x256 .f32 :=
  VO0_3.read (Elt F) (VO0_3.writes (Elt F) (VO0_3.junk) (kernelRun0_C c i arg1 harg1 arg2 harg2 arg3 harg3 arg4 harg4 arg5 harg5 arg6 harg6 arg7 harg7 hc0 hc1 x0 x1 x2 xs0 xs1).1)
def out0_C_4 (hc0 : ¬cond0_0 i) (hc1 : cond0_1 i) : Vec F S1x256 .f32 :=
  VO0_4.read (Elt F) (VO0_4.writes (Elt F) (VO0_4.junk) (kernelRun0_C c i arg1 harg1 arg2 harg2 arg3 harg3 arg4 harg4 arg5 harg5 arg6 harg6 arg7 harg7 hc0 hc1 x0 x1 x2 xs0 xs1).2.1)
def sout0_C_0 (hc0 : ¬cond0_0 i) (hc1 : cond0_1 i) : Vec F S1x256 .f32 :=
  VS0_0.read (Elt F) (VS0_0.writes (Elt F) (VS0_0.junk) (kernelRun0_C c i arg1 harg1 arg2 harg2 arg3 harg3 arg4 harg4 arg5 harg5 arg6 harg6 arg7 harg7 hc0 hc1 x0 x1 x2 xs0 xs1).2.2.1)
def sout0_C_1 (hc0 : ¬cond0_0 i) (hc1 : cond0_1 i) : Vec F S1x256 .f32 :=
  VS0_1.read (Elt F) (VS0_1.writes (Elt F) (VS0_1.junk) (kernelRun0_C c i arg1 harg1 arg2 harg2 arg3 harg3 arg4 harg4 arg5 harg5 arg6 harg6 arg7 harg7 hc0 hc1 x0 x1 x2 xs0 xs1).2.2.2.1)
theorem cover0_C_3 (hc0 : ¬cond0_0 i) (hc1 : cond0_1 i) (y : S1x256.Idx) :
    ∃ pc ∈ (kernelRun0_C c i arg1 harg1 arg2 harg2 arg3 harg3 arg4 harg4 arg5 harg5 arg6 harg6 arg7 harg7 hc0 hc1 x0 x1 x2 xs0 xs1).1, y ∈ pc.1.set :=
  View.cover_of_tiledL (kernelRun0_C c i arg1 harg1 arg2 harg2 arg3 harg3 arg4 harg4 arg5 harg5 arg6 harg6 arg7 harg7 hc0 hc1 x0 x1 x2 xs0 xs1).1 S1x256.size (by sl_kernel_rfl) y
theorem cover0_C_4 (hc0 : ¬cond0_0 i) (hc1 : cond0_1 i) (y : S1x256.Idx) :
    ∃ pc ∈ (kernelRun0_C c i arg1 harg1 arg2 harg2 arg3 harg3 arg4 harg4 arg5 harg5 arg6 harg6 arg7 harg7 hc0 hc1 x0 x1 x2 xs0 xs1).2.1, y ∈ pc.1.set :=
  View.cover_of_tiledL (kernelRun0_C c i arg1 harg1 arg2 harg2 arg3 harg3 arg4 harg4 arg5 harg5 arg6 harg6 arg7 harg7 hc0 hc1 x0 x1 x2 xs0 xs1).2.1 S1x256.size (by sl_kernel_rfl) y
theorem scover0_C_0 (hc0 : ¬cond0_0 i) (hc1 : cond0_1 i) (y : S1x256.Idx) :
    ∃ pc ∈ (kernelRun0_C c i arg1 harg1 arg2 harg2 arg3 harg3 arg4 harg4 arg5 harg5 arg6 harg6 arg7 harg7 hc0 hc1 x0 x1 x2 xs0 xs1).2.2.1, y ∈ pc.1.set :=
  View.cover_of_tiledL (kernelRun0_C c i arg1 harg1 arg2 harg2 arg3 harg3 arg4 harg4 arg5 harg5 arg6 harg6 arg7 harg7 hc0 hc1 x0 x1 x2 xs0 xs1).2.2.1 S1x256.size (by sl_kernel_rfl) y
theorem scover0_C_1 (hc0 : ¬cond0_0 i) (hc1 : cond0_1 i) (y : S1x256.Idx) :
    ∃ pc ∈ (kernelRun0_C c i arg1 harg1 arg2 harg2 arg3 harg3 arg4 harg4 arg5 harg5 arg6 harg6 arg7 harg7 hc0 hc1 x0 x1 x2 xs0 xs1).2.2.2.1, y ∈ pc.1.set :=
  View.cover_of_tiledL (kernelRun0_C c i arg1 harg1 arg2 harg2 arg3 harg3 arg4 harg4 arg5 harg5 arg6 harg6 arg7 harg7 hc0 hc1 x0 x1 x2 xs0 xs1).2.2.2.1 S1x256.size (by sl_kernel_rfl) y

end Cases

end Cert.KernelIdeal.Hand

end
-- ==== Proof.KI.Region0.lean ====
/-
  The statistics kernel, part 4: what every point leaves behind, the invariant that carries the running sums from point to
  point, and the body's obligation to the pipeline at every point.

  After point t the two scratch rows hold the running sums over the blocks 0 … t; the two result rows hold something only
  after the last point, where the body copies the sums into them.  This is stated by recursion on the point (`outsAt0`): the
  first point's run starts from anything, every later point's run starts from what the point before left.  Between points
  the region's invariant (`PhiS`) owns the two scratch rows at exactly those contents, beside the scoped memory the kernel
  never touches and the generator register.
-/
import proofs.«102013_j71923522339050_1_alg».proof.Proof.KI.R0Cases

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The four rows a point leaves: result row 0, result row 1, the running sums, the running sums of squares. -/
abbrev Rows (F : FTy → Type) [FloatOps F] : Type := Vec F S1x256 .f32 × Vec F S1x256 .f32 × Vec F S1x256 .f32 × Vec F S1x256 .f32

/-- THE ACCUMULATION, by recursion on the point. -/
def outsAt0 (c : Dev nD) : (n : ℕ) → n < cfg0.N → Rows F
  | 0, hn =>
    (idleRow, idleRow,
     sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) (iblk0 V c 0 ⟨0, hn⟩) (iblk0 V c 1 ⟨0, hn⟩) (iblk0 V c 2 ⟨0, hn⟩) ((hcond0_0 ⟨0, hn⟩).mpr (Nat.zero_mod _)) (ncond0_1_of_zero ⟨0, hn⟩ rfl),
     sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) (iblk0 V c 0 ⟨0, hn⟩) (iblk0 V c 1 ⟨0, hn⟩) (iblk0 V c 2 ⟨0, hn⟩) ((hcond0_0 ⟨0, hn⟩).mpr (Nat.zero_mod _)) (ncond0_1_of_zero ⟨0, hn⟩ rfl))
  | n + 1, hn =>
    if h1 : (n + 1) % 8 = 7 then
      (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (iblk0 V c 0 ⟨n + 1, hn⟩) (iblk0 V c 1 ⟨n + 1, hn⟩) (iblk0 V c 2 ⟨n + 1, hn⟩) (outsAt0 c n (Nat.lt_of_succ_lt hn)).2.2.1 (outsAt0 c n (Nat.lt_of_succ_lt hn)).2.2.2 (ncond0_0_of_pos ⟨n + 1, hn⟩ (Nat.succ_ne_zero n)) ((hcond0_1 ⟨n + 1, hn⟩).mpr h1),
       out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (iblk0 V c 0 ⟨n + 1, hn⟩) (iblk0 V c 1 ⟨n + 1, hn⟩) (iblk0 V c 2 ⟨n + 1, hn⟩) (outsAt0 c n (Nat.lt_of_succ_lt hn)).2.2.1 (outsAt0 c n (Nat.lt_of_succ_lt hn)).2.2.2 (ncond0_0_of_pos ⟨n + 1, hn⟩ (Nat.succ_ne_zero n)) ((hcond0_1 ⟨n + 1, hn⟩).mpr h1),
       sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (iblk0 V c 0 ⟨n + 1, hn⟩) (iblk0 V c 1 ⟨n + 1, hn⟩) (iblk0 V c 2 ⟨n + 1, hn⟩) (outsAt0 c n (Nat.lt_of_succ_lt hn)).2.2.1 (outsAt0 c n (Nat.lt_of_succ_lt hn)).2.2.2 (ncond0_0_of_pos ⟨n + 1, hn⟩ (Nat.succ_ne_zero n)) ((hcond0_1 ⟨n + 1, hn⟩).mpr h1),
       sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (iblk0 V c 0 ⟨n + 1, hn⟩) (iblk0 V c 1 ⟨n + 1, hn⟩) (iblk0 V c 2 ⟨n + 1, hn⟩) (outsAt0 c n (Nat.lt_of_succ_lt hn)).2.2.1 (outsAt0 c n (Nat.lt_of_succ_lt hn)).2.2.2 (ncond0_0_of_pos ⟨n + 1, hn⟩ (Nat.succ_ne_zero n)) ((hcond0_1 ⟨n + 1, hn⟩).mpr h1))
    else
      (idleRow, idleRow,
       sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (iblk0 V c 0 ⟨n + 1, hn⟩) (iblk0 V c 1 ⟨n + 1, hn⟩) (iblk0 V c 2 ⟨n + 1, hn⟩) (outsAt0 c n (Nat.lt_of_succ_lt hn)).2.2.1 (outsAt0 c n (Nat.lt_of_succ_lt hn)).2.2.2 (ncond0_0_of_pos ⟨n + 1, hn⟩ (Nat.succ_ne_zero n)) (fun h => h1 ((hcond0_1 ⟨n + 1, hn⟩).mp h)),
       sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (iblk0 V c 0 ⟨n + 1, hn⟩) (iblk0 V c 1 ⟨n + 1, hn⟩) (iblk0 V c 2 ⟨n + 1, hn⟩) (outsAt0 c n (Nat.lt_of_succ_lt hn)).2.2.1 (outsAt0 c n (Nat.lt_of_succ_lt hn)).2.2.2 (ncond0_0_of_pos ⟨n + 1, hn⟩ (Nat.succ_ne_zero n)) (fun h => h1 ((hcond0_1 ⟨n + 1, hn⟩).mp h)))

/-- `outsAt0` at the first point. -/
theorem outsAt0_A (c : Dev nD) (t : Fin cfg0.N) (h0 : t.val = 0) :
    outsAt0 V c t.val t.isLt = (idleRow, idleRow,
      sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (iblk0 V c 0 t) (iblk0 V c 1 t) (iblk0 V c 2 t) ((hcond0_0 t).mpr (by rw [h0])) (ncond0_1_of_zero t h0),
      sout0_A_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (iblk0 V c 0 t) (iblk0 V c 1 t) (iblk0 V c 2 t) ((hcond0_0 t).mpr (by rw [h0])) (ncond0_1_of_zero t h0)) := by
  obtain ⟨n, hn⟩ := t
  cases n with
  | zero => rfl
  | succ n => exact absurd h0 (Nat.succ_ne_zero n)

/-- `outsAt0` at a middle point: over what the point before left. -/
theorem outsAt0_B (c : Dev nD) (t : Fin cfg0.N) (h0 : t.val ≠ 0) (h1 : ¬t.val % 8 = 7) :
    outsAt0 V c t.val t.isLt = (idleRow, idleRow,
      sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (iblk0 V c 0 t) (iblk0 V c 1 t) (iblk0 V c 2 t) (outsAt0 V c (t.val - 1) (Nat.lt_of_le_of_lt (Nat.sub_le _ _) t.isLt)).2.2.1 (outsAt0 V c (t.val - 1) (Nat.lt_of_le_of_lt (Nat.sub_le _ _) t.isLt)).2.2.2 (ncond0_0_of_pos t h0) (fun h => h1 ((hcond0_1 t).mp h)),
      sout0_B_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (iblk0 V c 0 t) (iblk0 V c 1 t) (iblk0 V c 2 t) (outsAt0 V c (t.val - 1) (Nat.lt_of_le_of_lt (Nat.sub_le _ _) t.isLt)).2.2.1 (outsAt0 V c (t.val - 1) (Nat.lt_of_le_of_lt (Nat.sub_le _ _) t.isLt)).2.2.2 (ncond0_0_of_pos t h0) (fun h => h1 ((hcond0_1 t).mp h))) := by
  obtain ⟨n, hn⟩ := t
  cases n with
  | zero => exact absurd rfl h0
  | succ n => exact (dif_neg h1).trans rfl

/-- `outsAt0` at the last point: over what the point before left. -/
theorem outsAt0_C (c : Dev nD) (t : Fin cfg0.N) (h0 : t.val ≠ 0) (h1 : t.val % 8 = 7) :
    outsAt0 V c t.val t.isLt = (
      out0_C_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (iblk0 V c 0 t) (iblk0 V c 1 t) (iblk0 V c 2 t) (outsAt0 V c (t.val - 1) (Nat.lt_of_le_of_lt (Nat.sub_le _ _) t.isLt)).2.2.1 (outsAt0 V c (t.val - 1) (Nat.lt_of_le_of_lt (Nat.sub_le _ _) t.isLt)).2.2.2 (ncond0_0_of_pos t h0) ((hcond0_1 t).mpr h1),
      out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (iblk0 V c 0 t) (iblk0 V c 1 t) (iblk0 V c 2 t) (outsAt0 V c (t.val - 1) (Nat.lt_of_le_of_lt (Nat.sub_le _ _) t.isLt)).2.2.1 (outsAt0 V c (t.val - 1) (Nat.lt_of_le_of_lt (Nat.sub_le _ _) t.isLt)).2.2.2 (ncond0_0_of_pos t h0) ((hcond0_1 t).mpr h1),
      sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (iblk0 V c 0 t) (iblk0 V c 1 t) (iblk0 V c 2 t) (outsAt0 V c (t.val - 1) (Nat.lt_of_le_of_lt (Nat.sub_le _ _) t.isLt)).2.2.1 (outsAt0 V c (t.val - 1) (Nat.lt_of_le_of_lt (Nat.sub_le _ _) t.isLt)).2.2.2 (ncond0_0_of_pos t h0) ((hcond0_1 t).mpr h1),
      sout0_C_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (iblk0 V c 0 t) (iblk0 V c 1 t) (iblk0 V c 2 t) (outsAt0 V c (t.val - 1) (Nat.lt_of_le_of_lt (Nat.sub_le _ _) t.isLt)).2.2.1 (outsAt0 V c (t.val - 1) (Nat.lt_of_le_of_lt (Nat.sub_le _ _) t.isLt)).2.2.2 (ncond0_0_of_pos t h0) ((hcond0_1 t).mpr h1)) := by
  obtain ⟨n, hn⟩ := t
  cases n with
  | zero => exact absurd rfl h0
  | succ n => exact (dif_pos h1).trans rfl

/-! ## The invariant between points -/

/-- Before the first point: the scoped memory at anything and the generator register. Before a later point: the two scratch
    rows at what the point before left, the untouched scoped memory, the generator register. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.2.1) ∗ owns (c : Thread nD τ) scM0_1 fullShare ((outsAt0 V c n hn).2.2.2) ∗ rest0 (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2.2.1) ∗ owns (c : Thread nD τ) scM0_1 fullShare ((outsAt0 V c n hn).2.2.2) ∗ rest0 (F := F) c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2.2.1) ∗ owns (c : Thread nD τ) scM0_1 fullShare ((outsAt0 V c (n - 1) (by omega)).2.2.2) ∗ rest0 (F := F) c) ∗ (∃ r, prngReg c r)) := by
  cases n with
  | zero => exact absurd rfl hz
  | succ n => rfl

/-! ## The pipeline's proof data -/

/-- The arrays as the region finds them; after the body at point `t` each input's staging memory at its block and the result
    rows' at `outsAt0`; the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
    | ⟨4, _⟩ => (outsAt0 V c t.val t.isLt).2.1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]
theorem after0_4 (c : Dev nD) (t : Fin cfg0.N) : (dat0 V c).after 4 t = (outsAt0 V c t.val t.isLt).2.1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 4800000 in
/-- The body at any point. The inputs' staging memory holds their blocks; the point's position says which of the three runs
    applies; the invariant hands the run the scratch rows (at anything at the first point, at what the point before left
    afterwards) and takes them back at this point's contents; the result rows are handed back untouched where their windows
    are idle and at the copied sums at the last point; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS V c (t.val + 1) t.isLt from rfl, PhiS_succ]
  have hN : t.val < 8 := lt_of_lt_of_eq t.isLt N0_eq
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  by_cases hz : t.val = 0
  · have hc1 := ncond0_1_of_zero t hz
    rw [Dat.leavesExact_idle (dat0 V c) 3 t (idleAt0_3 t hc1) (noFlush0_3 t hc1),
      Dat.leavesExact_idle (dat0 V c) 4 t (idleAt0_4 t hc1) (noFlush0_4 t hc1)]
    rw [outsAt0_A V c t hz]
    unfold sout0_A_0 sout0_A_1; (try dsimp only)
    rw [PhiS_castSucc V c t, PhiS_zero V c _ _ hz, PhiA0_eq]
    iintro ⟨⟨⟨HS0, HS1, Hrest⟩, Hg⟩, Ho, ⟨%d0, H0⟩, ⟨%d1, H1⟩, ⟨%d2, H2⟩, ⟨%d3, H3⟩, ⟨%d4, H4⟩⟩
    iapply ((kernelRun0_A c (grid0.coords t) _ _ _ _ _ _ _ _ _ _ _ _ _ _ ((hcond0_0 t).mpr (by rw [hz])) hc1 (iblk0 V c 0 t) (iblk0 V c 1 t) (iblk0 V c 2 t)).2.2 _ _ Set.univ _)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    iintro ⟨H0, H1, H2, H3, H4, ⟨%es0, HS0⟩, ⟨%es1, HS1⟩⟩
    isplitl [HS0 HS1 Hrest Hg]
    · isplitl [HS0 HS1 Hrest]
      · isplitl [HS0]
        · unfold owns; iexists _; isplitr
          swap; · iexact HS0
          ipureintro; exact View.read_writes_of_cover _ _ _ _ _ (scover0_A_0 c _ _ _ _ _ _ _ _ _ _ _ _ _ _ _ _ _ _ _ _)
        isplitl [HS1]
        · unfold owns; iexists _; isplitr
          swap; · iexact HS1
          ipureintro; exact View.read_writes_of_cover _ _ _ _ _ (scover0_A_1 c _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]; · iexists _; iexact H3
    iexists _; iexact H4
  · by_cases h7 : t.val % 8 = 7
    · have hc0 := ncond0_0_of_pos t hz
      have hc1 := (hcond0_1 t).mpr h7
      rw [show (dat0 V c).leavesExact 3 t = owns (c : Thread nD τ) (ms0_3 t) fullShare ((dat0 V c).after 3 t) from by
        unfold Dat.leavesExact; rw [liveAt0_3 t hc1], after0_3]
      rw [show (dat0 V c).leavesExact 4 t = owns (c : Thread nD τ) (ms0_4 t) fullShare ((dat0 V c).after 4 t) from by
        unfold Dat.leavesExact; rw [liveAt0_4 t hc1], after0_4]
      rw [outsAt0_C V c t hz h7]
      unfold out0_C_3 out0_C_4 sout0_C_0 sout0_C_1; (try dsimp only)
      rw [PhiS_castSucc V c t, PhiS_pos V c _ _ hz]
      iintro ⟨⟨⟨HS0, HS1, Hrest⟩, Hg⟩, Ho, ⟨%d0, H0⟩, ⟨%d1, H1⟩, ⟨%d2, H2⟩, ⟨%d3, H3⟩, ⟨%d4, H4⟩⟩
      iapply ((kernelRun0_C c (grid0.coords t) _ _ _ _ _ _ _ _ _ _ _ _ _ _ hc0 hc1 (iblk0 V c 0 t) (iblk0 V c 1 t) (iblk0 V c 2 t) _ _).2.2.2.2 Set.univ _)
      isplitl [H0]; · iexact H0
      isplitl [H1]; · iexact H1
      isplitl [H2]; · iexact H2
      isplitl [H3]; · iexists _; iexact H3
      isplitl [H4]; · iexists _; iexact H4
      isplitl [HS0]; · iexact HS0
      isplitl [HS1]; · iexact HS1
      iintro ⟨H0, H1, H2, ⟨%e3, H3⟩, ⟨%e4, H4⟩, ⟨%es0, HS0⟩, ⟨%es1, HS1⟩⟩
      isplitl [HS0 HS1 Hrest Hg]
      · isplitl [HS0 HS1 Hrest]
        · isplitl [HS0]
          · unfold owns; iexists _; isplitr
            swap; · iexact HS0
            ipureintro; exact View.read_writes_of_cover _ _ _ _ _ (scover0_C_0 c _ _ _ _ _ _ _ _ _ _ _ _ _ _ _ _ _ _ _ _ _ _)
          isplitl [HS1]
          · unfold owns; iexists _; isplitr
            swap; · iexact HS1
            ipureintro; exact View.read_writes_of_cover _ _ _ _ _ (scover0_C_1 c _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover0_C_3 c _ _ _ _ _ _ _ _ _ _ _ _ _ _ _ _ _ _ _ _ _ _)
      unfold owns; iexists _; isplitr
      swap; · iexact H4
      ipureintro; exact View.read_writes_of_cover _ _ _ _ _ (cover0_C_4 c _ _ _ _ _ _ _ _ _ _ _ _ _ _ _ _ _ _ _ _ _ _)
    · have hc0 := ncond0_0_of_pos t hz
      have hc1 : ¬cond0_1 (grid0.coords t) := fun h => h7 ((hcond0_1 t).mp h)
      rw [Dat.leavesExact_idle (dat0 V c) 3 t (idleAt0_3 t hc1) (noFlush0_3 t hc1),
        Dat.leavesExact_idle (dat0 V c) 4 t (idleAt0_4 t hc1) (noFlush0_4 t hc1)]
      rw [outsAt0_B V c t hz h7]
      unfold sout0_B_0 sout0_B_1; (try dsimp only)
      rw [PhiS_castSucc V c t, PhiS_pos V c _ _ hz]
      iintro ⟨⟨⟨HS0, HS1, Hrest⟩, Hg⟩, Ho, ⟨%d0, H0⟩, ⟨%d1, H1⟩, ⟨%d2, H2⟩, ⟨%d3, H3⟩, ⟨%d4, H4⟩⟩
      iapply ((kernelRun0_B c (grid0.coords t) _ _ _ _ _ _ _ _ _ _ _ _ _ _ hc0 hc1 (iblk0 V c 0 t) (iblk0 V c 1 t) (iblk0 V c 2 t) _ _).2.2 _ _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, ⟨%es0, HS0⟩, ⟨%es1, HS1⟩⟩
      isplitl [HS0 HS1 Hrest Hg]
      · isplitl [HS0 HS1 Hrest]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _)
          isplitl [HS1]
          · unfold owns; iexists _; isplitr
            swap; · iexact HS1
            ipureintro; exact View.read_writes_of_cover _ _ _ _ _ (scover0_B_1 c _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexists _; iexact H3
      iexists _; iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the scoped memory back: the running sums' named contents are forgotten. -/
theorem hout0 (c : Dev nD) : (dat0 V c).Φ (Fin.last cfg0.N) ⊢ Pipeline.ΦA spec0 c := by
  have ht : (Fin.last cfg0.N).val ≠ 0 := by rw [Fin.val_last]; have : cfg0.N = 8 := N_0; omega
  rw [show (dat0 V c).Φ (Fin.last cfg0.N) = PhiS V c (Fin.last cfg0.N).val (Nat.le_of_lt_succ (Fin.last cfg0.N).isLt) from rfl,
    PhiS_pos V c _ _ ht, PhiA0_eq]
  iintro ⟨⟨HS0, HS1, Hrest⟩, Hg⟩
  isplitl [HS0 HS1 Hrest]
  · isplitl [HS0]; · iexists _; iexact HS0
    isplitl [HS1]; · iexists _; iexact HS1
    iexact Hrest
  iexact Hg

end Cert.KernelIdeal.Hand

end
-- ==== Proof.KI.Region1.lean ====
/- REGION 1's half of the frame: the second pallas_call (the affine map followed by the positive part), generic in
   the float instance, at a parameter `V` — the TensorCore's buffer contents when the region is entered.

   The body at a grid point reads its five input blocks whole — a block of 1344 rows of the flattened input, the
   128x256 weight matrix, and the three rows bias, scale and shift —, and stores ONE value, the payload
   `k1_pay1` of those five loads (max(((x·W + b)·scale + shift), 0), blockwise), over the whole 1344x256 output
   block.  So after the body every input buffer still holds its block and the output buffer holds that payload.
   The weight matrix and the three rows have a constant block index: they are fetched at the first point only and
   found unchanged at the later ones. -/
import proofs.«102013_j71923522339050_1_alg».proof.Proof.Gen.KernelIdeal.Launch
import proofs.«102013_j71923522339050_1_alg».proof.Proof.Gen.KernelIdeal.Skeleton
import proofs.«102013_j71923522339050_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

-- membership in a rectangle with a long axis recurses once per coordinate of that axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, whether the pipeline fetched it there
    or not (unfetched, the block index has not moved since the point before), for any proof data whose array is
    `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, whether the pipeline fetched it there
    or not (unfetched, the block index has not moved since the point before), for any proof data whose array is
    `V`'s and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, whether the pipeline fetched it there
    or not (unfetched, the block index has not moved since the point before), for any proof data whose array is
    `V`'s and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, whether the pipeline fetched it there
    or not (unfetched, the block index has not moved since the point before), for any proof data whose array is
    `V`'s and whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, whether the pipeline fetched it there
    or not (unfetched, the block index has not moved since the point before), for any proof data whose array is
    `V`'s and whose body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the one store go through the whole rectangle of their buffer -/

abbrev r1_0 : Rect S1344x128 := Rect.unit (s := S1344x128) ![0, 0] S1344x128.size inb_S1344x128_S1344x128_0_0
abbrev r1_1 : Rect S128x256 := Rect.unit (s := S128x256) ![0, 0] S128x256.size inb_S128x256_S128x256_0_0
abbrev r1_2 : Rect S1x256 := Rect.unit (s := S1x256) ![0, 0] S1x256.size inb_S1x256_S1x256_0_0
abbrev r1_5 : Rect S1344x256 := Rect.unit (s := S1344x256) ![0, 0] S1344x256.size inb_S1344x256_S1344x256_0_0

/-! ## What the body leaves in the output window's buffer -/

/-- The output window's staging buffer after the body, from the five input blocks: its one store, the payload
    of the five loads over the whole block. -/
def out1_5 (x0 : Vec F S1344x128 .f32) (x1 : Vec F S128x256 .f32) (x2 x3 x4 : Vec F S1x256 .f32) : Vec F S1344x256 .f32 :=
  View.canon [⟨r1_5, k1_pay1 (View.ld x0 r1_0) (View.ld x1 r1_1) (View.ld x2 r1_2) (View.ld x3 r1_2) (View.ld x4 r1_2)⟩]

/-- The one store's rectangle is the whole buffer, so it covers it. -/
theorem cover1_5 (p0 : Vec F S1344x256 .f32) (y : S1344x256.Idx) :
    ∃ pc ∈ ([⟨r1_5, p0⟩] : List (View.Piece (Elt F) S1344x256 .f32)), y ∈ pc.1.set :=
  View.cover_of_tiled [⟨r1_5, p0⟩] S1344x256.size (by rfl) y

/-! ## The body's triple -/

set_option maxHeartbeats 1000000 in
/-- The kernel body on whole staging memrefs, the five inputs' at read contents `x0 … x4` and the output's at
    anything, runs to the continuation holding the inputs' as they were and the output's at `out1_5` of the inputs:
    the body reads the output buffer once too, and uses nothing of what it read. -/
theorem sound_kernel1 (c : Dev nD) (E : Set ℕ) (i : grid1.Coords) (arg1 : Memref sig .tc .vmem S1344x128 .f32) (harg1 : arg1.IsWhole) (arg2 : Memref sig .tc .vmem S128x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1344x256 .f32) (harg6 : arg6.IsWhole)
    (x0 : Vec F S1344x128 .f32) (x1 : Vec F S128x256 .f32) (x2 x3 x4 : Vec F S1x256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E (cc1__affine_relu_kernel i arg1 harg1 arg2 harg2 arg3 harg3 arg4 harg4 arg5 harg5 arg6 harg6) K := by
  simp only [cc1__affine_relu_kernel_eq_skeleton]; unfold cc1__affine_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The pipeline's proof data -/

/-- The proof data of this pipeline on core `c`: the arrays as the region finds them (`V`); after the body at
    point `t` each input's buffer at its block and the output's at `out1_5` of the five input blocks; the
    invariant the scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks (`before1_W`), so `sound_kernel1` applies; the
    invariant and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## The one whole-block store read back: its canon is the payload -/

theorem r1_zeros : (![0, 0] : Fin 2 → Nat) = fun _ => 0 := funext fun a => by fin_cases a <;> rfl

/-- The output block after the body IS the payload of the five input blocks: every load reads its buffer whole
    and the one store covers the buffer whole, at offset zero. -/
theorem out1_5_eq (x0 : Vec F S1344x128 .f32) (x1 : Vec F S128x256 .f32) (x2 x3 x4 : Vec F S1x256 .f32) :
    out1_5 x0 x1 x2 x3 x4 = k1_pay1 x0 x1 x2 x3 x4 := by
  unfold out1_5
  rw [View.canon_unit_zero (S := S1344x256) r1_zeros]
  simp only [View.ld_unit_zero (S := S1344x128) r1_zeros, View.ld_unit_zero (S := S128x256) r1_zeros, View.ld_unit_zero (S := S1x256) r1_zeros]

end Cert.KernelIdeal.Hand

end
-- ==== Proof.KI.Run.lean ====
/-
  The whole program as a run: three stretches of host operations (the per-channel shift of the activation and two reshapes),
  the statistics kernel, a stretch of host operations (mean, variance, scale and shift per column), the normalising kernel,
  and a last reshape.  The contents of every buffer at each boundary are named by a fold from the launch memory (`W0` … `W7`):
  a host stretch applies its operations; a kernel leaves its windows' arrays at what its write-backs produce and every other
  buffer as it found it.  The run ends with every unscoped buffer read against `W7`; the frame (each argument array ends as
  launched) and the result's value are both read off that.
-/
import proofs.«102013_j71923522339050_1_alg».proof.Proof.KI.Region0
import proofs.«102013_j71923522339050_1_alg».proof.Proof.KI.Region1
import proofs.«102013_j71923522339050_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

abbrev W0 : Dev nD → Valuation τ sig (Elt F) := fun c b => (s₀ m ρ).mem ((c : Dev nD), b)
abbrev W1 : Dev nD → Valuation τ sig (Elt F) := fun c => StableHlo.after hostOps0 (W0 m ρ c)
abbrev W2 : Dev nD → Valuation τ sig (Elt F) := fun c => StableHlo.after hostOps0_1 (W1 m ρ c)
abbrev W3 : Dev nD → Valuation τ sig (Elt F) := fun c => StableHlo.after hostOps0_2 (W2 m ρ c)
/-- What the statistics kernel finds. -/
abbrev Vr0 : (c : Dev nD) → (b : Ref sig .tc) → Buf (Elt F) ((c : Thread nD τ).loc b) := fun c b => W3 m ρ c b
def W4 (c : Dev nD) : Valuation τ sig (Elt F) :=
  Pipeline.withArrays spec0 c (W3 m ρ c) fun w => (dat0 (Vr0 m ρ) c).arrAt w cfg0.N
theorem W4_arr (c : Dev nD) (w : Fin cfg0.W) :
    W4 m ρ c (Proc.devRef .tc (Pipeline.arrRef spec0 w)) = (dat0 (Vr0 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
abbrev Vr0' : (c : Dev nD) → (b : Ref sig .tc) → Buf (Elt F) ((c : Thread nD τ).loc b) := fun c b => W4 m ρ c b
theorem hF0 (c : Dev nD) (w : Fin cfg0.W) : (dat0 (Vr0 m ρ) c).arrAt w cfg0.N = Vr0' m ρ c (Pipeline.arrRef spec0 w) :=
  (W4_arr m ρ c w).symm
theorem hrest0 (c : Dev nD) : ∀ b, b ∉ Finset.univ.image (Pipeline.arrRef spec0) → Vr0' m ρ c b = Vr0 m ρ c b :=
  fun b hb => W4_of_ne m ρ c b fun w e => hb (Finset.mem_image.mpr ⟨w, Finset.mem_univ _, e⟩)

abbrev W5 : Dev nD → Valuation τ sig (Elt F) := fun c => StableHlo.after hostOps1 (W4 m ρ c)
/-- What the normalising kernel finds. -/
abbrev Vr1 : (c : Dev nD) → (b : Ref sig .tc) → Buf (Elt F) ((c : Thread nD τ).loc b) := fun c b => W5 m ρ c b
def W6 (c : Dev nD) : Valuation τ sig (Elt F) :=
  Pipeline.withArrays spec1 c (W5 m ρ c) fun w => (dat1 (Vr1 m ρ) c).arrAt w cfg1.N
theorem W6_arr (c : Dev nD) (w : Fin cfg1.W) :
    W6 m ρ c (Proc.devRef .tc (Pipeline.arrRef spec1 w)) = (dat1 (Vr1 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
abbrev Vr1' : (c : Dev nD) → (b : Ref sig .tc) → Buf (Elt F) ((c : Thread nD τ).loc b) := fun c b => W6 m ρ c b
theorem hF1 (c : Dev nD) (w : Fin cfg1.W) : (dat1 (Vr1 m ρ) c).arrAt w cfg1.N = Vr1' m ρ c (Pipeline.arrRef spec1 w) :=
  (W6_arr m ρ c w).symm
theorem hrest1 (c : Dev nD) : ∀ b, b ∉ Finset.univ.image (Pipeline.arrRef spec1) → Vr1' m ρ c b = Vr1 m ρ c b :=
  fun b hb => W6_of_ne m ρ c b fun w e => hb (Finset.mem_image.mpr ⟨w, Finset.mem_univ _, e⟩)

abbrev W7 : Dev nD → Valuation τ sig (Elt F) := fun c => StableHlo.after hostOps2 (W6 m ρ c)

/-! ## The arguments end as launched -/

theorem W7_main_arg0 (c : Dev nD) : W7 m ρ c (Proc.devRef .tc main_arg0) = m ((c : Thread nD τ).loc main_arg0) :=
  calc W7 m ρ c (Proc.devRef .tc main_arg0)
    _ = W6 m ρ c (Proc.devRef .tc main_arg0) := StableHlo.after_of_writes_sub hostOps2 _ hostOps2_writes (by decide)
    _ = W5 m ρ c (Proc.devRef .tc main_arg0) := W6_of_ne m ρ c main_arg0 (by decide)
    _ = W4 m ρ c (Proc.devRef .tc main_arg0) := StableHlo.after_of_writes_sub hostOps1 _ hostOps1_writes (by decide)
    _ = W3 m ρ c (Proc.devRef .tc main_arg0) := W4_of_ne m ρ c main_arg0 (by decide)
    _ = W2 m ρ c (Proc.devRef .tc main_arg0) := StableHlo.after_of_writes_sub hostOps0_2 _ hostOps0_2_writes (by decide)
    _ = W1 m ρ c (Proc.devRef .tc main_arg0) := StableHlo.after_of_writes_sub hostOps0_1 _ hostOps0_1_writes (by decide)
    _ = W0 m ρ c (Proc.devRef .tc main_arg0) := StableHlo.after_of_writes_sub hostOps0 _ hostOps0_writes (by decide)
    _ = m ((c : Thread nD τ).loc main_arg0) := rfl

theorem W7_main_arg1 (c : Dev nD) : W7 m ρ c (Proc.devRef .tc main_arg1) = m ((c : Thread nD τ).loc main_arg1) :=
  calc W7 m ρ c (Proc.devRef .tc main_arg1)
    _ = W6 m ρ c (Proc.devRef .tc main_arg1) := StableHlo.after_of_writes_sub hostOps2 _ hostOps2_writes (by decide)
    _ = W5 m ρ c (Proc.devRef .tc main_arg1) := (W6_arr m ρ c 1).trans (((dat1 (Vr1 m ρ) c).arrAt_in 1 rfl _).trans (A_eq1 (Vr1 m ρ) c 1))
    _ = W4 m ρ c (Proc.devRef .tc main_arg1) := StableHlo.after_of_writes_sub hostOps1 _ hostOps1_writes (by decide)
    _ = W3 m ρ c (Proc.devRef .tc main_arg1) := (W4_arr m ρ c 1).trans (((dat0 (Vr0 m ρ) c).arrAt_in 1 rfl _).trans (A_eq0 (Vr0 m ρ) c 1))
    _ = W2 m ρ c (Proc.devRef .tc main_arg1) := StableHlo.after_of_writes_sub hostOps0_2 _ hostOps0_2_writes (by decide)
    _ = W1 m ρ c (Proc.devRef .tc main_arg1) := StableHlo.after_of_writes_sub hostOps0_1 _ hostOps0_1_writes (by decide)
    _ = W0 m ρ c (Proc.devRef .tc main_arg1) := StableHlo.after_of_writes_sub hostOps0 _ hostOps0_writes (by decide)
    _ = m ((c : Thread nD τ).loc main_arg1) := rfl

theorem W7_main_arg2 (c : Dev nD) : W7 m ρ c (Proc.devRef .tc main_arg2) = m ((c : Thread nD τ).loc main_arg2) :=
  calc W7 m ρ c (Proc.devRef .tc main_arg2)
    _ = W6 m ρ c (Proc.devRef .tc main_arg2) := StableHlo.after_of_writes_sub hostOps2 _ hostOps2_writes (by decide)
    _ = W5 m ρ c (Proc.devRef .tc main_arg2) := W6_of_ne m ρ c main_arg2 (by decide)
    _ = W4 m ρ c (Proc.devRef .tc main_arg2) := StableHlo.after_of_writes_sub hostOps1 _ hostOps1_writes (by decide)
    _ = W3 m ρ c (Proc.devRef .tc main_arg2) := W4_of_ne m ρ c main_arg2 (by decide)
    _ = W2 m ρ c (Proc.devRef .tc main_arg2) := StableHlo.after_of_writes_sub hostOps0_2 _ hostOps0_2_writes (by decide)
    _ = W1 m ρ c (Proc.devRef .tc main_arg2) := StableHlo.after_of_writes_sub hostOps0_1 _ hostOps0_1_writes (by decide)
    _ = W0 m ρ c (Proc.devRef .tc main_arg2) := StableHlo.after_of_writes_sub hostOps0 _ hostOps0_writes (by decide)
    _ = m ((c : Thread nD τ).loc main_arg2) := rfl

theorem W7_main_arg3 (c : Dev nD) : W7 m ρ c (Proc.devRef .tc main_arg3) = m ((c : Thread nD τ).loc main_arg3) :=
  calc W7 m ρ c (Proc.devRef .tc main_arg3)
    _ = W6 m ρ c (Proc.devRef .tc main_arg3) := StableHlo.after_of_writes_sub hostOps2 _ hostOps2_writes (by decide)
    _ = W5 m ρ c (Proc.devRef .tc main_arg3) := W6_of_ne m ρ c main_arg3 (by decide)
    _ = W4 m ρ c (Proc.devRef .tc main_arg3) := StableHlo.after_of_writes_sub hostOps1 _ hostOps1_writes (by decide)
    _ = W3 m ρ c (Proc.devRef .tc main_arg3) := W4_of_ne m ρ c main_arg3 (by decide)
    _ = W2 m ρ c (Proc.devRef .tc main_arg3) := StableHlo.after_of_writes_sub hostOps0_2 _ hostOps0_2_writes (by decide)
    _ = W1 m ρ c (Proc.devRef .tc main_arg3) := StableHlo.after_of_writes_sub hostOps0_1 _ hostOps0_1_writes (by decide)
    _ = W0 m ρ c (Proc.devRef .tc main_arg3) := StableHlo.after_of_writes_sub hostOps0 _ hostOps0_writes (by decide)
    _ = m ((c : Thread nD τ).loc main_arg3) := rfl

theorem W7_main_arg4 (c : Dev nD) : W7 m ρ c (Proc.devRef .tc main_arg4) = m ((c : Thread nD τ).loc main_arg4) :=
  calc W7 m ρ c (Proc.devRef .tc main_arg4)
    _ = W6 m ρ c (Proc.devRef .tc main_arg4) := StableHlo.after_of_writes_sub hostOps2 _ hostOps2_writes (by decide)
    _ = W5 m ρ c (Proc.devRef .tc main_arg4) := W6_of_ne m ρ c main_arg4 (by decide)
    _ = W4 m ρ c (Proc.devRef .tc main_arg4) := StableHlo.after_of_writes_sub hostOps1 _ hostOps1_writes (by decide)
    _ = W3 m ρ c (Proc.devRef .tc main_arg4) := W4_of_ne m ρ c main_arg4 (by decide)
    _ = W2 m ρ c (Proc.devRef .tc main_arg4) := StableHlo.after_of_writes_sub hostOps0_2 _ hostOps0_2_writes (by decide)
    _ = W1 m ρ c (Proc.devRef .tc main_arg4) := StableHlo.after_of_writes_sub hostOps0_1 _ hostOps0_1_writes (by decide)
    _ = W0 m ρ c (Proc.devRef .tc main_arg4) := StableHlo.after_of_writes_sub hostOps0 _ hostOps0_writes (by decide)
    _ = m ((c : Thread nD τ).loc main_arg4) := rfl

/-! ## The proof data family and the thread state -/

/-- Both kernels' proof data, each at its region's entry contents. -/
def pdats : (p : Fin 2) → (c : Dev nD) → Dat τ (Elt F) Unit ℕ (UR sig nD τ) ℕ (Pipeline.pin (pcfgs (F := F)) adm p) c
  | ⟨0, _⟩ => fun c => dat0 (Vr0 m ρ) c
  | ⟨1, _⟩ => fun c => dat1 (Vr1 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W7 m ρ c) ∗ ∃ r, prngReg c r)

/-! ## The two kernels as segments -/

-- the library's lemmas are stated over the pinned configuration; unifying with it needs plain definitions unfolded in a
-- metavariable's type
set_option backward.isDefEq.respectTransparency.types false in
/-- Kernel 0 as a segment of the program: entered with every unscoped buffer at `W3`, left with them at `W4`. Its windows'
    arrays are split out of the unscoped buffers on entry and put back at their final contents on exit; the generator register
    goes into the region's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vr0 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (Vr0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (Vr0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ Pipeline.ΦA spec0 c).trans (hin0 (Vr0 m ρ) c)
    unfold Pipeline.ΦA
    iintro ⟨Hp, -, Hr⟩
    isplitl [Hr]; · iexact Hr
    iexact Hp
  hout c := by
    rw [Pipeline.ownSems0_none]
    refine (hout0 (Vr0 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (Vr0 m ρ c) (Vr0' m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library's lemmas are stated over the pinned configuration; unifying with it needs plain definitions unfolded in a
-- metavariable's type
set_option backward.isDefEq.respectTransparency.types false in
/-- Kernel 1 as a segment of the program: entered with every unscoped buffer at `W5`, left with them at `W6`. Its windows'
    arrays are split out of the unscoped buffers on entry and put back at their final contents on exit; the generator register
    goes into the region's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vr1 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec1 c (Vr1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (Vr1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (Vr1 m ρ c) (Vr1' m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .region (reg1 m ρ),
    .host (hseg hostOps2 hostOps2_sub hostOps2_fresh (W6 m ρ)) ]

theorem main_run (c : Dev nD) : main (F := F) c = Pipeline.Seg.run (segs m ρ) := (main_chain c).trans (by chain_rfl)

set_option backward.isDefEq.respectTransparency.types false in
/-- THE RUN. From any memory with zero counters every weakly fair execution of the program on the core terminates, nothing
    faulting, and in every final state every unscoped buffer holds what the fold `W7` says. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (W7 m ρ c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c => h c)

/-- THE FRAME at any instance: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W7_main_arg0 m ρ c),
     (h c _ (mem_uc main_arg1 (by decide))).trans (W7_main_arg1 m ρ c),
     (h c _ (mem_uc main_arg2 (by decide))).trans (W7_main_arg2 m ρ c),
     (h c _ (mem_uc main_arg3 (by decide))).trans (W7_main_arg3 m ρ c),
     (h c _ (mem_uc main_arg4 (by decide))).trans (W7_main_arg4 m ρ c)⟩) (run_all m ρ)

end Cert.KernelIdeal.Hand

end
-- ==== Proof.RefRun.lean ====
/-
  The reference program's run, read back.

  The reference is a straight line of sixty-eight array operations: the per-channel circular shift as a gather over a
  constant index table, the matrix product with the bias added, the column means, the variance as the mean of the
  squared deviations (guarded by a comparison of the row count against zero that is always true), the normalisation
  (y − mean) · rsqrt(var + e) · γ + β, and the clip at zero.  This module lists the operations in order (those of the
  three outlined functions inline, at the place of their calls), shows that the program is that list, names the
  composed value of the list as one function `refOut` of the five argument arrays, and concludes that every weakly
  fair execution ends with the result array at `refOut` of the arguments and the arguments unchanged.
-/
import proofs.«102013_j71923522339050_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The program's sixty-eight operations, in order: the index tables and the gather, the product and the bias,
    the mean, the variance function's nineteen and its guard's three, the normalisation, the clip's three. -/
abbrev ops : List (HloOp τ sig (Elt F)) :=
  [
    nullary main_c (fun i => lit0 (S21x128.rowMajor i)),
    nullary main_c_0 (constantI S21x128 1 0#1),
    nullary main_c_1 (fun i => lit1 (S128.rowMajor i)),
    nullary main_c_2 (constantI S128 1 0#1),
    nullary main_c_3 (constantI S_ 32 21#32),
    unary main_c_3 main_v0 (broadcastInDim S21x128 ![] bcast_S_S21x128 : (⟨S_, .i32⟩ : BufTy).Contents (Elt F) → (⟨S21x128, .i32⟩ : BufTy).Contents (Elt F)),
    binary main_c main_v0 main_v1 (addi : (⟨S21x128, .i32⟩ : BufTy).Contents (Elt F) → (⟨S21x128, .i32⟩ : BufTy).Contents (Elt F) → (⟨S21x128, .i32⟩ : BufTy).Contents (Elt F)),
    ternary main_c_0 main_v1 main_c main_v2 (select : (⟨S21x128, .i1⟩ : BufTy).Contents (Elt F) → (⟨S21x128, .i32⟩ : BufTy).Contents (Elt F) → (⟨S21x128, .i32⟩ : BufTy).Contents (Elt F) → (⟨S21x128, .i32⟩ : BufTy).Contents (Elt F)),
    nullary main_c_4 (constantI S_ 32 128#32),
    unary main_c_4 main_v3 (broadcastInDim S128 ![] bcast_S_S128 : (⟨S_, .i32⟩ : BufTy).Contents (Elt F) → (⟨S128, .i32⟩ : BufTy).Contents (Elt F)),
    binary main_c_1 main_v3 main_v4 (addi : (⟨S128, .i32⟩ : BufTy).Contents (Elt F) → (⟨S128, .i32⟩ : BufTy).Contents (Elt F) → (⟨S128, .i32⟩ : BufTy).Contents (Elt F)),
    ternary main_c_2 main_v4 main_c_1 main_v5 (select : (⟨S128, .i1⟩ : BufTy).Contents (Elt F) → (⟨S128, .i32⟩ : BufTy).Contents (Elt F) → (⟨S128, .i32⟩ : BufTy).Contents (Elt F) → (⟨S128, .i32⟩ : BufTy).Contents (Elt F)),
    unary main_v5 main_v6 (broadcastInDim S21x128 ![1] bcast_S128_S21x128_1 : (⟨S128, .i32⟩ : BufTy).Contents (Elt F) → (⟨S21x128, .i32⟩ : BufTy).Contents (Elt F)),
    unary main_v2 main_v7 (broadcastInDim S21x128x1 ![0, 1] bcast_S21x128_S21x128x1_0_1 : (⟨S21x128, .i32⟩ : BufTy).Contents (Elt F) → (⟨S21x128x1, .i32⟩ : BufTy).Contents (Elt F)),
    unary main_v6 main_v8 (broadcastInDim S21x128x1 ![0, 1] bcast_S21x128_S21x128x1_0_1 : (⟨S21x128, .i32⟩ : BufTy).Contents (Elt F) → (⟨S21x128x1, .i32⟩ : BufTy).Contents (Elt F)),
    binary main_v7 main_v8 main_v9 ((fun a b => concatenate S21x128x2 2 [⟨S21x128x1, a⟩, ⟨S21x128x1, b⟩] concatenates_S21x128x1_S21x128x1_S21x128x2_d2) : (⟨S21x128x1, .i32⟩ : BufTy).Contents (Elt F) → (⟨S21x128x1, .i32⟩ : BufTy).Contents (Elt F) → (⟨S21x128x2, .i32⟩ : BufTy).Contents (Elt F)),
    binary main_arg0 main_v9 main_v10 ((fun x i => Host.gather gather_S8x64x21x128_S21x128x2_S8x64x21x128_01_23_n_n_23_2_86411 x i) : (⟨S8x64x21x128, .f32⟩ : BufTy).Contents (Elt F) → (⟨S21x128x2, .i32⟩ : BufTy).Contents (Elt F) → (⟨S8x64x21x128, .f32⟩ : BufTy).Contents (Elt F)),
    binary main_v10 main_arg1 main_v11 ((fun l r => Host.dotGeneral dot_S8x64x21x128_S128x256_S8x64x21x256_3_0_012_1_n_n none l r) : (⟨S8x64x21x128, .f32⟩ : BufTy).Contents (Elt F) → (⟨S128x256, .f32⟩ : BufTy).Contents (Elt F) → (⟨S8x64x21x256, .f32⟩ : BufTy).Contents (Elt F)),
    unary main_arg2 main_v12 (broadcastInDim S1x1x1x256 ![3] bcast_S256_S1x1x1x256_3 : (⟨S256, .f32⟩ : BufTy).Contents (Elt F) → (⟨S1x1x1x256, .f32⟩ : BufTy).Contents (Elt F)),
    unary main_v12 main_v13 (broadcastInDim S8x64x21x256 ![0, 1, 2, 3] bcast_S1x1x1x256_S8x64x21x256_0_1_2_3 : (⟨S1x1x1x256, .f32⟩ : BufTy).Contents (Elt F) → (⟨S8x64x21x256, .f32⟩ : BufTy).Contents (Elt F)),
    binary main_v11 main_v13 main_v14 (addf : (⟨S8x64x21x256, .f32⟩ : BufTy).Contents (Elt F) → (⟨S8x64x21x256, .f32⟩ : BufTy).Contents (Elt F) → (⟨S8x64x21x256, .f32⟩ : BufTy).Contents (Elt F)),
    nullary main_cst (constant S_ .f32 0x00000000#32),
    binary main_v14 main_cst main_v15 ((fun x v => Host.reduceAdd x v reducesTo_S8x64x21x256_S256_d0_1_2 h_S_) : (⟨S8x64x21x256, .f32⟩ : BufTy).Contents (Elt F) → (⟨S_, .f32⟩ : BufTy).Contents (Elt F) → (⟨S256, .f32⟩ : BufTy).Contents (Elt F)),
    nullary main_cst_5 (constant S_ .f32 0x46280000#32),
    unary main_cst_5 main_v16 (broadcastInDim S256 ![] bcast_S_S256 : (⟨S_, .f32⟩ : BufTy).Contents (Elt F) → (⟨S256, .f32⟩ : BufTy).Contents (Elt F)),
    binary main_v15 main_v16 main_v17 (Host.divf : (⟨S256, .f32⟩ : BufTy).Contents (Elt F) → (⟨S256, .f32⟩ : BufTy).Contents (Elt F) → (⟨S256, .f32⟩ : BufTy).Contents (Elt F)),
    nullary main_c_6 (constantI S_ 32 0#32),
    TRef.nullary main_call0.cst (constant S_ .f32 0x00000000#32),
    TRef.binary (.of main_v14) main_call0.cst main_call0.v0 (fun x v => Host.reduceAdd x v reducesTo_S8x64x21x256_S256_d0_1_2 h_S_),
    TRef.unary main_call0.v0 main_call0.v1 (broadcastInDim S1x1x1x256 ![3] bcast_S256_S1x1x1x256_3),
    TRef.nullary main_call0.cst_0 (constant S_ .f32 0x46280000#32),
    TRef.unary main_call0.cst_0 main_call0.v2 (broadcastInDim S1x1x1x256 ![] bcast_S_S1x1x1x256),
    TRef.binary main_call0.v1 main_call0.v2 main_call0.v3 Host.divf,
    TRef.unary main_call0.v3 main_call0.v4 (broadcastInDim S8x64x21x256 ![0, 1, 2, 3] bcast_S1x1x1x256_S8x64x21x256_0_1_2_3),
    TRef.binary (.of main_v14) main_call0.v4 main_call0.v5 subf,
    TRef.binary main_call0.v5 main_call0.v5 main_call0.v6 mulf,
    TRef.unary (.of main_c_6) main_call0.v7 (sitofp .f32),
    TRef.nullary main_call0.cst_1 (constant S_ .f32 0x46280000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S8x64x21x256_S256_d0_1_2 h_S_),
    TRef.unary main_call0.v8 main_call0.v10 (broadcastInDim S256 ![] bcast_S_S256),
    TRef.binary main_call0.v9 main_call0.v10 main_call0.v11 Host.divf,
    TRef.nullary main_call0.cst_3 (constant S_ .f32 0x00000000#32),
    TRef.binary main_call0.v8 main_call0.cst_3 main_call0.v12 (cmpf .ogt),
    TRef.nullary main_call0.cst_4 (constant S_ .f32 0x7FC00000#32),
    TRef.unary main_call0.cst_4 main_call0.call0.v0 id,
    TRef.unary main_call0.call0.v0 main_call0.call0.v1 (broadcastInDim S256 ![] bcast_S_S256),
    TRef.ternary main_call0.v12 main_call0.v11 main_call0.call0.v1 main_call0.call0.v2 (fun p a b => select (broadcastInDim S256 ![] bcast_S_S256 p) a b),
    unary main_v17 main_v19 (broadcastInDim S1x1x1x256 ![3] bcast_S256_S1x1x1x256_3 : (⟨S256, .f32⟩ : BufTy).Contents (Elt F) → (⟨S1x1x1x256, .f32⟩ : BufTy).Contents (Elt F)),
    unary main_v19 main_v20 (broadcastInDim S8x64x21x256 ![0, 1, 2, 3] bcast_S1x1x1x256_S8x64x21x256_0_1_2_3 : (⟨S1x1x1x256, .f32⟩ : BufTy).Contents (Elt F) → (⟨S8x64x21x256, .f32⟩ : BufTy).Contents (Elt F)),
    binary main_v14 main_v20 main_v21 (subf : (⟨S8x64x21x256, .f32⟩ : BufTy).Contents (Elt F) → (⟨S8x64x21x256, .f32⟩ : BufTy).Contents (Elt F) → (⟨S8x64x21x256, .f32⟩ : BufTy).Contents (Elt F)),
    nullary main_cst_7 (constant S_ .f32 0x3A83126F#32),
    unary main_cst_7 main_v22 (broadcastInDim S256 ![] bcast_S_S256 : (⟨S_, .f32⟩ : BufTy).Contents (Elt F) → (⟨S256, .f32⟩ : BufTy).Contents (Elt F)),
    binary main_v18 main_v22 main_v23 (addf : (⟨S256, .f32⟩ : BufTy).Contents (Elt F) → (⟨S256, .f32⟩ : BufTy).Contents (Elt F) → (⟨S256, .f32⟩ : BufTy).Contents (Elt F)),
    unary main_v23 main_v24 (Host.rsqrt : (⟨S256, .f32⟩ : BufTy).Contents (Elt F) → (⟨S256, .f32⟩ : BufTy).Contents (Elt F)),
    unary main_v24 main_v25 (broadcastInDim S1x1x1x256 ![3] bcast_S256_S1x1x1x256_3 : (⟨S256, .f32⟩ : BufTy).Contents (Elt F) → (⟨S1x1x1x256, .f32⟩ : BufTy).Contents (Elt F)),
    unary main_v25 main_v26 (broadcastInDim S8x64x21x256 ![0, 1, 2, 3] bcast_S1x1x1x256_S8x64x21x256_0_1_2_3 : (⟨S1x1x1x256, .f32⟩ : BufTy).Contents (Elt F) → (⟨S8x64x21x256, .f32⟩ : BufTy).Contents (Elt F)),
    binary main_v21 main_v26 main_v27 (mulf : (⟨S8x64x21x256, .f32⟩ : BufTy).Contents (Elt F) → (⟨S8x64x21x256, .f32⟩ : BufTy).Contents (Elt F) → (⟨S8x64x21x256, .f32⟩ : BufTy).Contents (Elt F)),
    unary main_arg3 main_v28 (broadcastInDim S1x1x1x256 ![3] bcast_S256_S1x1x1x256_3 : (⟨S256, .f32⟩ : BufTy).Contents (Elt F) → (⟨S1x1x1x256, .f32⟩ : BufTy).Contents (Elt F)),
    unary main_v28 main_v29 (broadcastInDim S8x64x21x256 ![0, 1, 2, 3] bcast_S1x1x1x256_S8x64x21x256_0_1_2_3 : (⟨S1x1x1x256, .f32⟩ : BufTy).Contents (Elt F) → (⟨S8x64x21x256, .f32⟩ : BufTy).Contents (Elt F)),
    binary main_v27 main_v29 main_v30 (mulf : (⟨S8x64x21x256, .f32⟩ : BufTy).Contents (Elt F) → (⟨S8x64x21x256, .f32⟩ : BufTy).Contents (Elt F) → (⟨S8x64x21x256, .f32⟩ : BufTy).Contents (Elt F)),
    unary main_arg4 main_v31 (broadcastInDim S1x1x1x256 ![3] bcast_S256_S1x1x1x256_3 : (⟨S256, .f32⟩ : BufTy).Contents (Elt F) → (⟨S1x1x1x256, .f32⟩ : BufTy).Contents (Elt F)),
    unary main_v31 main_v32 (broadcastInDim S8x64x21x256 ![0, 1, 2, 3] bcast_S1x1x1x256_S8x64x21x256_0_1_2_3 : (⟨S1x1x1x256, .f32⟩ : BufTy).Contents (Elt F) → (⟨S8x64x21x256, .f32⟩ : BufTy).Contents (Elt F)),
    binary main_v30 main_v32 main_v33 (addf : (⟨S8x64x21x256, .f32⟩ : BufTy).Contents (Elt F) → (⟨S8x64x21x256, .f32⟩ : BufTy).Contents (Elt F) → (⟨S8x64x21x256, .f32⟩ : BufTy).Contents (Elt F)),
    TRef.nullary main_call1.cst (constant S_ .f32 0x00000000#32),
    TRef.unary main_call1.cst main_call1.v0 (broadcastInDim S8x64x21x256 ![] bcast_S_S8x64x21x256),
    TRef.binary (.of main_v33) main_call1.v0 main_call1.v1 maximumf ]

set_option maxRecDepth 8192 in
/-- The program is that straight line: unfolding the three outlined functions at their calls is substitution, and
    sequencing reassociates by computation. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., nullary_bufs_sub .., nullary_bufs_sub .., nullary_bufs_sub .., nullary_bufs_sub .., unary_bufs_sub .., binary_bufs_sub .., ternary_bufs_sub .., nullary_bufs_sub .., unary_bufs_sub .., binary_bufs_sub .., ternary_bufs_sub .., unary_bufs_sub .., unary_bufs_sub .., unary_bufs_sub .., binary_bufs_sub .., binary_bufs_sub .., binary_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩

/-- Every weakly fair execution terminates with each buffer at the fold of the operations over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## The composed value -/

/-- The position table: entry (n, c) is the position channel c of position n is read from. -/
def posTable : IVec S21x128 32 := fun i => lit0 (S21x128.rowMajor i)
/-- The channel numbers 0 … 127. -/
def chanTable : IVec S128 32 := fun i => lit1 (S128.rowMajor i)
/-- The position component of the gather's start indices: the table, with 21 added where an entry is marked
    negative (the mask marks none). -/
def posIdx : IVec S21x128 32 :=
  select (constantI S21x128 1 0#1) (addi posTable (broadcastInDim S21x128 ![] bcast_S_S21x128 (constantI S_ 32 21#32))) posTable
/-- The channel component likewise. -/
def chanIdx : IVec S128 32 :=
  select (constantI S128 1 0#1) (addi chanTable (broadcastInDim S128 ![] bcast_S_S128 (constantI S_ 32 128#32))) chanTable
/-- The start indices: at (n, c) the pair (position, channel). -/
def startIdx : IVec S21x128x2 32 :=
  concatenate S21x128x2 2
    [⟨S21x128x1, broadcastInDim S21x128x1 ![0, 1] bcast_S21x128_S21x128x1_0_1 posIdx⟩,
     ⟨S21x128x1, broadcastInDim S21x128x1 ![0, 1] bcast_S21x128_S21x128x1_0_1 (broadcastInDim S21x128 ![1] bcast_S128_S21x128_1 chanIdx)⟩]
    concatenates_S21x128x1_S21x128x1_S21x128x2_d2
/-- The shifted activation. -/
def gathered (x : FVec F S8x64x21x128 .f32) : FVec F S8x64x21x128 .f32 :=
  Host.gather gather_S8x64x21x128_S21x128x2_S8x64x21x128_01_23_n_n_23_2_86411 x startIdx
/-- A per-column vector repeated over every row. -/
def overRows (v : FVec F S256 .f32) : FVec F S8x64x21x256 .f32 :=
  broadcastInDim S8x64x21x256 ![0, 1, 2, 3] bcast_S1x1x1x256_S8x64x21x256_0_1_2_3 (broadcastInDim S1x1x1x256 ![3] bcast_S256_S1x1x1x256_3 v)
/-- The product with the bias added. -/
def yOf (x : FVec F S8x64x21x128 .f32) (w : FVec F S128x256 .f32) (b : FVec F S256 .f32) : FVec F S8x64x21x256 .f32 :=
  addf (Host.dotGeneral dot_S8x64x21x128_S128x256_S8x64x21x256_3_0_012_1_n_n none (gathered x) w) (overRows b)
/-- The column sums of an array of rows. -/
def colSums (y : FVec F S8x64x21x256 .f32) : FVec F S256 .f32 :=
  Host.reduceAdd y (constant S_ .f32 0x00000000#32) reducesTo_S8x64x21x256_S256_d0_1_2 h_S_
/-- The column means. -/
def meanOf (y : FVec F S8x64x21x256 .f32) : FVec F S256 .f32 :=
  Host.divf (colSums y) (broadcastInDim S256 ![] bcast_S_S256 (constant S_ .f32 0x46280000#32))
/-- The row count less the correction (zero), as the variance function computes it. -/
def countOf : FVec F S_ .f32 := subf (constant S_ .f32 0x46280000#32) (sitofp .f32 (constantI S_ 32 0#32))
/-- The squared deviations from the column means (the variance function forms its own copy of the means). -/
def sqDev (y : FVec F S8x64x21x256 .f32) : FVec F S8x64x21x256 .f32 :=
  mulf
    (subf y (broadcastInDim S8x64x21x256 ![0, 1, 2, 3] bcast_S1x1x1x256_S8x64x21x256_0_1_2_3
      (Host.divf (broadcastInDim S1x1x1x256 ![3] bcast_S256_S1x1x1x256_3 (colSums y))
        (broadcastInDim S1x1x1x256 ![] bcast_S_S1x1x1x256 (constant S_ .f32 0x46280000#32)))))
    (subf y (broadcastInDim S8x64x21x256 ![0, 1, 2, 3] bcast_S1x1x1x256_S8x64x21x256_0_1_2_3
      (Host.divf (broadcastInDim S1x1x1x256 ![3] bcast_S256_S1x1x1x256_3 (colSums y))
        (broadcastInDim S1x1x1x256 ![] bcast_S_S1x1x1x256 (constant S_ .f32 0x46280000#32)))))
/-- The variance: the mean of the squared deviations where the count is positive, a quiet NaN pattern elsewhere. -/
def varOf (y : FVec F S8x64x21x256 .f32) : FVec F S256 .f32 :=
  select (broadcastInDim S256 ![] bcast_S_S256 (cmpf .ogt (countOf : FVec F S_ .f32) (constant S_ .f32 0x00000000#32)))
    (Host.divf (colSums (sqDev y)) (broadcastInDim S256 ![] bcast_S_S256 countOf))
    (broadcastInDim S256 ![] bcast_S_S256 (id (constant S_ .f32 0x7FC00000#32)))
/-- The whole reference as one function of its five argument arrays. -/
def refOut (x : FVec F S8x64x21x128 .f32) (w : FVec F S128x256 .f32) (b g be : FVec F S256 .f32) : FVec F S8x64x21x256 .f32 :=
  maximumf
    (addf
      (mulf
        (mulf (subf (yOf x w b) (overRows (meanOf (yOf x w b))))
          (overRows (Host.rsqrt (addf (varOf (yOf x w b)) (broadcastInDim S256 ![] bcast_S_S256 (constant S_ .f32 0x3A83126F#32))))))
        (overRows g))
      (overRows be))
    (broadcastInDim S8x64x21x256 ![] bcast_S_S8x64x21x256 (constant S_ .f32 0x00000000#32))

attribute [local irreducible] Host.reduceAdd Host.gather concatenate in
set_option maxRecDepth 16384 in
set_option maxHeartbeats 1000000 in
/-- The fold of the operations at the result buffer is that function of the argument buffers' contents. -/
theorem out_eq (V : Valuation τ sig (Elt F)) :
    after ops V (main_v34 : DevRef τ sig)
      = refOut (V (main_arg0 : DevRef τ sig)) (V (main_arg1 : DevRef τ sig)) (V (main_arg2 : DevRef τ sig))
          (V (main_arg3 : DevRef τ sig)) (V (main_arg4 : DevRef τ sig)) := by
  simp only [after_cons, after_nil]
  rfl

theorem arg0_eq (V : Valuation τ sig (Elt F)) : after ops V (main_arg0 : DevRef τ sig) = V (main_arg0 : DevRef τ sig) := by
  simp only [after_cons, after_nil]
  rfl
theorem arg1_eq (V : Valuation τ sig (Elt F)) : after ops V (main_arg1 : DevRef τ sig) = V (main_arg1 : DevRef τ sig) := by
  simp only [after_cons, after_nil]
  rfl
theorem arg2_eq (V : Valuation τ sig (Elt F)) : after ops V (main_arg2 : DevRef τ sig) = V (main_arg2 : DevRef τ sig) := by
  simp only [after_cons, after_nil]
  rfl
theorem arg3_eq (V : Valuation τ sig (Elt F)) : after ops V (main_arg3 : DevRef τ sig) = V (main_arg3 : DevRef τ sig) := by
  simp only [after_cons, after_nil]
  rfl
theorem arg4_eq (V : Valuation τ sig (Elt F)) : after ops V (main_arg4 : DevRef τ sig) = V (main_arg4 : DevRef τ sig) := by
  simp only [after_cons, after_nil]
  rfl

/-- On every device, from any memory with zero counters: every weakly fair execution of the reference terminates with
    the result array at `refOut` of the five argument arrays as the run found them, and the arguments unchanged. -/
theorem run (m : (ℓ : Loc nD τ sig) → Buf (Elt F) ℓ) (ρ : Dev nD → PrngReg) :
    θ_run (Cert.ReferenceIdeal.defs (F := F)) (onTc (τ := τ) (Cert.ReferenceIdeal.main (F := F))) ⟨m, fun _ => 0, ρ⟩ (fun r => ∀ c : Dev nD,
      r.2.mem ((c.tc : Thread nD τ).loc main_v34)
          = refOut (m ((c.tc : Thread nD τ).loc main_arg0)) (m ((c.tc : Thread nD τ).loc main_arg1))
              (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h c main_v34).trans (out_eq _), (h c main_arg0).trans (arg0_eq _),
      (h c main_arg1).trans (arg1_eq _), (h c main_arg2).trans (arg2_eq _), (h c main_arg3).trans (arg3_eq _),
      (h c main_arg4).trans (arg4_eq _)⟩)
    (run_main m ρ)

end Cert.ReferenceIdeal.Hand

end
-- ==== Proof.Spec.lean ====
/-
  The mathematics of this certificate, stated once over the extended reals and with no program in sight.

  The activation is an array x[b, t, n, c] (8 × 64 × 21 × 128).  Channel c of position n is first replaced by channel c of
  position (n − c mod 21) mod 21 (a circular shift along the 21 positions, by an amount that depends on the channel only),
  and the 8·64·21 = 10752 positions are then treated as the rows r = (b·64 + t)·21 + n of one matrix X[r, c].
  With Y = X·W + bias (10752 × 256), every column f of Y is normalised by its own mean and variance over the rows,
  scaled by γ, shifted by β and clipped below at zero.

  The two programs compute that in two arrangements:
  * the reference takes the variance as the mean of the squared deviations and forms ((Y − mean) · rsqrt(var + e)) · γ + β;
  * the kernel takes the variance as the mean of the squares minus the squared mean, folds the normalisation into one
    scale = γ · rsqrt(var + e) and one shift = β − mean · scale per column, and forms Y · scale + shift.
  They are the same function of finite inputs (the sibling module of laws proves it).  `N` is the row count as the
  programs spell it (a float literal) and `e` the variance's offset (another literal): both are parameters here.
-/
import Idealize.ShloMosaic.PureOps.Ideal
import Idealize.ShloMosaic.Lib.ValueIdx

noncomputable section

namespace Cert.Spec

open Idealize.ShloMosaic
open scoped BigOperators

/-- The rows of the flattened activation. -/
abbrev Row := Fin 10752

/-- Row (b·64 + t)·21 + n. -/
def rowOf (b : Fin 8) (t : Fin 64) (n : Fin 21) : Row := ⟨(b.val * 64 + t.val) * 21 + n.val, by omega⟩
/-- A row's batch coordinate. -/
def bOf (r : Row) : Fin 8 := ⟨r.val / 1344, by omega⟩
/-- A row's time coordinate. -/
def tOf (r : Row) : Fin 64 := ⟨r.val / 21 % 64, by omega⟩
/-- A row's position coordinate. -/
def nOf (r : Row) : Fin 21 := ⟨r.val % 21, by omega⟩

/-- The position channel `c` of position `n` is read from: (n − c mod 21) mod 21. -/
def src (n : Fin 21) (c : Fin 128) : Fin 21 := ⟨(n.val + 21 - c.val % 21) % 21, Nat.mod_lt _ (by decide)⟩

/-- The shifted activation as a matrix of rows: X[r, c] = x[b, t, src n c, c] for r = (b, t, n). -/
def shifted (x : (⟨4, ![8, 64, 21, 128]⟩ : Shape).Idx → EReal) : Row → Fin 128 → EReal :=
  fun r c => x (ValueIdx.ix4 (bOf r) (tOf r) (src (nOf r) c) c)

variable (X : Row → Fin 128 → EReal) (W : Fin 128 → Fin 256 → EReal) (bias γ β : Fin 256 → EReal) (N e : EReal)

/-- Y = X·W + bias. -/
def Y (r : Row) (f : Fin 256) : EReal := (∑ c : Fin 128, X r c * W c f) + bias f
/-- The column sums of Y. -/
def colSum (f : Fin 256) : EReal := ∑ r : Row, Y X W bias r f
/-- The column sums of Y's squares. -/
def colSumSq (f : Fin 256) : EReal := ∑ r : Row, Y X W bias r f * Y X W bias r f
/-- The column means. -/
def mean (f : Fin 256) : EReal := Ideal.div (colSum X W bias f) N

/-- The variance as the reference takes it: the mean of the squared deviations. -/
def varDev (f : Fin 256) : EReal :=
  Ideal.div (∑ r : Row, (Y X W bias r f - mean X W bias N f) * (Y X W bias r f - mean X W bias N f)) N
/-- The reference's arrangement of the result. -/
def refE (r : Row) (f : Fin 256) : EReal :=
  max ((Y X W bias r f - mean X W bias N f) * Ideal.rsqrt (varDev X W bias N f + e) * γ f + β f) 0

/-- The variance as the kernel takes it: the mean of the squares minus the squared mean. -/
def varSq (f : Fin 256) : EReal := Ideal.div (colSumSq X W bias f) N - mean X W bias N f * mean X W bias N f
/-- The kernel's per-column scale. -/
def scale (f : Fin 256) : EReal := γ f * Ideal.rsqrt (varSq X W bias N f + e)
/-- The kernel's per-column shift. -/
def shift (f : Fin 256) : EReal := β f - mean X W bias N f * scale X W bias γ N e f
/-- The kernel's arrangement of the result. -/
def kerE (r : Row) (f : Fin 256) : EReal :=
  max (Y X W bias r f * scale X W bias γ N e f + shift X W bias γ β N e f) 0

end Cert.Spec

end
-- ==== Proof.Consts.lean ====
/-
  The float literals the two programs spell, as the extended reals their bit patterns denote.

  * 0x46280000: sign 0, exponent field 140, fraction field 2621440: (2^23 + 2621440) · 2^(140 − 127 − 23)
    = 11010048 / 1024 = 10752, the number of rows.
  * 0x3A83126F: sign 0, exponent field 117, fraction field 201327: (2^23 + 201327) · 2^(117 − 127 − 23)
    = 8589935 · 2^(−33), a positive real (the single-precision value nearest 1/1000): the variance's offset.
  * 0x00000000 is zero.
-/
import Idealize.ShloMosaic.PureOps.Ideal
import Idealize.ShloMosaic.PureOps.Ideal.Laws

noncomputable section

namespace Cert.Consts

open Idealize.ShloMosaic

/-- The row count's literal denotes the real 10752. -/
theorem ofBits_N : Ideal.ofBits .f32 0x46280000#32 = ((10752 : ℝ) : EReal) := by
  simp [Ideal.ofBits, Ideal.ieee, -EReal.coe_mul]; norm_num

/-- The variance offset's literal denotes a positive real. -/
theorem ofBits_eps : ∃ ε : ℝ, 0 < ε ∧ Ideal.ofBits .f32 0x3A83126F#32 = ((ε : ℝ) : EReal) := by
  refine ⟨8589935 * (2 : ℝ) ^ (-33 : ℤ), by positivity, ?_⟩
  simp [Ideal.ofBits, Ideal.ieee, -EReal.coe_mul]

/-- The zero literal denotes 0. -/
theorem ofBits_zero : Ideal.ofBits .f32 0x00000000#32 = 0 := Ideal.ofBits_zero_f32

end Cert.Consts

end
-- ==== Proof.RefValue.lean ====
/-
  The reference's result, read at an index.

  The composed value of the reference's operations is read here entry by entry, and identified with the specification's
  reference arrangement over the shifted activation as a matrix of 10752 rows:
  * the gather reads, at (b, t, n, c), the activation at (b, t, p, c) where p is the entry (n, c) of a constant position
    table; the table's 2688 entries are each checked to be (n − c mod 21) mod 21, and the channel component of the start
    index is c itself, so the gathered array is the circular shift;
  * the product with the weight matrix at (b, t, n, f) is the sum over the 128 channels;
  * a sum over the three leading axes, read at column f, is the sum over the rows r = (b·64 + t)·21 + n (the triples
    (b, t, n) and the rows correspond one to one);
  * the variance function's guard compares the row count, 10752 − 0, against zero and holds, so the variance is the
    mean of the squared deviations;
  * what is left is pointwise: subtract the mean, multiply by rsqrt(var + e), by γ, add β, clip at zero.
-/
import proofs.«102013_j71923522339050_1_alg».proof.Proof.RefRun
import proofs.«102013_j71923522339050_1_alg».proof.Proof.Spec
import proofs.«102013_j71923522339050_1_alg».proof.Proof.Consts
import Idealize.ShloMosaic.PureOps.Ideal.Laws
import Idealize.ShloMosaic.Lib.ValueIdx
import Idealize.ShloMosaic.Lib.Pipeline.Value

noncomputable section

namespace Cert.ReferenceIdeal.Hand

open Cert.ReferenceIdeal Cert.ReferenceIdeal.Gen Idealize.ShloMosaic Idealize.ShloMosaic.ValueIdx Cert.Spec
open scoped BigOperators

/-! ## The shift -/

/-- The printed position table holds, at (n, c), the position (n − c mod 21) mod 21 (checked entry by entry). -/
theorem posTable_val : ∀ (n : Fin 21) (c : Fin 128),
    (lit0t (n.val * 128 + c.val)).toInt.toNat = (n.val + 21 - c.val % 21) % 21 := by decide +kernel

/-- The printed channel table holds the channel numbers. -/
theorem chanTable_val : ∀ (c : Fin 128), (lit1 c).toInt.toNat = c.val := by decide +kernel

/-- The start index of (n, c): its position component is the table's entry. -/
theorem startIdx_pos (n : Fin 21) (c : Fin 128) : startIdx (ix3 n c (0 : Fin 2)) = posTable (ix2 n c) := by
  unfold startIdx
  rw [concatenate_pair_apply_left (t := S21x128x2) (s₁ := S21x128x1) (s₂ := S21x128x1) (2 : Fin 3) _ _ _ (ix3 n c (0 : Fin 2)) rfl
    (ix3 n c (0 : Fin 1)) (fun b => by match b with | ⟨0, _⟩ => rfl | ⟨1, _⟩ => rfl | ⟨2, _⟩ => rfl)]
  rw [broadcastInDim_apply _ _ _ (ix3 n c (0 : Fin 1)) (ix2 n c)
    (fun a => by match a with | ⟨0, _⟩ => rfl | ⟨1, _⟩ => rfl)]
  rfl

/-- … and its channel component is the channel. -/
theorem startIdx_chan (n : Fin 21) (c : Fin 128) : startIdx (ix3 n c (1 : Fin 2)) = chanTable (ix1 c) := by
  unfold startIdx
  rw [concatenate_pair_apply_right (t := S21x128x2) (s₁ := S21x128x1) (s₂ := S21x128x1) (2 : Fin 3) _ _ _ (ix3 n c (1 : Fin 2)) rfl rfl
    (ix3 n c (0 : Fin 1)) (fun b hb => by match b, hb with | ⟨0, _⟩, _ => rfl | ⟨1, _⟩, _ => rfl | ⟨2, _⟩, hb => exact absurd rfl hb) rfl]
  rw [broadcastInDim_apply _ _ _ (ix3 n c (0 : Fin 1)) (ix2 n c)
    (fun a => by match a with | ⟨0, _⟩ => rfl | ⟨1, _⟩ => rfl)]
  rw [broadcastInDim_apply _ _ _ (ix2 n c) (ix1 c)
    (fun a => by match a with | ⟨0, _⟩ => rfl)]
  rfl

/-! ## The gather's operand index

At result index (b, t, n, c) the gather reads the operand at (b, t, p, q): on the two offset axes the result's own
coordinates, on the two collapsed axes the two components of the start index at (n, c), each read as a signed integer
and clamped into its axis. -/

local notation "GD" => gather_S8x64x21x128_S21x128x2_S8x64x21x128_01_23_n_n_23_2_86411

theorem opIdx0 (idx : IVec S21x128x2 32) (b : Fin 8) (t : Fin 64) (n : Fin 21) (c : Fin 128) :
    ((GD).operandIdx (ix4 b t n c) idx (0 : Fin 4)).val = b.val := by
  show (GD).start (ix4 b t n c) idx (0 : Fin 4) + (GD).batchCoord (ix4 b t n c) (0 : Fin 4) + (GD).offCoord (ix4 b t n c) (0 : Fin 4) = _
  have e1 : (GD).start (ix4 b t n c) idx (0 : Fin 4) = 0 := rfl
  have e2 : (GD).batchCoord (ix4 b t n c) (0 : Fin 4) = 0 := rfl
  have e3 : (GD).offCoord (ix4 b t n c) (0 : Fin 4) = b.val := rfl
  rw [e1, e2, e3]
  omega

theorem opIdx1 (idx : IVec S21x128x2 32) (b : Fin 8) (t : Fin 64) (n : Fin 21) (c : Fin 128) :
    ((GD).operandIdx (ix4 b t n c) idx (1 : Fin 4)).val = t.val := by
  show (GD).start (ix4 b t n c) idx (1 : Fin 4) + (GD).batchCoord (ix4 b t n c) (1 : Fin 4) + (GD).offCoord (ix4 b t n c) (1 : Fin 4) = _
  have e1 : (GD).start (ix4 b t n c) idx (1 : Fin 4) = 0 := rfl
  have e2 : (GD).batchCoord (ix4 b t n c) (1 : Fin 4) = 0 := rfl
  have e3 : (GD).offCoord (ix4 b t n c) (1 : Fin 4) = t.val := rfl
  rw [e1, e2, e3]
  omega

theorem opIdx2 (idx : IVec S21x128x2 32) (b : Fin 8) (t : Fin 64) (n : Fin 21) (c : Fin 128) :
    ((GD).operandIdx (ix4 b t n c) idx (2 : Fin 4)).val = min (idx (ix3 n c (0 : Fin 2))).toInt.toNat 20 := by
  show (GD).start (ix4 b t n c) idx (2 : Fin 4) + (GD).batchCoord (ix4 b t n c) (2 : Fin 4) + (GD).offCoord (ix4 b t n c) (2 : Fin 4) = _
  have e2 : (GD).batchCoord (ix4 b t n c) (2 : Fin 4) = 0 := rfl
  have e3 : (GD).offCoord (ix4 b t n c) (2 : Fin 4) = 0 := rfl
  rw [e2, e3]
  simp only [Nat.add_zero]
  unfold GatherDims.start
  rw [dif_pos (by decide)]
  refine congrArg₂ min (congrArg (fun i => (idx i).toInt.toNat) ?_) rfl
  funext d
  refine Fin.ext ?_
  match d with
  | ⟨0, _⟩ => rfl
  | ⟨1, _⟩ => rfl
  | ⟨2, _⟩ => rfl

theorem opIdx3 (idx : IVec S21x128x2 32) (b : Fin 8) (t : Fin 64) (n : Fin 21) (c : Fin 128) :
    ((GD).operandIdx (ix4 b t n c) idx (3 : Fin 4)).val = min (idx (ix3 n c (1 : Fin 2))).toInt.toNat 127 := by
  show (GD).start (ix4 b t n c) idx (3 : Fin 4) + (GD).batchCoord (ix4 b t n c) (3 : Fin 4) + (GD).offCoord (ix4 b t n c) (3 : Fin 4) = _
  have e2 : (GD).batchCoord (ix4 b t n c) (3 : Fin 4) = 0 := rfl
  have e3 : (GD).offCoord (ix4 b t n c) (3 : Fin 4) = 0 := rfl
  rw [e2, e3]
  simp only [Nat.add_zero]
  unfold GatherDims.start
  rw [dif_pos (by decide)]
  refine congrArg₂ min (congrArg (fun i => (idx i).toInt.toNat) ?_) rfl
  funext d
  refine Fin.ext ?_
  match d with
  | ⟨0, _⟩ => rfl
  | ⟨1, _⟩ => rfl
  | ⟨2, _⟩ => rfl

/-- The shifted activation at (b, t, n, c) is the activation at (b, t, src n c, c): both start-index components lie
    inside their axes, so the clamp is the identity. -/
theorem gathered_apply {F : FTy → Type} [FloatOps F] (x : FVec F S8x64x21x128 .f32) (b : Fin 8) (t : Fin 64) (n : Fin 21) (c : Fin 128) :
    gathered x (ix4 b t n c) = x (ix4 b t (src n c) c) := by
  unfold gathered Host.gather
  refine congrArg x (funext fun a => Fin.ext ?_)
  match a with
  | ⟨0, _⟩ => exact opIdx0 startIdx b t n c
  | ⟨1, _⟩ => exact opIdx1 startIdx b t n c
  | ⟨2, _⟩ =>
    refine (opIdx2 startIdx b t n c).trans ?_
    rw [startIdx_pos]
    show min (lit0 (S21x128.rowMajor (ix2 n c))).toInt.toNat 20 = (n.val + 21 - c.val % 21) % 21
    have e : S21x128.rowMajor (ix2 n c) = ⟨n.val * 128 + c.val, by have := n.isLt; have := c.isLt; show _ < 2688; omega⟩ :=
      Fin.ext (Shape.rowMajor_val_two _)
    rw [e]
    show min (lit0t (n.val * 128 + c.val)).toInt.toNat 20 = _
    rw [posTable_val n c]
    omega
  | ⟨3, _⟩ =>
    refine (opIdx3 startIdx b t n c).trans ?_
    rw [startIdx_chan]
    show min (lit1 (S128.rowMajor (ix1 c))).toInt.toNat 127 = c.val
    have e : S128.rowMajor (ix1 c) = c := Fin.ext (Shape.rowMajor_val_one _)
    rw [e, chanTable_val c]
    have := c.isLt
    omega

/-! ## Rows -/

theorem bOf_rowOf (b : Fin 8) (t : Fin 64) (n : Fin 21) : bOf (rowOf b t n) = b :=
  Fin.ext (by have := b.isLt; have := t.isLt; have := n.isLt; simp only [bOf, rowOf]; omega)
theorem tOf_rowOf (b : Fin 8) (t : Fin 64) (n : Fin 21) : tOf (rowOf b t n) = t :=
  Fin.ext (by have := b.isLt; have := t.isLt; have := n.isLt; simp only [tOf, rowOf]; omega)
theorem nOf_rowOf (b : Fin 8) (t : Fin 64) (n : Fin 21) : nOf (rowOf b t n) = n :=
  Fin.ext (by have := b.isLt; have := t.isLt; have := n.isLt; simp only [nOf, rowOf]; omega)
theorem rowOf_of (r : Row) : rowOf (bOf r) (tOf r) (nOf r) = r :=
  Fin.ext (by have := r.isLt; simp only [bOf, tOf, nOf, rowOf]; omega)

/-- The host's sum over the three leading axes of an [8, 64, 21, 256] array, read at column f: the initial value plus
    the sum over the 10752 rows, each row (b, t, n) met once. -/
theorem hostSum_apply (h' : S8x64x21x256.ReducesTo [0, 1, 2] S256) (y : S8x64x21x256.Idx → EReal) (init : EReal) (f : Fin 256) :
    Ideal.hostReduceAdd h' y init (ix1 f) = init + ∑ r : Row, y (ix4 (bOf r) (tOf r) (nOf r) f) := by
  unfold Ideal.hostReduceAdd
  refine congrArg (init + ·) ?_
  have key : ∀ i : S8x64x21x256.Idx, h'.drop i = ix1 f →
      ix4 (bOf (rowOf (i 0) (i 1) (i 2))) (tOf (rowOf (i 0) (i 1) (i 2))) (nOf (rowOf (i 0) (i 1) (i 2))) f = i := by
    intro i hi
    obtain ⟨p, q, s, u, rfl⟩ : ∃ (p : Fin 8) (q : Fin 64) (s : Fin 21) (u : Fin 256), i = ix4 p q s u :=
      ⟨i 0, i 1, i 2, i 3, eq_ix4 i⟩
    have h3 : u = f := Fin.ext (congrArg Fin.val (congrFun hi (0 : Fin 1)))
    show ix4 (bOf (rowOf p q s)) (tOf (rowOf p q s)) (nOf (rowOf p q s)) f = ix4 p q s u
    rw [bOf_rowOf, tOf_rowOf, nOf_rowOf, h3]
  refine Finset.sum_nbij' (fun i => rowOf (i 0) (i 1) (i 2)) (fun r => ix4 (bOf r) (tOf r) (nOf r) f) ?_ ?_ ?_ ?_ ?_
  · intro i _; exact Finset.mem_univ _
  · intro r _
    rw [Finset.mem_filter]
    refine ⟨Finset.mem_univ _, funext fun d => ?_⟩
    match d with
    | ⟨0, _⟩ => exact Fin.ext rfl
  · intro i hi
    exact key i (Finset.mem_filter.mp hi).2
  · intro r _
    show rowOf (bOf r) (tOf r) (nOf r) = r
    exact rowOf_of r
  · intro i hi
    exact congrArg y (key i (Finset.mem_filter.mp hi).2).symm

/-! ## The product -/

/-- The host's product of the [8, 64, 21, 128] array with the [128, 256] matrix at (b, t, n, f): the sum over the
    128 channels. -/
theorem dot_apply (l : FVec Ideal S8x64x21x128 .f32) (w : FVec Ideal S128x256 .f32) (b : Fin 8) (t : Fin 64) (n : Fin 21) (f : Fin 256) :
    Host.dotGeneral (F := Ideal) dot_S8x64x21x128_S128x256_S8x64x21x256_3_0_012_1_n_n none l w (ix4 b t n f)
      = ∑ c : Fin 128, l (ix4 b t n c) * w (ix2 c f) := by
  show FloatOps.dotGeneral dot_S8x64x21x128_S128x256_S8x64x21x256_3_0_012_1_n_n none .single l w (ix4 b t n f) = _
  rw [Ideal.dotGeneral_apply]
  rw [← Equiv.sum_comp (contrEquiv1 dot_S8x64x21x128_S128x256_S8x64x21x256_3_0_012_1_n_n 128 rfl rfl).symm]
  refine Finset.sum_congr rfl fun c _ => ?_
  have hl : dot_S8x64x21x128_S128x256_S8x64x21x256_3_0_012_1_n_n.lhsIdx (ix4 b t n f)
      ((contrEquiv1 dot_S8x64x21x128_S128x256_S8x64x21x256_3_0_012_1_n_n 128 rfl rfl).symm c) = ix4 b t n c := by
    funext a
    refine Fin.ext ?_
    match a with
    | ⟨0, _⟩ => rfl
    | ⟨1, _⟩ => rfl
    | ⟨2, _⟩ => rfl
    | ⟨3, _⟩ => exact (DotDims.lhsIdx_val_of_single _ rfl _ _).trans (contrEquiv1_symm_val _ 128 rfl rfl c)
  have hr : dot_S8x64x21x128_S128x256_S8x64x21x256_3_0_012_1_n_n.rhsIdx (ix4 b t n f)
      ((contrEquiv1 dot_S8x64x21x128_S128x256_S8x64x21x256_3_0_012_1_n_n 128 rfl rfl).symm c) = ix2 c f := by
    funext a
    refine Fin.ext ?_
    match a with
    | ⟨0, _⟩ => exact (DotDims.rhsIdx_val_of_single _ rfl _ _).trans (contrEquiv1_symm_val _ 128 rfl rfl c)
    | ⟨1, _⟩ => rfl
  rw [hl, hr]

/-! ## Broadcasts -/

/-- A scalar broadcast reads the scalar. -/
theorem bcast0_apply {α : Type} {t : Shape} (h : S_.BroadcastsInDim t (![] : Fin 0 → Fin t.rank)) (s : S_.Idx → α) (j : t.Idx) :
    broadcastInDim t ![] h s j = s ix0 :=
  broadcastInDim_apply _ h s j ix0 (fun a => a.elim0)

/-- A per-column vector repeated over the rows reads the column's entry. -/
theorem overRows_apply (v : FVec Ideal S256 .f32) (b : Fin 8) (t : Fin 64) (n : Fin 21) (f : Fin 256) :
    overRows v (ix4 b t n f) = v (ix1 f) := by
  unfold overRows
  rw [broadcastInDim_apply _ _ _ (ix4 b t n f) (ix4 (0 : Fin 1) (0 : Fin 1) (0 : Fin 1) f)
    (fun a => by match a with | ⟨0, _⟩ => rfl | ⟨1, _⟩ => rfl | ⟨2, _⟩ => rfl | ⟨3, _⟩ => rfl)]
  rw [broadcastInDim_apply _ _ _ (ix4 (0 : Fin 1) (0 : Fin 1) (0 : Fin 1) f) (ix1 f)
    (fun a => by match a with | ⟨0, _⟩ => rfl)]

/-! ## The stages at an index -/

local notation "NN" => Ideal.ofBits FTy.f32 0x46280000#32

/-- The product with the bias added, at (b, t, n, f), is the specification's Y at row (b, t, n). -/
theorem yOf_apply (x : FVec Ideal S8x64x21x128 .f32) (w : FVec Ideal S128x256 .f32) (bb : FVec Ideal S256 .f32)
    (b : Fin 8) (t : Fin 64) (n : Fin 21) (f : Fin 256) :
    yOf x w bb (ix4 b t n f)
      = Spec.Y (Spec.shifted x) (fun c f => w (ix2 c f)) (fun f => bb (ix1 f)) (rowOf b t n) f := by
  unfold yOf
  show Host.dotGeneral (F := Ideal) dot_S8x64x21x128_S128x256_S8x64x21x256_3_0_012_1_n_n none (gathered x) w (ix4 b t n f)
      + overRows bb (ix4 b t n f) = _
  rw [dot_apply, overRows_apply]
  unfold Spec.Y Spec.shifted
  simp only [gathered_apply, bOf_rowOf, tOf_rowOf, nOf_rowOf]

theorem yOf_row (x : FVec Ideal S8x64x21x128 .f32) (w : FVec Ideal S128x256 .f32) (bb : FVec Ideal S256 .f32) (r : Row) (f : Fin 256) :
    yOf x w bb (ix4 (bOf r) (tOf r) (nOf r) f)
      = Spec.Y (Spec.shifted x) (fun c f => w (ix2 c f)) (fun f => bb (ix1 f)) r f := by
  rw [yOf_apply, rowOf_of]

/-- The column sums. -/
theorem colSums_apply (y : FVec Ideal S8x64x21x256 .f32) (f : Fin 256) :
    colSums y (ix1 f) = ∑ r : Row, y (ix4 (bOf r) (tOf r) (nOf r) f) := by
  unfold colSums Host.reduceAdd
  show Ideal.hostReduceAdd reducesTo_S8x64x21x256_S256_d0_1_2 y (Ideal.ofBits .f32 0x00000000#32) (ix1 f) = _
  rw [hostSum_apply, Ideal.ofBits_zero_f32, zero_add]

/-- The column means. -/
theorem meanOf_apply (y : FVec Ideal S8x64x21x256 .f32) (f : Fin 256) :
    meanOf y (ix1 f) = Ideal.div (∑ r : Row, y (ix4 (bOf r) (tOf r) (nOf r) f)) NN := by
  unfold meanOf
  show Ideal.div (colSums y (ix1 f)) (broadcastInDim S256 ![] bcast_S_S256 (constant (F := Ideal) S_ .f32 0x46280000#32) (ix1 f)) = _
  rw [bcast0_apply, colSums_apply]
  rfl

/-- The squared deviations. -/
theorem sqDev_apply (y : FVec Ideal S8x64x21x256 .f32) (b : Fin 8) (t : Fin 64) (n : Fin 21) (f : Fin 256) :
    sqDev y (ix4 b t n f)
      = (y (ix4 b t n f) - Ideal.div (∑ r : Row, y (ix4 (bOf r) (tOf r) (nOf r) f)) NN)
        * (y (ix4 b t n f) - Ideal.div (∑ r : Row, y (ix4 (bOf r) (tOf r) (nOf r) f)) NN) := by
  have hm : broadcastInDim S8x64x21x256 ![0, 1, 2, 3] bcast_S1x1x1x256_S8x64x21x256_0_1_2_3
      (Host.divf (F := Ideal) (broadcastInDim S1x1x1x256 ![3] bcast_S256_S1x1x1x256_3 (colSums y))
        (broadcastInDim S1x1x1x256 ![] bcast_S_S1x1x1x256 (constant (F := Ideal) S_ .f32 0x46280000#32))) (ix4 b t n f)
      = Ideal.div (∑ r : Row, y (ix4 (bOf r) (tOf r) (nOf r) f)) NN := by
    rw [broadcastInDim_apply _ _ _ (ix4 b t n f) (ix4 (0 : Fin 1) (0 : Fin 1) (0 : Fin 1) f)
      (fun a => by match a with | ⟨0, _⟩ => rfl | ⟨1, _⟩ => rfl | ⟨2, _⟩ => rfl | ⟨3, _⟩ => rfl)]
    show Ideal.div (broadcastInDim S1x1x1x256 ![3] bcast_S256_S1x1x1x256_3 (colSums y) (ix4 (0 : Fin 1) (0 : Fin 1) (0 : Fin 1) f))
      (broadcastInDim S1x1x1x256 ![] bcast_S_S1x1x1x256 (constant (F := Ideal) S_ .f32 0x46280000#32) (ix4 (0 : Fin 1) (0 : Fin 1) (0 : Fin 1) f)) = _
    rw [broadcastInDim_apply _ _ _ (ix4 (0 : Fin 1) (0 : Fin 1) (0 : Fin 1) f) (ix1 f)
      (fun a => by match a with | ⟨0, _⟩ => rfl), bcast0_apply, colSums_apply]
    rfl
  unfold sqDev
  show (y (ix4 b t n f) - _) * (y (ix4 b t n f) - _) = _
  rw [hm]

/-- The row count as the variance function computes it: the literal less a correction of zero. -/
theorem countOf_eq : (countOf : FVec Ideal S_ .f32) ix0 = NN := by
  show Ideal.ofBits .f32 0x46280000#32 - (((0#32 : BitVec 32).toInt : ℝ) : EReal) = _
  simp

/-- The comparison of the row count against zero holds. -/
theorem count_pos : Ideal.cmp .ogt NN (Ideal.ofBits .f32 0x00000000#32) = 1#1 := by
  rw [Cert.Consts.ofBits_N, Ideal.ofBits_zero_f32]
  have h : (0 : EReal) < ((10752 : ℝ) : EReal) := by exact_mod_cast (by norm_num : (0 : ℝ) < 10752)
  simp [Ideal.cmp, h]

/-- The variance: the guard holds, so it is the mean of the squared deviations. -/
theorem varOf_apply (y : FVec Ideal S8x64x21x256 .f32) (f : Fin 256) :
    varOf y (ix1 f) = Ideal.div (∑ r : Row, sqDev y (ix4 (bOf r) (tOf r) (nOf r) f)) NN := by
  have hc : broadcastInDim S256 ![] bcast_S_S256 (countOf : FVec Ideal S_ .f32) (ix1 f) = NN :=
    (bcast0_apply _ _ _).trans countOf_eq
  have hg : broadcastInDim S256 ![] bcast_S_S256
      (cmpf .ogt (countOf : FVec Ideal S_ .f32) (constant S_ .f32 0x00000000#32)) (ix1 f) = 1#1 := by
    rw [bcast0_apply]
    show Ideal.cmp .ogt ((countOf : FVec Ideal S_ .f32) ix0) (Ideal.ofBits .f32 0x00000000#32) = _
    rw [countOf_eq, count_pos]
  unfold varOf
  show Scalar.select (broadcastInDim S256 ![] bcast_S_S256 (cmpf .ogt (countOf : FVec Ideal S_ .f32) (constant S_ .f32 0x00000000#32)) (ix1 f))
      (Ideal.div (colSums (sqDev y) (ix1 f)) (broadcastInDim S256 ![] bcast_S_S256 (countOf : FVec Ideal S_ .f32) (ix1 f)))
      (broadcastInDim S256 ![] bcast_S_S256 (id (constant (F := Ideal) S_ .f32 0x7FC00000#32)) (ix1 f)) = _
  rw [hg, hc, select_one, colSums_apply]

/-! ## The reference at an index -/

/-- The reference's result at (b, t, n, f) is the specification's reference arrangement at row (b, t, n), over the
    shifted activation as a matrix of rows. -/
theorem refOut_apply (x : FVec Ideal S8x64x21x128 .f32) (w : FVec Ideal S128x256 .f32) (b g be : FVec Ideal S256 .f32)
    (i0 : Fin 8) (i1 : Fin 64) (i2 : Fin 21) (f : Fin 256) :
    refOut x w b g be (ix4 i0 i1 i2 f)
      = Spec.refE (Spec.shifted x) (fun c f => w (ix2 c f)) (fun f => b (ix1 f)) (fun f => g (ix1 f)) (fun f => be (ix1 f))
          (Ideal.ofBits .f32 0x46280000#32) (Ideal.ofBits .f32 0x3A83126F#32) (Spec.rowOf i0 i1 i2) f := by
  have hmean : meanOf (yOf x w b) (ix1 f)
      = Spec.mean (Spec.shifted x) (fun c f => w (ix2 c f)) (fun f => b (ix1 f)) NN f := by
    rw [meanOf_apply]
    unfold Spec.mean Spec.colSum
    simp only [yOf_row]
  have hvar : varOf (yOf x w b) (ix1 f)
      = Spec.varDev (Spec.shifted x) (fun c f => w (ix2 c f)) (fun f => b (ix1 f)) NN f := by
    rw [varOf_apply]
    unfold Spec.varDev
    refine congrArg (fun s => Ideal.div s NN) (Finset.sum_congr rfl fun r _ => ?_)
    rw [sqDev_apply]
    unfold Spec.mean Spec.colSum
    simp only [yOf_row]
  unfold refOut
  show max ((yOf x w b (ix4 i0 i1 i2 f) - overRows (meanOf (yOf x w b)) (ix4 i0 i1 i2 f))
        * overRows (Host.rsqrt (addf (varOf (yOf x w b)) (broadcastInDim S256 ![] bcast_S_S256 (constant (F := Ideal) S_ .f32 0x3A83126F#32)))) (ix4 i0 i1 i2 f)
        * overRows g (ix4 i0 i1 i2 f) + overRows be (ix4 i0 i1 i2 f))
      (broadcastInDim S8x64x21x256 ![] bcast_S_S8x64x21x256 (constant (F := Ideal) S_ .f32 0x00000000#32) (ix4 i0 i1 i2 f)) = _
  rw [overRows_apply, overRows_apply, overRows_apply, overRows_apply, bcast0_apply]
  show max ((yOf x w b (ix4 i0 i1 i2 f) - meanOf (yOf x w b) (ix1 f))
        * Ideal.rsqrt (varOf (yOf x w b) (ix1 f) + broadcastInDim S256 ![] bcast_S_S256 (constant (F := Ideal) S_ .f32 0x3A83126F#32) (ix1 f))
        * g (ix1 f) + be (ix1 f))
      (Ideal.ofBits .f32 0x00000000#32) = _
  rw [bcast0_apply, hmean, hvar, yOf_apply, Ideal.ofBits_zero_f32]
  rfl

end Cert.ReferenceIdeal.Hand

end
-- ==== Proof.KI.Chain.lean ====
/-
  Which boundary each later stage reads its operands from.  The normalising kernel and the host operations before it read
  buffers written earlier in the program; each read is walked back, through the stretches and kernels that do not write that
  buffer, to the boundary where it was last written.
-/
import proofs.«102013_j71923522339050_1_alg».proof.Proof.KI.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' arrays, by name -/

theorem arr0_0 : Pipeline.arrRef spec0 0 = main_v2 := rfl
theorem arr0_1 : Pipeline.arrRef spec0 1 = main_arg1 := rfl
theorem arr0_2 : Pipeline.arrRef spec0 2 = main_v3 := rfl
theorem arr0_3 : Pipeline.arrRef spec0 3 = main_v4_0 := rfl
theorem arr0_4 : Pipeline.arrRef spec0 4 = main_v4_1 := rfl
theorem arr1_0 : Pipeline.arrRef spec1 0 = main_v2 := rfl
theorem arr1_1 : Pipeline.arrRef spec1 1 = main_arg1 := rfl
theorem arr1_2 : Pipeline.arrRef spec1 2 = main_v3 := rfl
theorem arr1_3 : Pipeline.arrRef spec1 3 = main_v19 := rfl
theorem arr1_4 : Pipeline.arrRef spec1 4 = main_v20 := rfl
theorem arr1_5 : Pipeline.arrRef spec1 5 = main_v21 := rfl

/-! ## What the statistics kernel finds -/

/-- The weights reach the first kernel as launched. -/
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := StableHlo.after_of_writes_sub hostOps0_2 _ hostOps0_2_writes (by decide)
    _ = W1 m ρ c (Proc.devRef .tc main_arg1) := StableHlo.after_of_writes_sub hostOps0_1 _ hostOps0_1_writes (by decide)
    _ = W0 m ρ c (Proc.devRef .tc main_arg1) := StableHlo.after_of_writes_sub hostOps0 _ hostOps0_writes (by decide)
    _ = m ((c : Thread nD τ).loc main_arg1) := rfl

/-! ## What the host operations between the kernels find -/

/-- The two sums are what the first kernel's write-backs leave. -/
theorem W4_main_v4_0 (c : Dev nD) : W4 m ρ c (Proc.devRef .tc main_v4_0) = (dat0 (Vr0 m ρ) c).arrAt 3 cfg0.N := W4_arr m ρ c 3
theorem W4_main_v4_1 (c : Dev nD) : W4 m ρ c (Proc.devRef .tc main_v4_1) = (dat0 (Vr0 m ρ) c).arrAt 4 cfg0.N := W4_arr m ρ c 4

/-- γ and β reach them as launched. -/
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_writes_sub hostOps0_2 _ hostOps0_2_writes (by decide)
    _ = W1 m ρ c (Proc.devRef .tc main_arg3) := StableHlo.after_of_writes_sub hostOps0_1 _ hostOps0_1_writes (by decide)
    _ = W0 m ρ c (Proc.devRef .tc main_arg3) := StableHlo.after_of_writes_sub hostOps0 _ hostOps0_writes (by decide)
    _ = m ((c : Thread nD τ).loc main_arg3) := rfl
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_writes_sub hostOps0_2 _ hostOps0_2_writes (by decide)
    _ = W1 m ρ c (Proc.devRef .tc main_arg4) := StableHlo.after_of_writes_sub hostOps0_1 _ hostOps0_1_writes (by decide)
    _ = W0 m ρ c (Proc.devRef .tc main_arg4) := StableHlo.after_of_writes_sub hostOps0 _ hostOps0_writes (by decide)
    _ = m ((c : Thread nD τ).loc main_arg4) := rfl

/-! ## What the normalising kernel finds -/

/-- The flattened shifted activation is still what the first stretches wrote: the first kernel only reads it, the host
    operations between the kernels do not write it. -/
theorem W5_main_v2 (c : Dev nD) : W5 m ρ c (Proc.devRef .tc main_v2) = W3 m ρ c (Proc.devRef .tc main_v2) :=
  calc W5 m ρ c (Proc.devRef .tc main_v2)
    _ = W4 m ρ c (Proc.devRef .tc main_v2) := StableHlo.after_of_writes_sub hostOps1 _ hostOps1_writes (by decide)
    _ = W3 m ρ c (Proc.devRef .tc main_v2) := (W4_arr m ρ c 0).trans (((dat0 (Vr0 m ρ) c).arrAt_in 0 rfl _).trans (A_eq0 (Vr0 m ρ) c 0))
theorem W5_main_v3 (c : Dev nD) : W5 m ρ c (Proc.devRef .tc main_v3) = W3 m ρ c (Proc.devRef .tc main_v3) :=
  calc W5 m ρ c (Proc.devRef .tc main_v3)
    _ = W4 m ρ c (Proc.devRef .tc main_v3) := StableHlo.after_of_writes_sub hostOps1 _ hostOps1_writes (by decide)
    _ = W3 m ρ c (Proc.devRef .tc main_v3) := (W4_arr m ρ c 2).trans (((dat0 (Vr0 m ρ) c).arrAt_in 2 rfl _).trans (A_eq0 (Vr0 m ρ) c 2))
theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := StableHlo.after_of_writes_sub hostOps1 _ hostOps1_writes (by decide)
    _ = W3 m ρ c (Proc.devRef .tc main_arg1) := (W4_arr m ρ c 1).trans (((dat0 (Vr0 m ρ) c).arrAt_in 1 rfl _).trans (A_eq0 (Vr0 m ρ) c 1))
    _ = m ((c : Thread nD τ).loc main_arg1) := W3_main_arg1 m ρ c

/-- The result is the reshape of what the second kernel's write-backs leave. -/
theorem W6_main_v21 (c : Dev nD) : W6 m ρ c (Proc.devRef .tc main_v21) = (dat1 (Vr1 m ρ) c).arrAt 5 cfg1.N := W6_arr m ρ c 5

end Cert.KernelIdeal.Hand

end
-- ==== Proof.KI.Shift.lean ====
/-
  The per-channel circular shift of the activation, as the host computes it, read entry by entry.

  A constant table gives, for position n and channel c, the source position (n − c mod 21) mod 21. The host repeats the
  table over the batch and time axes, moves a negative entry up by 21 (none is negative), tests every entry against the
  bounds 0 and 20 (all lie inside), gathers the activation along the position axis at the entries — clamped into 0..20,
  which changes nothing — and would put a NaN where the test failed. So entry (b, t, n, c) of the result is
  x[b, t, (n − c mod 21) mod 21, c].
-/
import proofs.«102013_j71923522339050_1_alg».proof.Proof.Gen.KernelIdeal.Launch
import proofs.«102013_j71923522339050_1_alg».proof.Proof.Spec
import Idealize.ShloMosaic.Lib.Pipeline.Value
import Idealize.ShloMosaic.Lib.ValueLayout
import Idealize.ShloMosaic.Lib.ReduceAll

noncomputable section

namespace Cert.KernelIdeal.Hand

open Idealize.ShloMosaic Idealize.ShloMosaic.ValueIdx
open Cert.KernelIdeal Cert.KernelIdeal.Gen
open scoped BigOperators

/-! ## The per-channel shift of the activation: the index table, the bounds tests, the gather -/

/-- The constant table of source positions, one entry per (position, channel). -/
def idxTable : IVec S21x128 32 := fun i => lit0 (S21x128.rowMajor i)

/-- The table repeated over the batch and time axes. -/
def idxB : IVec S8x64x21x128 32 := broadcastInDim S8x64x21x128 ![2, 3] bcast_S21x128_S8x64x21x128_2_3 idxTable

/-- A negative entry is moved up by 21 (none is negative), and the array gets a trailing unit axis. -/
def idx5 (v0 : IVec S8x64x21x128 32) : IVec S8x64x21x128x1 32 :=
  shapeCast S8x64x21x128x1
    (select (cmpi .slt v0 (broadcastInDim S8x64x21x128 ![] bcast_S_S8x64x21x128 (constantI S_ 32 0#32)))
      (addi v0 (broadcastInDim S8x64x21x128 ![] bcast_S_S8x64x21x128 (constantI S_ 32 21#32))) v0)
    shapeCasts_S8x64x21x128_S8x64x21x128x1

/-- The test that an entry lies in 0..20, folded over the trailing unit axis. -/
def inBounds (v5 : IVec S8x64x21x128x1 32) : IVec S8x64x21x128 1 :=
  Host.reduce IntOp.andi
    (andi (cmpi .sge v5 (broadcastInDim S8x64x21x128x1 ![] bcast_S_S8x64x21x128x1 (constantI S_ 32 0#32)))
      (cmpi .sle v5 (broadcastInDim S8x64x21x128x1 ![0, 1, 2, 3, 4] bcast_S1x1x1x1x1_S8x64x21x128x1_0_1_2_3_4
        (broadcastInDim S1x1x1x1x1 ![4] bcast_S1_S1x1x1x1x1_4 (constantI S1 32 20#32)))))
    (constantI S_ 1 1#1) reducesTo_S8x64x21x128x1_S8x64x21x128_d4 h_S_

/-- The shifted activation as the host computes it: the gathered entry where the index is in bounds, a NaN elsewhere. -/
def taken (x : FVec Ideal S8x64x21x128 .f32) (v0 : IVec S8x64x21x128 32) : FVec Ideal S8x64x21x128 .f32 :=
  select (inBounds (idx5 v0))
    (Host.gather gather_S8x64x21x128_S8x64x21x128x1_S8x64x21x128_n_2_013_013_2_4_1111 x (idx5 v0))
    (broadcastInDim S8x64x21x128 ![] bcast_S_S8x64x21x128 (constant (F := Ideal) S_ .f32 0x7FC00000#32))

/-! ## The table and the words it holds -/

/-- The table's entry at (position n, channel c) is the source position (n − c mod 21) mod 21. -/
theorem lit0t_entry : ∀ (n : Fin 21) (c : Fin 128),
    lit0t (n.val * 128 + c.val) = BitVec.ofNat 32 ((n.val + 21 - c.val % 21) % 21) := by
  decide +kernel

theorem idxTable_apply (n : Fin 21) (c : Fin 128) :
    idxTable (ix2 n c) = BitVec.ofNat 32 (Cert.Spec.src n c).val := by
  have hv : (S21x128.rowMajor (ix2 n c)).val = n.val * 128 + c.val := Shape.rowMajor_val_two _
  show lit0t (S21x128.rowMajor (ix2 n c)).val = _
  rw [hv]
  exact lit0t_entry n c

theorem idxB_apply (b : Fin 8) (t : Fin 64) (n : Fin 21) (c : Fin 128) :
    idxB (ix4 b t n c) = BitVec.ofNat 32 (Cert.Spec.src n c).val := by
  unfold idxB
  refine (broadcastInDim_apply _ _ _ (ix4 b t n c) (ix2 n c) (fun a => ?_)).trans (idxTable_apply n c)
  match a with
  | ⟨0, _⟩ => rfl
  | ⟨1, _⟩ => rfl

/-- A word holding a position 0..20, read as a signed integer: not negative, within the bounds 0 and 20, and its value. -/
theorem word_facts : ∀ k : Fin 21,
    IntOp.cmpi .slt (BitVec.ofNat 32 k.val) 0#32 = 0#1 ∧
    IntOp.cmpi .sge (BitVec.ofNat 32 k.val) 0#32 = 1#1 ∧
    IntOp.cmpi .sle (BitVec.ofNat 32 k.val) 20#32 = 1#1 ∧
    (BitVec.ofNat 32 k.val).toInt.toNat = k.val := by
  decide

/-! ## The index array with its trailing unit axis -/

theorem idx5_apply (v0 : IVec S8x64x21x128 32) (b : Fin 8) (t : Fin 64) (n : Fin 21) (c : Fin 128) (k : Fin 21)
    (hk : v0 (ix4 b t n c) = BitVec.ofNat 32 k.val) :
    idx5 v0 (ix5 b t n c (0 : Fin 1)) = BitVec.ofNat 32 k.val := by
  unfold idx5
  refine (shapeCast_apply _ _ (ix5 b t n c (0 : Fin 1)) (ix4 b t n c) ?_).trans ?_
  · rw [Shape.rowMajor_val_four, Shape.rowMajor_val_five]
    show ((b.val * 64 + t.val) * 21 + n.val) * 128 + c.val = (((b.val * 64 + t.val) * 21 + n.val) * 128 + c.val) * 1 + 0
    omega
  · show Scalar.select (IntOp.cmpi .slt (v0 (ix4 b t n c)) 0#32) (IntOp.addi (v0 (ix4 b t n c)) 21#32) (v0 (ix4 b t n c)) = _
    rw [hk, (word_facts k).1, select_zero]

theorem idx5_word (v0 : IVec S8x64x21x128 32)
    (hall : ∀ (b : Fin 8) (t : Fin 64) (n : Fin 21) (c : Fin 128), ∃ k : Fin 21, v0 (ix4 b t n c) = BitVec.ofNat 32 k.val)
    (i : S8x64x21x128x1.Idx) : ∃ k : Fin 21, idx5 v0 i = BitVec.ofNat 32 k.val := by
  obtain ⟨k, hk⟩ := hall (i 0) (i 1) (i 2) (i 3)
  have h4 : i 4 = (0 : Fin 1) := Fin.ext (Nat.lt_one_iff.mp (i 4).isLt)
  have hi : i = ix5 (i 0) (i 1) (i 2) (i 3) (0 : Fin 1) :=
    (eq_ix5 i).trans (congrArg (ix5 (i 0) (i 1) (i 2) (i 3)) h4)
  rw [hi]
  exact ⟨k, idx5_apply v0 _ _ _ _ k hk⟩

/-! ## The bounds test -/

theorem foldl_andi_one {ι : Type} (f : ι → BitVec 1) :
    ∀ l : List ι, (∀ n ∈ l, f n = 1#1) → l.foldl (fun r n => IntOp.andi r (f n)) 1#1 = 1#1
  | [], _ => rfl
  | a :: l, h => by
    have ha : IntOp.andi 1#1 (f a) = 1#1 := by rw [h a List.mem_cons_self]; decide
    rw [List.foldl_cons, ha]
    exact foldl_andi_one f l fun n hn => h n (List.mem_cons_of_mem _ hn)

theorem reduce_andi_one {s t u : Shape} {axes : List (Fin s.rank)} (x : s.Idx → BitVec 1) (h : s.ReducesTo axes t)
    (hu : 0 < u.numel) (hx : ∀ i, x i = 1#1) (j : t.Idx) :
    Host.reduce IntOp.andi x (constantI u 1 1#1) h hu j = 1#1 := by
  rw [Host.reduce_eq_foldl]
  exact foldl_andi_one x _ fun i _ => hx i

theorem inBounds_idx5 (v0 : IVec S8x64x21x128 32)
    (hall : ∀ (b : Fin 8) (t : Fin 64) (n : Fin 21) (c : Fin 128), ∃ k : Fin 21, v0 (ix4 b t n c) = BitVec.ofNat 32 k.val)
    (j : S8x64x21x128.Idx) : inBounds (idx5 v0) j = 1#1 := by
  unfold inBounds
  refine reduce_andi_one _ _ _ (fun i => ?_) j
  obtain ⟨k, hk⟩ := idx5_word v0 hall i
  show IntOp.andi (IntOp.cmpi .sge (idx5 v0 i) 0#32) (IntOp.cmpi .sle (idx5 v0 i) 20#32) = 1#1
  rw [hk, (word_facts k).2.1, (word_facts k).2.2.1]
  decide

/-! ## The gather -/

/-- The gather along the position axis, batched over the other three: entry (b, t, n, c) of the result is the
    activation at (b, t, the index entry clamped into 0..20, c). -/
theorem gather_shift_apply {α : Type} (x : S8x64x21x128.Idx → α) (idx : IVec S8x64x21x128x1 32)
    (b : Fin 8) (t : Fin 64) (n : Fin 21) (c : Fin 128) :
    Host.gather gather_S8x64x21x128_S8x64x21x128x1_S8x64x21x128_n_2_013_013_2_4_1111 x idx (ix4 b t n c)
      = x (ix4 b t ⟨min (idx (ix5 b t n c (0 : Fin 1))).toInt.toNat 20, by omega⟩ c) := by
  unfold Host.gather
  refine congrArg x (funext fun a => Fin.ext ?_)
  have hsi : ∀ h, gather_S8x64x21x128_S8x64x21x128x1_S8x64x21x128_n_2_013_013_2_4_1111.siIdx (ix4 b t n c)
      ⟨List.idxOf (2 : Fin 4) gather_S8x64x21x128_S8x64x21x128x1_S8x64x21x128_n_2_013_013_2_4_1111.startIndexMap, h⟩
        = ix5 b t n c (0 : Fin 1) := fun h => by
    funext d; refine Fin.ext ?_
    match d with
    | ⟨0, _⟩ => rfl
    | ⟨1, _⟩ => rfl
    | ⟨2, _⟩ => rfl
    | ⟨3, _⟩ => rfl
    | ⟨4, _⟩ => rfl
  match a with
  | ⟨0, _⟩ =>
    show GatherDims.start _ (ix4 b t n c) idx 0 + GatherDims.batchCoord _ (ix4 b t n c) 0 + GatherDims.offCoord _ (ix4 b t n c) 0 = b.val
    rw [GatherDims.start_batching _ _ _ _ (by decide), GatherDims.offCoord_eq_zero _ _ _ (by decide)]
    unfold GatherDims.batchCoord
    rw [dif_pos (by decide)]
    simp only [GatherDims.siCoord, Fin.val_cast, Nat.zero_add, Nat.add_zero]
    rfl
  | ⟨1, _⟩ =>
    show GatherDims.start _ (ix4 b t n c) idx 1 + GatherDims.batchCoord _ (ix4 b t n c) 1 + GatherDims.offCoord _ (ix4 b t n c) 1 = t.val
    rw [GatherDims.start_batching _ _ _ _ (by decide), GatherDims.offCoord_eq_zero _ _ _ (by decide)]
    unfold GatherDims.batchCoord
    rw [dif_pos (by decide)]
    simp only [GatherDims.siCoord, Fin.val_cast, Nat.zero_add, Nat.add_zero]
    rfl
  | ⟨3, _⟩ =>
    show GatherDims.start _ (ix4 b t n c) idx 3 + GatherDims.batchCoord _ (ix4 b t n c) 3 + GatherDims.offCoord _ (ix4 b t n c) 3 = c.val
    rw [GatherDims.start_batching _ _ _ _ (by decide), GatherDims.offCoord_eq_zero _ _ _ (by decide)]
    unfold GatherDims.batchCoord
    rw [dif_pos (by decide)]
    simp only [GatherDims.siCoord, Fin.val_cast, Nat.zero_add, Nat.add_zero]
    rfl
  | ⟨2, _⟩ =>
    show GatherDims.start _ (ix4 b t n c) idx 2 + GatherDims.batchCoord _ (ix4 b t n c) 2 + GatherDims.offCoord _ (ix4 b t n c) 2 = _
    rw [GatherDims.batchCoord_eq_zero _ _ _ (by decide), GatherDims.offCoord_eq_zero _ _ _ (by decide)]
    unfold GatherDims.start
    rw [dif_pos (by decide), hsi]
    rfl

/-! ## The shifted activation at an entry -/

theorem idxB_word (b : Fin 8) (t : Fin 64) (n : Fin 21) (c : Fin 128) :
    ∃ k : Fin 21, idxB (ix4 b t n c) = BitVec.ofNat 32 k.val := ⟨Cert.Spec.src n c, idxB_apply b t n c⟩

/-- Every table entry is in bounds, so the select keeps the gathered value: entry (b, t, n, c) of the shifted
    activation is x[b, t, (n − c mod 21) mod 21, c]. -/
theorem taken_idxB_apply (x : FVec Ideal S8x64x21x128 .f32) (b : Fin 8) (t : Fin 64) (n : Fin 21) (c : Fin 128) :
    taken x idxB (ix4 b t n c) = x (ix4 b t (Cert.Spec.src n c) c) := by
  unfold taken
  show Scalar.select (inBounds (idx5 idxB) (ix4 b t n c))
      (Host.gather gather_S8x64x21x128_S8x64x21x128x1_S8x64x21x128_n_2_013_013_2_4_1111 x (idx5 idxB) (ix4 b t n c)) _ = _
  rw [inBounds_idx5 idxB idxB_word, select_one, gather_shift_apply]
  refine congrArg x (congrArg (fun z => ix4 b t z c) (Fin.ext ?_))
  show min (idx5 idxB (ix5 b t n c (0 : Fin 1))).toInt.toNat 20 = (Cert.Spec.src n c).val
  rw [idx5_apply idxB b t n c (Cert.Spec.src n c) (idxB_apply b t n c), (word_facts (Cert.Spec.src n c)).2.2.2]
  have := (Cert.Spec.src n c).isLt
  omega

end Cert.KernelIdeal.Hand
end
-- ==== Proof.KI.HostStages.lean ====
/-
  The host stretches of the kernel program's @main, read as functions of the buffers they start from.

  Before the first region the activation x[b, t, n, c] is shifted along its 21 positions, channel by channel: a constant
  table gives, for position n and channel c, the source position (n − c mod 21) mod 21; the table is repeated over the
  batch and time axes, its entries are tested against the bounds 0 and 20 (they all lie inside), the activation is
  gathered along the position axis at those entries, and an out-of-bounds entry would have been replaced by a NaN.
  The result is flattened to 10752 rows of 128 channels, row (b·64 + t)·21 + n. The bias gets a leading unit axis.
  Between the two regions the column sums s1, s2 of Y and of Y² become mean = s1/N, var = s2/N − mean², the scale
  γ·rsqrt(var + e) and the shift β − mean·scale. After the second region the 10752 rows are unflattened.
-/
import proofs.«102013_j71923522339050_1_alg».proof.Proof.Gen.KernelIdeal.Regions
import proofs.«102013_j71923522339050_1_alg».proof.Proof.Spec
import proofs.«102013_j71923522339050_1_alg».proof.Proof.KI.Shift
import Idealize.ShloMosaic.Lib.StableHlo.Run
import Idealize.ShloMosaic.Lib.Pipeline.Value
import Idealize.ShloMosaic.Lib.ValueLayout

noncomputable section

namespace Cert.KernelIdeal.Hand

open Idealize.ShloMosaic Idealize.ShloMosaic.TcCoe Idealize.ShloMosaic.StableHlo Idealize.ShloMosaic.ValueIdx
open Cert.KernelIdeal Cert.KernelIdeal.Gen
open scoped BigOperators

/-! ## The stretches before the first region, as folds over the buffers -/

theorem after_append {Val : EltTy → Type} (l₁ l₂ : List (HloOp τ sig Val)) (V : Valuation τ sig Val) :
    StableHlo.after (l₁ ++ l₂) V = StableHlo.after l₂ (StableHlo.after l₁ V) := by
  induction l₁ generalizing V with
  | nil => rfl
  | cons op l ih => exact ih _

/-- The call's first eight operations (the index array normalised, with its trailing unit axis), its next ten (the
    bounds test) and its last four (the gather, the NaN and the select). -/
abbrev callOpsA : List (HloOp τ sig (Elt Ideal)) := hostOps0_1.take 8
abbrev callOpsB : List (HloOp τ sig (Elt Ideal)) := (hostOps0_1.drop 8).take 10
abbrev callOpsC : List (HloOp τ sig (Elt Ideal)) := (hostOps0_1.drop 8).drop 10

theorem callOps_split : (hostOps0_1 : List (HloOp τ sig (Elt Ideal))) = callOpsA ++ (callOpsB ++ callOpsC) := by
  show _ = List.take 8 hostOps0_1 ++ (List.take 10 (List.drop 8 hostOps0_1) ++ List.drop 10 (List.drop 8 hostOps0_1))
  rw [List.take_append_drop, List.take_append_drop]

/-- A buffer none of the call's operations writes keeps its contents through any part of the call. -/
theorem call_keeps (sub : List (HloOp τ sig (Elt Ideal))) (hsub : ∀ op ∈ sub, op ∈ (hostOps0_1 : List (HloOp τ sig (Elt Ideal))))
    (W : Valuation τ sig (Elt Ideal)) {r : Ref sig .tc} (hr : r ∉ hostOps0_1_W) :
    StableHlo.after sub W (Proc.devRef .tc r) = W (Proc.devRef .tc r) :=
  StableHlo.after_of_writes_sub sub W
    (List.forall_iff_forall_mem.mpr fun op h => (List.forall_iff_forall_mem.mp hostOps0_1_writes) op (hsub op h)) hr

theorem stage0_v0 (V : Valuation τ sig (Elt Ideal)) :
    StableHlo.after hostOps0 V (Proc.devRef .tc main_v0) = idxB := by
  simp only [after_cons, after_nil]
  rfl

theorem stageA_v5 (W : Valuation τ sig (Elt Ideal)) :
    StableHlo.after callOpsA W (Proc.devRef .tc main_call0_v5) = idx5 (W (Proc.devRef .tc main_v0)) := by
  simp only [callOpsA, hostOps0_1, List.take_succ_cons, List.take_zero, after_cons, after_nil]
  rfl

attribute [local irreducible] Host.reduce Host.gather in
theorem stageB_v12 (W : Valuation τ sig (Elt Ideal)) :
    StableHlo.after callOpsB W (Proc.devRef .tc main_call0_v12) = inBounds (W (Proc.devRef .tc main_call0_v5)) := by
  simp only [callOpsB, hostOps0_1, List.drop_succ_cons, List.drop_zero, List.take_succ_cons, List.take_zero, after_cons, after_nil]
  rfl

attribute [local irreducible] Host.reduce Host.gather in
theorem stageB_v5 (W : Valuation τ sig (Elt Ideal)) :
    StableHlo.after callOpsB W (Proc.devRef .tc main_call0_v5) = W (Proc.devRef .tc main_call0_v5) := by
  simp only [callOpsB, hostOps0_1, List.drop_succ_cons, List.drop_zero, List.take_succ_cons, List.take_zero, after_cons, after_nil]
  rfl

attribute [local irreducible] Host.reduce Host.gather in
theorem stageC_v1 (W : Valuation τ sig (Elt Ideal)) :
    StableHlo.after callOpsC W (Proc.devRef .tc main_v1)
      = select (W (Proc.devRef .tc main_call0_v12))
          (Host.gather gather_S8x64x21x128_S8x64x21x128x1_S8x64x21x128_n_2_013_013_2_4_1111
            (W (Proc.devRef .tc main_arg0)) (W (Proc.devRef .tc main_call0_v5)))
          (broadcastInDim S8x64x21x128 ![] bcast_S_S8x64x21x128 (constant (F := Ideal) S_ .f32 0x7FC00000#32)) := by
  simp only [callOpsC, hostOps0_1, List.drop_succ_cons, List.drop_zero, after_cons, after_nil]
  rfl

/-- The two stretches that build the shifted activation leave it in the call's result buffer. -/
theorem after_v1 (Vin : Valuation τ sig (Elt Ideal)) :
    StableHlo.after hostOps0_1 (StableHlo.after hostOps0 Vin) (Proc.devRef .tc main_v1)
      = taken (Vin (Proc.devRef .tc main_arg0)) idxB := by
  rw [callOps_split, after_append, after_append, stageC_v1, stageB_v12, stageB_v5,
    call_keeps callOpsB (fun op h => List.mem_of_mem_drop (List.mem_of_mem_take h)) _ (r := main_arg0) (by decide),
    stageA_v5, call_keeps callOpsA (fun op h => List.mem_of_mem_take h) _ (r := main_arg0) (by decide), stage0_v0,
    StableHlo.after_of_writes_sub hostOps0 Vin hostOps0_writes (r := main_arg0) (by decide)]
  rfl

/-! ## The flattened activation and the bias row -/

theorem after_v2 (V : Valuation τ sig (Elt Ideal)) :
    StableHlo.after hostOps0_2 V (Proc.devRef .tc main_v2)
      = shapeCast S10752x128 (V (Proc.devRef .tc main_v1)) shapeCasts_S8x64x21x128_S10752x128 := by
  simp only [after_cons, after_nil]
  rfl

theorem after_v3 (V : Valuation τ sig (Elt Ideal)) :
    StableHlo.after hostOps0_2 V (Proc.devRef .tc main_v3)
      = shapeCast S1x256 (V (Proc.devRef .tc main_arg2)) shapeCasts_S256_S1x256 := by
  simp only [after_cons, after_nil]
  rfl

/-- The first region's activation operand, at row r and channel c, is the shifted activation of the specification. -/
theorem stage_xflat (Vin : Valuation τ sig (Elt Ideal)) (r : Fin 10752) (c : Fin 128) :
    (StableHlo.after hostOps0_2 (StableHlo.after hostOps0_1 (StableHlo.after hostOps0 Vin)) (Proc.devRef .tc main_v2)
        : S10752x128.Idx → EReal) (ix2 r c)
      = Cert.Spec.shifted (Vin (Proc.devRef .tc main_arg0)) r c := by
  rw [after_v2, after_v1]
  refine (shapeCast_apply _ _ (ix2 r c) (ix4 (Cert.Spec.bOf r) (Cert.Spec.tOf r) (Cert.Spec.nOf r) c) ?_).trans
    (taken_idxB_apply _ _ _ _ _)
  rw [Shape.rowMajor_val_four, Shape.rowMajor_val_two]
  show ((r.val / 1344 * 64 + r.val / 21 % 64) * 21 + r.val % 21) * 128 + c.val = r.val * 128 + c.val
  omega

/-- The bias row, at column q, is the bias argument at q. -/
theorem stage_bias (Vin : Valuation τ sig (Elt Ideal)) (q : Fin 256) :
    (StableHlo.after hostOps0_2 (StableHlo.after hostOps0_1 (StableHlo.after hostOps0 Vin)) (Proc.devRef .tc main_v3)
        : S1x256.Idx → EReal) (ix2 0 q)
      = (Vin (Proc.devRef .tc main_arg2) : S256.Idx → EReal) (ix1 q) := by
  rw [after_v3, StableHlo.after_of_writes_sub hostOps0_1 _ hostOps0_1_writes (r := main_arg2) (by decide),
    StableHlo.after_of_writes_sub hostOps0 _ hostOps0_writes (r := main_arg2) (by decide)]
  exact shapeCast_a_1a_apply _ _ 0 q

/-! ## Between the regions: mean, variance, scale and shift -/

/-- The column means as the host forms them: the first sums row over the row count. -/
def meanVec (s1 : FVec Ideal S1x256 .f32) : FVec Ideal S256 .f32 :=
  Host.divf (F := Ideal) (shapeCast S256 s1 shapeCasts_S1x256_S256)
    (broadcastInDim S256 ![] bcast_S_S256 (constant (F := Ideal) S_ .f32 0x46280000#32))

/-- The per-column scale as the host forms it. -/
def scaleVec (s1 s2 : FVec Ideal S1x256 .f32) (γ : FVec Ideal S256 .f32) : FVec Ideal S256 .f32 :=
  mulf γ (Host.rsqrt (F := Ideal)
    (addf
      (subf
        (Host.divf (F := Ideal) (shapeCast S256 s2 shapeCasts_S1x256_S256)
          (broadcastInDim S256 ![] bcast_S_S256 (constant (F := Ideal) S_ .f32 0x46280000#32)))
        (mulf (meanVec s1) (meanVec s1)))
      (broadcastInDim S256 ![] bcast_S_S256 (constant (F := Ideal) S_ .f32 0x3A83126F#32))))

/-- The per-column shift as the host forms it. -/
def shiftVec (s1 s2 : FVec Ideal S1x256 .f32) (γ β : FVec Ideal S256 .f32) : FVec Ideal S256 .f32 :=
  subf β (mulf (meanVec s1) (scaleVec s1 s2 γ))

theorem after_v19 (V : Valuation τ sig (Elt Ideal)) :
    StableHlo.after hostOps1 V (Proc.devRef .tc main_v19)
      = shapeCast S1x256 (scaleVec (V (Proc.devRef .tc main_v4_0)) (V (Proc.devRef .tc main_v4_1)) (V (Proc.devRef .tc main_arg3)))
          shapeCasts_S256_S1x256 := by
  simp only [after_cons, after_nil]
  rfl

theorem after_v20 (V : Valuation τ sig (Elt Ideal)) :
    StableHlo.after hostOps1 V (Proc.devRef .tc main_v20)
      = shapeCast S1x256 (shiftVec (V (Proc.devRef .tc main_v4_0)) (V (Proc.devRef .tc main_v4_1)) (V (Proc.devRef .tc main_arg3))
          (V (Proc.devRef .tc main_arg4))) shapeCasts_S256_S1x256 := by
  simp only [after_cons, after_nil]
  rfl

/-- The mean of column q from the sums row s1: s1[q] / N, N the row count as the program spells it. -/
def hostMean (s1 : FVec Ideal S1x256 .f32) (q : Fin 256) : EReal :=
  Ideal.div (s1 (ix2 0 q)) (Ideal.ofBits .f32 0x46280000#32)

/-- The scale of column q: γ[q] · rsqrt(s2[q] / N − mean² + e). -/
def hostScale (s1 s2 : FVec Ideal S1x256 .f32) (γ : FVec Ideal S256 .f32) (q : Fin 256) : EReal :=
  γ (ix1 q) * Ideal.rsqrt
    (Ideal.div (s2 (ix2 0 q)) (Ideal.ofBits .f32 0x46280000#32) - hostMean s1 q * hostMean s1 q + Ideal.ofBits .f32 0x3A83126F#32)

/-- The shift of column q: β[q] − mean · scale. -/
def hostShift (s1 s2 : FVec Ideal S1x256 .f32) (γ β : FVec Ideal S256 .f32) (q : Fin 256) : EReal :=
  β (ix1 q) - hostMean s1 q * hostScale s1 s2 γ q

theorem meanVec_apply (s1 : FVec Ideal S1x256 .f32) (q : Fin 256) : meanVec s1 (ix1 q) = hostMean s1 q := by
  show Ideal.div (shapeCast S256 s1 shapeCasts_S1x256_S256 (ix1 q)) (Ideal.ofBits .f32 0x46280000#32) = _
  rw [shapeCast_1a_a_apply]
  rfl

theorem scaleVec_apply (s1 s2 : FVec Ideal S1x256 .f32) (γ : FVec Ideal S256 .f32) (q : Fin 256) :
    scaleVec s1 s2 γ (ix1 q) = hostScale s1 s2 γ q := by
  show γ (ix1 q) * Ideal.rsqrt
      (Ideal.div (shapeCast S256 s2 shapeCasts_S1x256_S256 (ix1 q)) (Ideal.ofBits .f32 0x46280000#32)
        - meanVec s1 (ix1 q) * meanVec s1 (ix1 q) + Ideal.ofBits .f32 0x3A83126F#32) = _
  rw [shapeCast_1a_a_apply, meanVec_apply]
  rfl

theorem shiftVec_apply (s1 s2 : FVec Ideal S1x256 .f32) (γ β : FVec Ideal S256 .f32) (q : Fin 256) :
    shiftVec s1 s2 γ β (ix1 q) = hostShift s1 s2 γ β q := by
  show β (ix1 q) - meanVec s1 (ix1 q) * scaleVec s1 s2 γ (ix1 q) = _
  rw [meanVec_apply, scaleVec_apply]
  rfl

/-- The scale row handed to the second region, at column q. -/
theorem stage_scale (V : Valuation τ sig (Elt Ideal)) (q : Fin 256) :
    (StableHlo.after hostOps1 V (Proc.devRef .tc main_v19) : S1x256.Idx → EReal) (ix2 0 q)
      = hostScale (V (Proc.devRef .tc main_v4_0)) (V (Proc.devRef .tc main_v4_1)) (V (Proc.devRef .tc main_arg3)) q := by
  rw [after_v19]
  exact (shapeCast_a_1a_apply _ _ 0 q).trans (scaleVec_apply _ _ _ q)

/-- The shift row handed to the second region, at column q. -/
theorem stage_shift (V : Valuation τ sig (Elt Ideal)) (q : Fin 256) :
    (StableHlo.after hostOps1 V (Proc.devRef .tc main_v20) : S1x256.Idx → EReal) (ix2 0 q)
      = hostShift (V (Proc.devRef .tc main_v4_0)) (V (Proc.devRef .tc main_v4_1)) (V (Proc.devRef .tc main_arg3))
          (V (Proc.devRef .tc main_arg4)) q := by
  rw [after_v20]
  exact (shapeCast_a_1a_apply _ _ 0 q).trans (shiftVec_apply _ _ _ _ q)

/-! ## After the second region: the rows unflattened -/

/-- The result at (i0, i1, i2, f) is the second region's output at row (i0·64 + i1)·21 + i2 and column f. -/
theorem stage_out (V : Valuation τ sig (Elt Ideal)) (i0 : Fin 8) (i1 : Fin 64) (i2 : Fin 21) (f : Fin 256) :
    (StableHlo.after hostOps2 V (Proc.devRef .tc main_v22) : S8x64x21x256.Idx → EReal) (ix4 i0 i1 i2 f)
      = (V (Proc.devRef .tc main_v21) : S10752x256.Idx → EReal) (ix2 (Cert.Spec.rowOf i0 i1 i2) f) := by
  have e : StableHlo.after hostOps2 V (Proc.devRef .tc main_v22)
      = shapeCast S8x64x21x256 (V (Proc.devRef .tc main_v21)) shapeCasts_S10752x256_S8x64x21x256 := by
    simp only [after_cons, after_nil]
    rfl
  rw [e]
  refine shapeCast_apply _ _ (ix4 i0 i1 i2 f) (ix2 (Cert.Spec.rowOf i0 i1 i2) f) ?_
  rw [Shape.rowMajor_val_four, Shape.rowMajor_val_two]
  rfl

end Cert.KernelIdeal.Hand
end
-- ==== Proof.KI.Value1.lean ====
/- REGION 1's value at the exact-real reading of the floats: the output array after the second pallas_call as ONE
   function of the arrays the region finds, index by index.

   Point `t` of the grid (8 points) writes back rows 1344·t … 1344·t + 1343 of the [10752, 256] output; what it
   writes is the payload of the five input blocks at that point: rows 1344·t … of the flattened input, and the
   weight matrix and the three rows bias, scale, shift whole (their block index is (0, 0) at every point).
   Entry (r, f) of the payload depends on row r of the input block, column f of the weights and entry f of the three
   rows only, so the 8 row blocks are the restrictions of one function of the whole arrays:
     out (r, f) = max (((Σ k, x (r, k) · W (k, f)) + b f) · scale f + shift f) 0.
   The row blocks tile the output (row r lies in block r / 1344), so the array ends holding that function. -/
import proofs.«102013_j71923522339050_1_alg».proof.Proof.KI.Region1
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx
open scoped BigOperators

/-! ## The function -/

/-- Entry (r, f) of the region's result from the five whole arrays: the affine map of the matrix product's entry,
    then the positive part. -/
def g1 (X : S10752x128.Idx → Elt Ideal .f32) (W : S128x256.Idx → Elt Ideal .f32) (B SC SH : S1x256.Idx → Elt Ideal .f32)
    (r : Fin 10752) (f : Fin 256) : Elt Ideal .f32 :=
  max (((∑ k : Fin 128, X (ix2 r k) * W (ix2 k f)) + B (ix2 0 f)) * SC (ix2 0 f) + SH (ix2 0 f)) 0

/-- The whole result array. -/
def G1 (X : S10752x128.Idx → Elt Ideal .f32) (W : S128x256.Idx → Elt Ideal .f32) (B SC SH : S1x256.Idx → Elt Ideal .f32) :
    S10752x256.Idx → Elt Ideal .f32 := fun i => g1 X W B SC SH (i 0) (i 1)

/-- The payload of a row block at an entry, as the same formula of the block's row: what the value proof of the
    payload provides. -/
def PayAt1 : Prop :=
  ∀ (x : Vec Ideal S1344x128 .f32) (w : Vec Ideal S128x256 .f32) (b sc sh : Vec Ideal S1x256 .f32) (p : Fin 1344) (q : Fin 256),
    k1_pay1 (F := Ideal) x w b sc sh (ix2 p q)
      = max (((∑ c : Fin 128, x (ix2 p c) * w (ix2 c q)) + b (ix2 0 q)) * sc (ix2 0 q) + sh (ix2 0 q)) 0

variable (V : (c : Dev nD) → (b : Ref sig .tc) → Buf (Elt Ideal) ((c : Thread nD τ).loc b))

/-- The five arrays as the region finds them. -/
abbrev arrX1 (c : Dev nD) : S10752x128.Idx → Elt Ideal .f32 := V c (Pipeline.arrRef spec1 0)
abbrev arrW1 (c : Dev nD) : S128x256.Idx → Elt Ideal .f32 := V c (Pipeline.arrRef spec1 1)
abbrev arrB1 (c : Dev nD) : S1x256.Idx → Elt Ideal .f32 := V c (Pipeline.arrRef spec1 2)
abbrev arrSC1 (c : Dev nD) : S1x256.Idx → Elt Ideal .f32 := V c (Pipeline.arrRef spec1 3)
abbrev arrSH1 (c : Dev nD) : S1x256.Idx → Elt Ideal .f32 := V c (Pipeline.arrRef spec1 4)

/-! ## The printed index maps, decided once over the grid -/

theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-! ## The input blocks as entries of the whole arrays -/

/-- The input's block at point `t` is rows 1344·t … 1344·t + 1343 of the flattened input. -/
theorem iblk1_0_apply (c : Dev nD) (t : Fin cfg1.N) (y : S1344x128.Idx) (k : S10752x128.Idx)
    (hk0 : (k 0).val = 1344 * t.val + (y 0).val) (hk1 : (k 1).val = (y 1).val) :
    (iblk1 V c 0 t : Vec Ideal S1344x128 .f32) y = arrX1 V c k := by
  have e0 : win1_0.index t (0 : Fin 2) = t.val := (idx_facts1 t).1
  have e1 : win1_0.index t (1 : Fin 2) = 0 := (idx_facts1 t).2.1
  unfold iblk1
  rw [View.read_apply]
  show V c (Pipeline.arrRef spec1 0) _ = V c (Pipeline.arrRef spec1 0) _
  congr 1
  funext a
  apply Fin.ext
  match a with
  | ⟨0, _⟩ => show win1_0.index t 0 * 1344 + 1 * (y 0).val = (k 0).val; rw [e0, hk0]; omega
  | ⟨1, _⟩ => show win1_0.index t 1 * 128 + 1 * (y 1).val = (k 1).val; rw [e1, hk1]; omega

/-- The weight matrix and the three rows are read whole at every point: their block index is (0, 0). -/
theorem iblk1_1_apply (c : Dev nD) (t : Fin cfg1.N) (y : S128x256.Idx) :
    (iblk1 V c 1 t : Vec Ideal S128x256 .f32) y = arrW1 V c y := by
  have e0 : win1_1.index t (0 : Fin 2) = 0 := (idx_facts1 t).2.2.1
  have e1 : win1_1.index t (1 : Fin 2) = 0 := (idx_facts1 t).2.2.2.1
  unfold iblk1
  rw [View.read_apply]
  show V c (Pipeline.arrRef spec1 1) _ = V c (Pipeline.arrRef spec1 1) _
  congr 1
  funext a
  apply Fin.ext
  match a with
  | ⟨0, _⟩ => show win1_1.index t 0 * 128 + 1 * (y 0).val = (y 0).val; rw [e0]; omega
  | ⟨1, _⟩ => show win1_1.index t 1 * 256 + 1 * (y 1).val = (y 1).val; rw [e1]; omega

theorem iblk1_2_apply (c : Dev nD) (t : Fin cfg1.N) (y : S1x256.Idx) :
    (iblk1 V c 2 t : Vec Ideal S1x256 .f32) y = arrB1 V c y := by
  have e0 : win1_2.index t (0 : Fin 2) = 0 := (idx_facts1 t).2.2.2.2.1
  have e1 : win1_2.index t (1 : Fin 2) = 0 := (idx_facts1 t).2.2.2.2.2.1
  unfold iblk1
  rw [View.read_apply]
  show V c (Pipeline.arrRef spec1 2) _ = V c (Pipeline.arrRef spec1 2) _
  congr 1
  funext a
  apply Fin.ext
  match a with
  | ⟨0, _⟩ => show win1_2.index t 0 * 1 + 1 * (y 0).val = (y 0).val; rw [e0]; omega
  | ⟨1, _⟩ => show win1_2.index t 1 * 256 + 1 * (y 1).val = (y 1).val; rw [e1]; omega

theorem iblk1_3_apply (c : Dev nD) (t : Fin cfg1.N) (y : S1x256.Idx) :
    (iblk1 V c 3 t : Vec Ideal S1x256 .f32) y = arrSC1 V c y := by
  have e0 : win1_3.index t (0 : Fin 2) = 0 := (idx_facts1 t).2.2.2.2.2.2.1
  have e1 : win1_3.index t (1 : Fin 2) = 0 := (idx_facts1 t).2.2.2.2.2.2.2.1
  unfold iblk1
  rw [View.read_apply]
  show V c (Pipeline.arrRef spec1 3) _ = V c (Pipeline.arrRef spec1 3) _
  congr 1
  funext a
  apply Fin.ext
  match a with
  | ⟨0, _⟩ => show win1_3.index t 0 * 1 + 1 * (y 0).val = (y 0).val; rw [e0]; omega
  | ⟨1, _⟩ => show win1_3.index t 1 * 256 + 1 * (y 1).val = (y 1).val; rw [e1]; omega

theorem iblk1_4_apply (c : Dev nD) (t : Fin cfg1.N) (y : S1x256.Idx) :
    (iblk1 V c 4 t : Vec Ideal S1x256 .f32) y = arrSH1 V c y := by
  have e0 : win1_4.index t (0 : Fin 2) = 0 := (idx_facts1 t).2.2.2.2.2.2.2.2.1
  have e1 : win1_4.index t (1 : Fin 2) = 0 := (idx_facts1 t).2.2.2.2.2.2.2.2.2.1
  unfold iblk1
  rw [View.read_apply]
  show V c (Pipeline.arrRef spec1 4) _ = V c (Pipeline.arrRef spec1 4) _
  congr 1
  funext a
  apply Fin.ext
  match a with
  | ⟨0, _⟩ => show win1_4.index t 0 * 1 + 1 * (y 0).val = (y 0).val; rw [e0]; omega
  | ⟨1, _⟩ => show win1_4.index t 1 * 256 + 1 * (y 1).val = (y 1).val; rw [e1]; omega

/-! ## A row block of the payload is the block of the whole function -/

/-- The formula at an entry reads the block only along its row, and the other four arrays where they are. -/
theorem g1_of_block (X : S10752x128.Idx → Elt Ideal .f32) (W : S128x256.Idx → Elt Ideal .f32) (B SC SH : S1x256.Idx → Elt Ideal .f32)
    (x : Vec Ideal S1344x128 .f32) (w : Vec Ideal S128x256 .f32) (b sc sh : Vec Ideal S1x256 .f32)
    (p : Fin 1344) (q : Fin 256) (r : Fin 10752)
    (hx : ∀ k : Fin 128, x (ix2 p k) = X (ix2 r k)) (hw : ∀ k : Fin 128, w (ix2 k q) = W (ix2 k q))
    (hb : b (ix2 0 q) = B (ix2 0 q)) (hsc : sc (ix2 0 q) = SC (ix2 0 q)) (hsh : sh (ix2 0 q) = SH (ix2 0 q)) :
    max (((∑ c : Fin 128, x (ix2 p c) * w (ix2 c q)) + b (ix2 0 q)) * sc (ix2 0 q) + sh (ix2 0 q)) 0 = g1 X W B SC SH r q := by
  unfold g1
  rw [hb, hsc, hsh, Finset.sum_congr rfl (fun k _ => by rw [hx k, hw k])]

/-- Entry `j` of point `t`'s payload is entry (1344·t + j₀, j₁) of the whole function. -/
theorem block_entry1 (hP : PayAt1) (c : Dev nD) (t : Fin cfg1.N) (j : S1344x256.Idx) (i : S10752x256.Idx)
    (hi0 : (i 0).val = 1344 * t.val + (j 0).val) (hi1 : (i 1).val = (j 1).val) :
    k1_pay1 (F := Ideal) (iblk1 V c 0 t) (iblk1 V c 1 t) (iblk1 V c 2 t) (iblk1 V c 3 t) (iblk1 V c 4 t) j = G1 (arrX1 V c) (arrW1 V c) (arrB1 V c) (arrSC1 V c) (arrSH1 V c) i := by
  obtain ⟨p, q, rfl⟩ : ∃ (p : Fin 1344) (q : Fin 256), j = ix2 p q := ⟨j 0, j 1, eq_ix2 j⟩
  obtain ⟨r, f, rfl⟩ : ∃ (r : Fin 10752) (f : Fin 256), i = ix2 r f := ⟨i 0, i 1, eq_ix2 i⟩
  have hf : f = q := Fin.ext hi1
  subst hf
  refine (hP (iblk1 V c 0 t) (iblk1 V c 1 t) (iblk1 V c 2 t) (iblk1 V c 3 t) (iblk1 V c 4 t) p f).trans ?_
  show _ = g1 (arrX1 V c) (arrW1 V c) (arrB1 V c) (arrSC1 V c) (arrSH1 V c) r f
  exact g1_of_block (arrX1 V c) (arrW1 V c) (arrB1 V c) (arrSC1 V c) (arrSH1 V c) (iblk1 V c 0 t) (iblk1 V c 1 t) (iblk1 V c 2 t) (iblk1 V c 3 t) (iblk1 V c 4 t) p f r
    (fun k => iblk1_0_apply V c t (ix2 p k) (ix2 r k) hi0 rfl) (fun k => iblk1_1_apply V c t (ix2 k f))
    (iblk1_2_apply V c t (ix2 0 f)) (iblk1_3_apply V c t (ix2 0 f)) (iblk1_4_apply V c t (ix2 0 f))

/-- What point `t` writes back is block `t` of the whole function of the arrays as the region finds them. -/
theorem flushed1_5_eq (hP : PayAt1) (c : Dev nD) (t : Fin cfg1.N) :
    (dat1 (F := Ideal) V c).flushed 5 t = ((cfg1.win 5).blk t).view.read (Elt Ideal) (G1 (arrX1 V c) (arrW1 V c) (arrB1 V c) (arrSC1 V c) (arrSH1 V c)) := by
  have e0 : win1_5.index t (0 : Fin 2) = t.val := (idx_facts1 t).2.2.2.2.2.2.2.2.2.2.1
  have e1 : win1_5.index t (1 : Fin 2) = 0 := (idx_facts1 t).2.2.2.2.2.2.2.2.2.2.2
  show (cfg1.win 5).cut (grid1.coords t) ((dat1 V c).after 5 t) = _
  rw [after1_5, out1_5_eq (iblk1 V c 0 t) (iblk1 V c 1 t) (iblk1 V c 2 t) (iblk1 V c 3 t) (iblk1 V c 4 t)]
  funext j
  show k1_pay1 (F := Ideal) (iblk1 V c 0 t) (iblk1 V c 1 t) (iblk1 V c 2 t) (iblk1 V c 3 t) (iblk1 V c 4 t) j = G1 (arrX1 V c) (arrW1 V c) (arrB1 V c) (arrSC1 V c) (arrSH1 V c) (((cfg1.win 5).blk t).view.emb j)
  refine block_entry1 V hP c t j _ ?_ ?_
  · show win1_5.index t 0 * 1344 + 1 * (j 0).val = 1344 * t.val + (j 0).val; rw [e0]; omega
  · show win1_5.index t 1 * 256 + 1 * (j 1).val = (j 1).val; rw [e1]; omega

/-! ## The row blocks tile the output -/

/-- An index of the output array is in point `t`'s block iff each coordinate is in the block's range on its axis. -/
theorem mem_blk1_5 (t : Fin cfg1.N) (i : S10752x256.Idx) :
    i ∈ ((cfg1.win 5).blk t).view.set ↔ ∀ a : Fin 2, win1_5.index t a * S1344x256.size a ≤ (i a).val ∧ (i a).val < win1_5.index t a * S1344x256.size a + S1344x256.size a := by
  show i ∈ ((View.whole main_v21).slice (win1_5.rect t)).set ↔ _
  rw [View.set_slice_whole, Rect.mem_set_unit]
  exact Iff.rfl

/-- Row `r` lies in the block of point `r / 1344`, and every point writes its block back. -/
theorem cover1_5_arr (i : S10752x256.Idx) :
    ∃ t : Fin cfg1.N, (cfg1.win 5).flush t = true ∧ i ∈ ((cfg1.win 5).blk t).view.set := by
  have hN : cfg1.N = 8 := N_1
  have hi0 : (i 0).val < 10752 := (i 0).isLt
  have hi1 : (i 1).val < 256 := (i 1).isLt
  have ht : (i 0).val / 1344 < cfg1.N := by rw [hN]; omega
  refine ⟨⟨(i 0).val / 1344, ht⟩, flush1_5 _, ?_⟩
  have e0 : win1_5.index ⟨(i 0).val / 1344, ht⟩ (0 : Fin 2) = (i 0).val / 1344 := (idx_facts1 ⟨(i 0).val / 1344, ht⟩).2.2.2.2.2.2.2.2.2.2.1
  have e1 : win1_5.index ⟨(i 0).val / 1344, ht⟩ (1 : Fin 2) = 0 := (idx_facts1 ⟨(i 0).val / 1344, ht⟩).2.2.2.2.2.2.2.2.2.2.2
  rw [mem_blk1_5]
  intro a
  match a with
  | ⟨0, _⟩ => show win1_5.index ⟨(i 0).val / 1344, ht⟩ 0 * 1344 ≤ (i 0).val ∧ (i 0).val < win1_5.index ⟨(i 0).val / 1344, ht⟩ 0 * 1344 + 1344; rw [e0]; omega
  | ⟨1, _⟩ => show win1_5.index ⟨(i 0).val / 1344, ht⟩ 1 * 256 ≤ (i 1).val ∧ (i 1).val < win1_5.index ⟨(i 0).val / 1344, ht⟩ 1 * 256 + 256; rw [e1]; omega

/-! ## The array after the region -/

/-- The output array after the region's last write-back is the whole function of the five arrays. -/
theorem final1_5_arr (hP : PayAt1) (c : Dev nD) :
    (dat1 (F := Ideal) V c).arrAt 5 cfg1.N = G1 (arrX1 V c) (arrW1 V c) (arrB1 V c) (arrSC1 V c) (arrSH1 V c) :=
  (dat1 (F := Ideal) V c).arrAt_eq_of_cover 5 (G1 (arrX1 V c) (arrW1 V c) (arrB1 V c) (arrSC1 V c) (arrSH1 V c)) (fun t _ => flushed1_5_eq V hP c t) cover1_5_arr

/-- Entry (r, f) of the output array after the region. -/
theorem final1_5_of (hP : PayAt1) (c : Dev nD) (r : Fin 10752) (f : Fin 256) :
    ((dat1 (F := Ideal) V c).arrAt 5 cfg1.N : S10752x256.Idx → Elt Ideal .f32) (ix2 r f)
      = max (((∑ k : Fin 128, arrX1 V c (ix2 r k) * arrW1 V c (ix2 k f)) + arrB1 V c (ix2 0 f)) * arrSC1 V c (ix2 0 f) + arrSH1 V c (ix2 0 f)) 0 := by
  rw [final1_5_arr V hP c]; rfl

end Cert.KernelIdeal.Hand

end
-- ==== Proof.KI.Payloads.lean ====
/-
  The two kernel bodies' stored values, read entry by entry over the extended reals.

  The first body forms Y = x·w + b for its block of 1344 rows (a matrix product over 128 channels, the bias row repeated
  over the rows), adds the block's column sums of Y to one accumulator row and those of Y·Y to another; the rows it
  stores at the first grid point are zero. The second body forms the same Y and stores max(Y·scale + shift, 0), the scale
  and shift rows repeated over the rows. A change of float format is the identity here, and the float zero is the real 0.
-/
import proofs.«102013_j71923522339050_1_alg».proof.Proof.Gen.KernelIdeal.Skeleton
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.Hand

open Idealize.ShloMosaic Idealize.ShloMosaic.ValueIdx
open Cert.KernelIdeal Cert.KernelIdeal.Gen
open scoped BigOperators

/-- The matrix product into the zero accumulator, at row p and column q: the sum over the 128 channels. -/
theorem matmul_entry {φ₁ φ₂ : FTy} (A : FVec Ideal S1344x128 φ₁) (B : FVec Ideal S128x256 φ₂) (p : Fin 1344) (q : Fin 256) :
    matmul dot_S1344x128_S128x256_S1344x256_1_0_0_1_n_n none A B (constant (F := Ideal) S1344x256 .f32 0x00000000#32) (ix2 p q)
      = ∑ c : Fin 128, A (ix2 p c) * B (ix2 c q) := by
  show FloatOps.matmul dot_S1344x128_S128x256_S1344x256_1_0_0_1_n_n none A B (constant S1344x256 .f32 0x00000000#32) (ix2 p q) = _
  rw [Ideal.matmul_constant_zero_apply,
    ← Equiv.sum_comp (contrEquiv1 dot_S1344x128_S128x256_S1344x256_1_0_0_1_n_n 128 rfl rfl).symm]
  refine Finset.sum_congr rfl fun c _ => ?_
  have c2 := contrEquiv1_symm_val dot_S1344x128_S128x256_S1344x256_1_0_0_1_n_n 128 rfl rfl c
  have l2 : dot_S1344x128_S128x256_S1344x256_1_0_0_1_n_n.lhsIdx (ix2 p q)
      ((contrEquiv1 dot_S1344x128_S128x256_S1344x256_1_0_0_1_n_n 128 rfl rfl).symm c) = ix2 p c := by
    funext ax; apply Fin.ext
    match ax with
    | ⟨0, _⟩ => rfl
    | ⟨1, _⟩ => exact (DotDims.lhsIdx_val_of_single _ rfl _ _).trans c2
  have r2 : dot_S1344x128_S128x256_S1344x256_1_0_0_1_n_n.rhsIdx (ix2 p q)
      ((contrEquiv1 dot_S1344x128_S128x256_S1344x256_1_0_0_1_n_n 128 rfl rfl).symm c) = ix2 c q := by
    funext ax; apply Fin.ext
    match ax with
    | ⟨0, _⟩ => exact (DotDims.rhsIdx_val_of_single _ rfl _ _).trans c2
    | ⟨1, _⟩ => rfl
  rw [l2, r2]

/-- Y at row p and column q of a block. -/
theorem pay3_apply (x : Vec Ideal S1344x128 .f32) (w : Vec Ideal S128x256 .f32) (b : Vec Ideal S1x256 .f32)
    (p : Fin 1344) (q : Fin 256) :
    k0_pay3 (F := Ideal) x w b (ix2 p q) = (∑ c : Fin 128, x (ix2 p c) * w (ix2 c q)) + b (ix2 0 q) := by
  show matmul dot_S1344x128_S128x256_S1344x256_1_0_0_1_n_n none
        (truncf .bf16 (shapeCast S1344x128 x shapeCasts_S1344x128_S1344x128) bitsLt_bf16_f32) (truncf .bf16 w bitsLt_bf16_f32)
        (constant (F := Ideal) S1344x256 .f32 0x00000000#32) (ix2 p q)
      + broadcastTo S1344x256 (shapeCast S1x256 b shapeCasts_S1x256_S1x256) broadcasts_S1x256_S1344x256 (ix2 p q) = _
  rw [matmul_entry, broadcastTo_1b_ab_apply, shapeCast_self, shapeCast_self]
  rfl

/-- The sum down the 1344 rows of a block, at column q. -/
theorem laneSum_apply (src : FVec Ideal S1344x256 .f32) (hφ : FKind.Formats .f32)
    (hacc : (0x00000000#32 : BitVec 32) = FKind.add.neutral .f32 hφ) (q : Fin 256) :
    multiReduction (F := Ideal) .add [0] S256 src 0x00000000#32 reduces_S1344x256_S256 hφ hacc (ix1 q)
      = ∑ p : Fin 1344, src (ix2 p q) := by
  refine (Ideal.multiReduction_add_single src 0x00000000#32 reduces_S1344x256_S256 hφ hacc (ix1 q)).trans ?_
  refine Finset.sum_congr rfl fun p _ => congrArg src ?_
  funext ax; apply Fin.ext
  match ax with
  | ⟨0, _⟩ => rfl
  | ⟨1, _⟩ => rfl

/-- The first accumulator row after a block: what it held plus the block's column sum of Y. -/
theorem pay4_apply (x : Vec Ideal S1344x128 .f32) (w : Vec Ideal S128x256 .f32) (b : Vec Ideal S1x256 .f32)
    (acc : Vec Ideal S1x256 .f32) (q : Fin 256) :
    k0_pay4 (F := Ideal) x w b acc (ix2 0 q)
      = acc (ix2 0 q) + ∑ p : Fin 1344, k0_pay3 (F := Ideal) x w b (ix2 p q) := by
  show shapeCast S1x256 (addf acc (shapeCast S1x256
        (multiReduction (F := Ideal) .add [0] S256 (k0_pay3 (F := Ideal) x w b) 0x00000000#32 reduces_S1344x256_S256 (.inl rfl) rfl)
        shapeCasts_S256_S1x256)) shapeCasts_S1x256_S1x256 (ix2 0 q) = _
  rw [shapeCast_self]
  show acc (ix2 0 q) + shapeCast S1x256
        (multiReduction (F := Ideal) .add [0] S256 (k0_pay3 (F := Ideal) x w b) 0x00000000#32 reduces_S1344x256_S256 (.inl rfl) rfl)
        shapeCasts_S256_S1x256 (ix2 (0 : Fin 1) q) = _
  refine congrArg (acc (ix2 0 q) + ·) ?_
  exact (shapeCast_a_1a_apply _ _ 0 q).trans (laneSum_apply _ _ _ q)

/-- The second accumulator row after a block: what it held plus the block's column sum of Y·Y. -/
theorem pay5_apply (x : Vec Ideal S1344x128 .f32) (w : Vec Ideal S128x256 .f32) (b : Vec Ideal S1x256 .f32)
    (acc : Vec Ideal S1x256 .f32) (q : Fin 256) :
    k0_pay5 (F := Ideal) x w b acc (ix2 0 q)
      = acc (ix2 0 q) + ∑ p : Fin 1344, k0_pay3 (F := Ideal) x w b (ix2 p q) * k0_pay3 (F := Ideal) x w b (ix2 p q) := by
  show shapeCast S1x256 (addf acc (shapeCast S1x256
        (multiReduction (F := Ideal) .add [0] S256 (mulf (k0_pay3 (F := Ideal) x w b) (k0_pay3 (F := Ideal) x w b)) 0x00000000#32
          reduces_S1344x256_S256 (.inl rfl) rfl)
        shapeCasts_S256_S1x256)) shapeCasts_S1x256_S1x256 (ix2 0 q) = _
  rw [shapeCast_self]
  show acc (ix2 0 q) + shapeCast S1x256
        (multiReduction (F := Ideal) .add [0] S256 (mulf (k0_pay3 (F := Ideal) x w b) (k0_pay3 (F := Ideal) x w b)) 0x00000000#32
          reduces_S1344x256_S256 (.inl rfl) rfl)
        shapeCasts_S256_S1x256 (ix2 (0 : Fin 1) q) = _
  refine congrArg (acc (ix2 0 q) + ·) ?_
  exact (shapeCast_a_1a_apply _ _ 0 q).trans (laneSum_apply _ _ _ q)

/-- The rows stored at the first grid point are zero. -/
theorem pay1_apply (q : Fin 256) : k0_pay1 (F := Ideal) (ix2 0 q) = 0 := by
  show shapeCast S1x256 (broadcast S1x256 (Scalar.ofBits (F := Ideal) .f32 0x00000000#32)) shapeCasts_S1x256_S1x256 (ix2 0 q) = 0
  rw [shapeCast_self]
  exact Ideal.ofBits_zero_f32

theorem pay2_apply (q : Fin 256) : k0_pay2 (F := Ideal) (ix2 0 q) = 0 := by
  show shapeCast S1x256 (broadcast S1x256 (Scalar.ofBits (F := Ideal) .f32 0x00000000#32)) shapeCasts_S1x256_S1x256 (ix2 0 q) = 0
  rw [shapeCast_self]
  exact Ideal.ofBits_zero_f32

/-- The second body's stored value at row p and column q: max(Y·scale + shift, 0). -/
theorem k1_pay1_apply (x : Vec Ideal S1344x128 .f32) (w : Vec Ideal S128x256 .f32) (b : Vec Ideal S1x256 .f32)
    (sc sh : Vec Ideal S1x256 .f32) (p : Fin 1344) (q : Fin 256) :
    k1_pay1 (F := Ideal) x w b sc sh (ix2 p q)
      = max (((∑ c : Fin 128, x (ix2 p c) * w (ix2 c q)) + b (ix2 0 q)) * sc (ix2 0 q) + sh (ix2 0 q)) 0 := by
  show max
      ((matmul dot_S1344x128_S128x256_S1344x256_1_0_0_1_n_n none
            (truncf .bf16 (shapeCast S1344x128 x shapeCasts_S1344x128_S1344x128) bitsLt_bf16_f32) (truncf .bf16 w bitsLt_bf16_f32)
            (constant (F := Ideal) S1344x256 .f32 0x00000000#32) (ix2 p q)
          + broadcastTo S1344x256 (shapeCast S1x256 b shapeCasts_S1x256_S1x256) broadcasts_S1x256_S1344x256 (ix2 p q))
        * broadcastTo S1344x256 (shapeCast S1x256 sc shapeCasts_S1x256_S1x256) broadcasts_S1x256_S1344x256 (ix2 p q)
        + broadcastTo S1344x256 (shapeCast S1x256 sh shapeCasts_S1x256_S1x256) broadcasts_S1x256_S1344x256 (ix2 p q))
      (Ideal.ofBits .f32 0x00000000#32) = _
  rw [matmul_entry, broadcastTo_1b_ab_apply, broadcastTo_1b_ab_apply, broadcastTo_1b_ab_apply, shapeCast_self, shapeCast_self,
    shapeCast_self, shapeCast_self, Ideal.ofBits_zero_f32]
  rfl

end Cert.KernelIdeal.Hand

end
-- ==== Proof.KI.Value1Pay.lean ====
/- REGION 1's value with the payload's entry formula filled in: entry (r, f) of the output array after the second
   pallas_call is max (((Σ k, x (r, k) · W (k, f)) + b f) · scale f + shift f) 0 of the arrays the region finds. -/
import proofs.«102013_j71923522339050_1_alg».proof.Proof.KI.Value1
import proofs.«102013_j71923522339050_1_alg».proof.Proof.KI.Payloads

noncomputable section

namespace Cert.KernelIdeal.Hand

open Cert.KernelIdeal Cert.KernelIdeal.Gen
open Idealize.ShloMosaic Idealize.ShloMosaic.TcCoe Idealize.SL.Sem
open Idealize.ShloMosaic.ValueIdx
open scoped BigOperators

variable (V : (c : Dev nD) → (b : Ref sig .tc) → Buf (Elt Ideal) ((c : Thread nD τ).loc b))

/-- Entry (r, f) of the output array after the region. -/
theorem final1_5 (c : Dev nD) (r : Fin 10752) (f : Fin 256) :
    ((dat1 (F := Ideal) V c).arrAt 5 cfg1.N : S10752x256.Idx → Elt Ideal .f32) (ix2 r f)
      = max (((∑ k : Fin 128, arrX1 V c (ix2 r k) * arrW1 V c (ix2 k f)) + arrB1 V c (ix2 0 f)) * arrSC1 V c (ix2 0 f) + arrSH1 V c (ix2 0 f)) 0 :=
  final1_5_of V k1_pay1_apply c r f

end Cert.KernelIdeal.Hand

end
-- ==== Proof.KI.Value0Pieces.lean ====
/-
  The statistics kernel, part 5: what each case's run leaves, read back as the body's arithmetic.

  At the first point the two scratch rows are zeroed and this point's column sums are added: they end at
  0 + (the block's column sums of y) and 0 + (the block's column sums of y·y).  At every later point the block's column
  sums are added to what the point before left.  At the last point the two result rows receive a copy of the two
  updated scratch rows.  Each is the payload of the one store that covers the row, its loads reading whole buffers.
-/
import proofs.«102013_j71923522339050_1_alg».proof.Proof.KI.R0Cases
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The offsets of every load and store of the body are zero. -/
theorem hz0 : (![0, 0] : Fin 2 → Nat) = fun _ => 0 := funext fun a => by fin_cases a <;> rfl

section Pieces
variable (c : Dev nD) (i : grid0.Coords) (arg1 : Memref sig .tc .vmem S1344x128 .f32) (harg1 : arg1.IsWhole) (arg2 : Memref sig .tc .vmem S128x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole)
variable (x0 : Vec F S1344x128 .f32) (x1 : Vec F S128x256 .f32) (x2 : Vec F S1x256 .f32)

/-- First point: the running sums end at the zero row plus this block's column sums. -/
theorem sout0_A_0_eq (hc0 : cond0_0 i) (hc1 : ¬cond0_1 i) :
    sout0_A_0 c i arg1 harg1 arg2 harg2 arg3 harg3 arg4 harg4 arg5 harg5 arg6 harg6 arg7 harg7 x0 x1 x2 hc0 hc1 = k0_pay4 x0 x1 x2 k0_pay1 := by
  unfold sout0_A_0
  rw [View.read_writes_eq_canon _ _ _ (scover0_A_0 c i arg1 harg1 arg2 harg2 arg3 harg3 arg4 harg4 arg5 harg5 arg6 harg6 arg7 harg7 x0 x1 x2 hc0 hc1)]
  unfold kernelRun0_A
  dsimp only
  sl_unfold_words
  rw [View.canon_cons_unit_zero (S := S1x256) hz0, View.readCov_unit_zero (S := S1x256) _ hz0]
  simp only [View.readAt_eq_ld, harg1.read_unread, harg2.read_unread, harg3.read_unread,
    View.ld_unit_zero (S := S1344x128) hz0, View.ld_unit_zero (S := S128x256) hz0, View.ld_unit_zero (S := S1x256) hz0]

/-- First point: the running sums of squares end at the zero row plus this block's column sums of squares. -/
theorem sout0_A_1_eq (hc0 : cond0_0 i) (hc1 : ¬cond0_1 i) :
    sout0_A_1 c i arg1 harg1 arg2 harg2 arg3 harg3 arg4 harg4 arg5 harg5 arg6 harg6 arg7 harg7 x0 x1 x2 hc0 hc1 = k0_pay5 x0 x1 x2 k0_pay2 := by
  unfold sout0_A_1
  rw [View.read_writes_eq_canon _ _ _ (scover0_A_1 c i arg1 harg1 arg2 harg2 arg3 harg3 arg4 harg4 arg5 harg5 arg6 harg6 arg7 harg7 x0 x1 x2 hc0 hc1)]
  unfold kernelRun0_A
  dsimp only
  sl_unfold_words
  rw [View.canon_cons_unit_zero (S := S1x256) hz0, View.readCov_unit_zero (S := S1x256) _ hz0]
  simp only [View.readAt_eq_ld, harg1.read_unread, harg2.read_unread, harg3.read_unread,
    View.ld_unit_zero (S := S1344x128) hz0, View.ld_unit_zero (S := S128x256) hz0, View.ld_unit_zero (S := S1x256) hz0]

variable (xs0 xs1 : Vec F S1x256 .f32)

/-- Middle point: the running sums end at what they held plus this block's column sums. -/
theorem sout0_B_0_eq (hc0 : ¬cond0_0 i) (hc1 : ¬cond0_1 i) :
    sout0_B_0 c i arg1 harg1 arg2 harg2 arg3 harg3 arg4 harg4 arg5 harg5 arg6 harg6 arg7 harg7 x0 x1 x2 xs0 xs1 hc0 hc1 = k0_pay4 x0 x1 x2 xs0 := by
  unfold sout0_B_0
  rw [View.read_writes_eq_canon _ _ _ (scover0_B_0 c i arg1 harg1 arg2 harg2 arg3 harg3 arg4 harg4 arg5 harg5 arg6 harg6 arg7 harg7 x0 x1 x2 xs0 xs1 hc0 hc1)]
  unfold kernelRun0_B
  dsimp only
  rw [View.canon_unit_zero hz0]
  simp only [View.readAt_eq_ld, harg1.read_unread, harg2.read_unread, harg3.read_unread, harg6.read_unread,
    View.ld_unit_zero (S := S1344x128) hz0, View.ld_unit_zero (S := S128x256) hz0, View.ld_unit_zero (S := S1x256) hz0]

/-- Middle point: the running sums of squares likewise. -/
theorem sout0_B_1_eq (hc0 : ¬cond0_0 i) (hc1 : ¬cond0_1 i) :
    sout0_B_1 c i arg1 harg1 arg2 harg2 arg3 harg3 arg4 harg4 arg5 harg5 arg6 harg6 arg7 harg7 x0 x1 x2 xs0 xs1 hc0 hc1 = k0_pay5 x0 x1 x2 xs1 := by
  unfold sout0_B_1
  rw [View.read_writes_eq_canon _ _ _ (scover0_B_1 c i arg1 harg1 arg2 harg2 arg3 harg3 arg4 harg4 arg5 harg5 arg6 harg6 arg7 harg7 x0 x1 x2 xs0 xs1 hc0 hc1)]
  unfold kernelRun0_B
  dsimp only
  rw [View.canon_unit_zero hz0]
  simp only [View.readAt_eq_ld, harg1.read_unread, harg2.read_unread, harg3.read_unread, harg7.read_unread,
    View.ld_unit_zero (S := S1344x128) hz0, View.ld_unit_zero (S := S128x256) hz0, View.ld_unit_zero (S := S1x256) hz0]

/-- Last point: the running sums end as at a middle point. -/
theorem sout0_C_0_eq (hc0 : ¬cond0_0 i) (hc1 : cond0_1 i) :
    sout0_C_0 c i arg1 harg1 arg2 harg2 arg3 harg3 arg4 harg4 arg5 harg5 arg6 harg6 arg7 harg7 x0 x1 x2 xs0 xs1 hc0 hc1 = k0_pay4 x0 x1 x2 xs0 := by
  unfold sout0_C_0
  rw [View.read_writes_eq_canon _ _ _ (scover0_C_0 c i arg1 harg1 arg2 harg2 arg3 harg3 arg4 harg4 arg5 harg5 arg6 harg6 arg7 harg7 x0 x1 x2 xs0 xs1 hc0 hc1)]
  unfold kernelRun0_C
  dsimp only
  sl_unfold_words
  rw [View.canon_unit_zero hz0]
  simp only [View.readAt_eq_ld, harg1.read_unread, harg2.read_unread, harg3.read_unread, harg6.read_unread,
    View.ld_unit_zero (S := S1344x128) hz0, View.ld_unit_zero (S := S128x256) hz0, View.ld_unit_zero (S := S1x256) hz0]

/-- Last point: the running sums of squares end as at a middle point. -/
theorem sout0_C_1_eq (hc0 : ¬cond0_0 i) (hc1 : cond0_1 i) :
    sout0_C_1 c i arg1 harg1 arg2 harg2 arg3 harg3 arg4 harg4 arg5 harg5 arg6 harg6 arg7 harg7 x0 x1 x2 xs0 xs1 hc0 hc1 = k0_pay5 x0 x1 x2 xs1 := by
  unfold sout0_C_1
  rw [View.read_writes_eq_canon _ _ _ (scover0_C_1 c i arg1 harg1 arg2 harg2 arg3 harg3 arg4 harg4 arg5 harg5 arg6 harg6 arg7 harg7 x0 x1 x2 xs0 xs1 hc0 hc1)]
  unfold kernelRun0_C
  dsimp only
  sl_unfold_words
  rw [View.canon_unit_zero hz0]
  simp only [View.readAt_eq_ld, harg1.read_unread, harg2.read_unread, harg3.read_unread, harg7.read_unread,
    View.ld_unit_zero (S := S1344x128) hz0, View.ld_unit_zero (S := S128x256) hz0, View.ld_unit_zero (S := S1x256) hz0]

/-- Last point: the first result row receives the updated running sums. -/
theorem out0_C_3_eq (hc0 : ¬cond0_0 i) (hc1 : cond0_1 i) :
    out0_C_3 c i arg1 harg1 arg2 harg2 arg3 harg3 arg4 harg4 arg5 harg5 arg6 harg6 arg7 harg7 x0 x1 x2 xs0 xs1 hc0 hc1 = k0_pay4 x0 x1 x2 xs0 := by
  unfold out0_C_3
  rw [View.read_writes_eq_canon _ _ _ (cover0_C_3 c i arg1 harg1 arg2 harg2 arg3 harg3 arg4 harg4 arg5 harg5 arg6 harg6 arg7 harg7 x0 x1 x2 xs0 xs1 hc0 hc1)]
  unfold kernelRun0_C
  dsimp only
  sl_unfold_words
  rw [View.canon_unit_zero hz0, View.readCov_unit_zero (S := S1x256) _ hz0]
  simp only [View.readAt_eq_ld, harg1.read_unread, harg2.read_unread, harg3.read_unread, harg6.read_unread,
    View.ld_unit_zero (S := S1344x128) hz0, View.ld_unit_zero (S := S128x256) hz0, View.ld_unit_zero (S := S1x256) hz0]

/-- Last point: the second result row receives the updated running sums of squares. -/
theorem out0_C_4_eq (hc0 : ¬cond0_0 i) (hc1 : cond0_1 i) :
    out0_C_4 c i arg1 harg1 arg2 harg2 arg3 harg3 arg4 harg4 arg5 harg5 arg6 harg6 arg7 harg7 x0 x1 x2 xs0 xs1 hc0 hc1 = k0_pay5 x0 x1 x2 xs1 := by
  unfold out0_C_4
  rw [View.read_writes_eq_canon _ _ _ (cover0_C_4 c i arg1 harg1 arg2 harg2 arg3 harg3 arg4 harg4 arg5 harg5 arg6 harg6 arg7 harg7 x0 x1 x2 xs0 xs1 hc0 hc1)]
  unfold kernelRun0_C
  dsimp only
  sl_unfold_words
  rw [View.canon_unit_zero hz0, View.readCov_unit_zero (S := S1x256) _ hz0]
  simp only [View.readAt_eq_ld, harg1.read_unread, harg2.read_unread, harg3.read_unread, harg7.read_unread,
    View.ld_unit_zero (S := S1344x128) hz0, View.ld_unit_zero (S := S128x256) hz0, View.ld_unit_zero (S := S1x256) hz0]

end Pieces

end Cert.KernelIdeal.Hand

end
-- ==== Proof.KI.Value0Acc.lean ====
/-
  The statistics kernel, part 6: the recursion over the points, read as the body's arithmetic.

  After the first point the two scratch rows hold 0 + (the first block's column sums) and 0 + (its column sums of
  squares).  After every later point they hold what the point before left plus that point's block's column sums.  After
  the last point the two result rows hold the same two rows.  Stated for any float instance, over the payload terms.
-/
import proofs.«102013_j71923522339050_1_alg».proof.Proof.KI.Region0
import proofs.«102013_j71923522339050_1_alg».proof.Proof.KI.Value0Pieces

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

/-- The point before a point is a point. -/
theorem prev_lt0 (t : Fin cfg0.N) : t.val - 1 < cfg0.N := Nat.lt_of_le_of_lt (Nat.sub_le _ _) t.isLt

/-- After the first point the running sums are the zero row plus the first block's column sums. -/
theorem scratch0_first (c : Dev nD) (t : Fin cfg0.N) (h0 : t.val = 0) :
    (outsAt0 V c t.val t.isLt).2.2.1 = k0_pay4 (iblk0 V c 0 t) (iblk0 V c 1 t) (iblk0 V c 2 t) k0_pay1 := by
  have e1 := congrArg (fun r : Rows F => r.2.2.1) (outsAt0_A V c t h0)
  dsimp only at e1
  exact e1.trans (sout0_A_0_eq c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (iblk0 V c 0 t) (iblk0 V c 1 t) (iblk0 V c 2 t) ((hcond0_0 t).mpr (by rw [h0])) (ncond0_1_of_zero t h0))

/-- After the first point the running sums of squares are the zero row plus the first block's column sums of squares. -/
theorem scratch1_first (c : Dev nD) (t : Fin cfg0.N) (h0 : t.val = 0) :
    (outsAt0 V c t.val t.isLt).2.2.2 = k0_pay5 (iblk0 V c 0 t) (iblk0 V c 1 t) (iblk0 V c 2 t) k0_pay2 := by
  have e1 := congrArg (fun r : Rows F => r.2.2.2) (outsAt0_A V c t h0)
  dsimp only at e1
  exact e1.trans (sout0_A_1_eq c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (iblk0 V c 0 t) (iblk0 V c 1 t) (iblk0 V c 2 t) ((hcond0_0 t).mpr (by rw [h0])) (ncond0_1_of_zero t h0))

/-- After a later point the running sums are those the point before left plus this block's column sums. -/
theorem scratch0_next (c : Dev nD) (t : Fin cfg0.N) (h0 : t.val ≠ 0) :
    (outsAt0 V c t.val t.isLt).2.2.1
      = k0_pay4 (iblk0 V c 0 t) (iblk0 V c 1 t) (iblk0 V c 2 t) (outsAt0 V c (t.val - 1) (prev_lt0 t)).2.2.1 := by
  by_cases h7 : t.val % 8 = 7
  ·
    have e1 := congrArg (fun r : Rows F => r.2.2.1) (outsAt0_C V c t h0 h7)
    dsimp only at e1
    exact e1.trans (sout0_C_0_eq c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (iblk0 V c 0 t) (iblk0 V c 1 t) (iblk0 V c 2 t) (outsAt0 V c (t.val - 1) (prev_lt0 t)).2.2.1 (outsAt0 V c (t.val - 1) (prev_lt0 t)).2.2.2 (ncond0_0_of_pos t h0) ((hcond0_1 t).mpr h7))
  ·
    have e1 := congrArg (fun r : Rows F => r.2.2.1) (outsAt0_B V c t h0 h7)
    dsimp only at e1
    exact e1.trans (sout0_B_0_eq c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (iblk0 V c 0 t) (iblk0 V c 1 t) (iblk0 V c 2 t) (outsAt0 V c (t.val - 1) (prev_lt0 t)).2.2.1 (outsAt0 V c (t.val - 1) (prev_lt0 t)).2.2.2 (ncond0_0_of_pos t h0) (fun h => h7 ((hcond0_1 t).mp h)))

/-- After a later point the running sums of squares likewise. -/
theorem scratch1_next (c : Dev nD) (t : Fin cfg0.N) (h0 : t.val ≠ 0) :
    (outsAt0 V c t.val t.isLt).2.2.2
      = k0_pay5 (iblk0 V c 0 t) (iblk0 V c 1 t) (iblk0 V c 2 t) (outsAt0 V c (t.val - 1) (prev_lt0 t)).2.2.2 := by
  by_cases h7 : t.val % 8 = 7
  ·
    have e1 := congrArg (fun r : Rows F => r.2.2.2) (outsAt0_C V c t h0 h7)
    dsimp only at e1
    exact e1.trans (sout0_C_1_eq c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (iblk0 V c 0 t) (iblk0 V c 1 t) (iblk0 V c 2 t) (outsAt0 V c (t.val - 1) (prev_lt0 t)).2.2.1 (outsAt0 V c (t.val - 1) (prev_lt0 t)).2.2.2 (ncond0_0_of_pos t h0) ((hcond0_1 t).mpr h7))
  ·
    have e1 := congrArg (fun r : Rows F => r.2.2.2) (outsAt0_B V c t h0 h7)
    dsimp only at e1
    exact e1.trans (sout0_B_1_eq c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (iblk0 V c 0 t) (iblk0 V c 1 t) (iblk0 V c 2 t) (outsAt0 V c (t.val - 1) (prev_lt0 t)).2.2.1 (outsAt0 V c (t.val - 1) (prev_lt0 t)).2.2.2 (ncond0_0_of_pos t h0) (fun h => h7 ((hcond0_1 t).mp h)))

/-- After the last point the first result row holds the updated running sums. -/
theorem result0_last (c : Dev nD) (t : Fin cfg0.N) (h0 : t.val ≠ 0) (h7 : t.val % 8 = 7) :
    (outsAt0 V c t.val t.isLt).1
      = k0_pay4 (iblk0 V c 0 t) (iblk0 V c 1 t) (iblk0 V c 2 t) (outsAt0 V c (t.val - 1) (prev_lt0 t)).2.2.1 := by
  have e1 := congrArg (fun r : Rows F => r.1) (outsAt0_C V c t h0 h7)
  dsimp only at e1
  exact e1.trans (out0_C_3_eq c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (iblk0 V c 0 t) (iblk0 V c 1 t) (iblk0 V c 2 t) (outsAt0 V c (t.val - 1) (prev_lt0 t)).2.2.1 (outsAt0 V c (t.val - 1) (prev_lt0 t)).2.2.2 (ncond0_0_of_pos t h0) ((hcond0_1 t).mpr h7))

/-- After the last point the second result row holds the updated running sums of squares. -/
theorem result1_last (c : Dev nD) (t : Fin cfg0.N) (h0 : t.val ≠ 0) (h7 : t.val % 8 = 7) :
    (outsAt0 V c t.val t.isLt).2.1
      = k0_pay5 (iblk0 V c 0 t) (iblk0 V c 1 t) (iblk0 V c 2 t) (outsAt0 V c (t.val - 1) (prev_lt0 t)).2.2.2 := by
  have e1 := congrArg (fun r : Rows F => r.2.1) (outsAt0_C V c t h0 h7)
  dsimp only at e1
  exact e1.trans (out0_C_4_eq c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (iblk0 V c 0 t) (iblk0 V c 1 t) (iblk0 V c 2 t) (outsAt0 V c (t.val - 1) (prev_lt0 t)).2.2.1 (outsAt0 V c (t.val - 1) (prev_lt0 t)).2.2.2 (ncond0_0_of_pos t h0) ((hcond0_1 t).mpr h7))

/-- So after the last point each result row holds what its scratch row holds. -/
theorem result0_last_eq_scratch (c : Dev nD) (t : Fin cfg0.N) (h0 : t.val ≠ 0) (h7 : t.val % 8 = 7) :
    (outsAt0 V c t.val t.isLt).1 = (outsAt0 V c t.val t.isLt).2.2.1 :=
  (result0_last V c t h0 h7).trans (scratch0_next V c t h0).symm
theorem result1_last_eq_scratch (c : Dev nD) (t : Fin cfg0.N) (h0 : t.val ≠ 0) (h7 : t.val % 8 = 7) :
    (outsAt0 V c t.val t.isLt).2.1 = (outsAt0 V c t.val t.isLt).2.2.2 :=
  (result1_last V c t h0 h7).trans (scratch1_next V c t h0).symm

end Cert.KernelIdeal.Hand

end
-- ==== Proof.KI.Value0Final.lean ====
/-
  The statistics kernel, part 7: the two result arrays after the region.

  Each result window is one block, the whole [1, 256] array at block index (0, 0), and is written back once, after the last
  point.  So each result array ends holding the row its staging memory holds after the last point, which is the row its
  scratch row holds then.  Stated for any float instance.
-/
import proofs.«102013_j71923522339050_1_alg».proof.Proof.KI.Value0Acc

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

/-- The first result row after the last point, as contents of its array. -/
def row0_3 (c : Dev nD) : Buf (Elt F) ((c : Thread nD τ).loc main_v4_0) := (outsAt0 V c t0_7.val t0_7.isLt).1
/-- The second result row after the last point, as contents of its array. -/
def row0_4 (c : Dev nD) : Buf (Elt F) ((c : Thread nD τ).loc main_v4_1) := (outsAt0 V c t0_7.val t0_7.isLt).2.1

/-- The one write-back of the first result window, after the last point, writes that row: block (0, 0) of the [1, 256]
    array read through zero offsets is the array. -/
theorem flushed0_3_eq (c : Dev nD) (t : Fin cfg0.N) (hf : (cfg0.win 3).flush t = true) :
    (dat0 V c).flushed 3 t = ((cfg0.win 3).blk t).view.read (Elt F) (row0_3 V c) := by
  have hN : cfg0.N = 8 := N0_eq
  have h7 : t.val = 7 := by have := (flush0_3 t).mp hf; have := t.isLt; omega
  obtain rfl : t = t0_7 := Fin.ext h7
  show (cfg0.win 3).cut (grid0.coords t0_7) ((dat0 V c).after 3 t0_7) = _
  rw [after0_3]
  have hz' : (fun a => win0_3.index t0_7 a * main_v4_0.ty.shape.size a) = fun _ => 0 := funext fun a => by fin_cases a <;> decide
  exact (Memref.read_access_unit_zero (Elt F) main_v4_0 hz' (fun a => by rw [congrFun hz' a]; simp) (row0_3 V c)).symm

/-- The same for the second result window. -/
theorem flushed0_4_eq (c : Dev nD) (t : Fin cfg0.N) (hf : (cfg0.win 4).flush t = true) :
    (dat0 V c).flushed 4 t = ((cfg0.win 4).blk t).view.read (Elt F) (row0_4 V c) := by
  have hN : cfg0.N = 8 := N0_eq
  have h7 : t.val = 7 := by have := (flush0_4 t).mp hf; have := t.isLt; omega
  obtain rfl : t = t0_7 := Fin.ext h7
  show (cfg0.win 4).cut (grid0.coords t0_7) ((dat0 V c).after 4 t0_7) = _
  rw [after0_4]
  have hz' : (fun a => win0_4.index t0_7 a * main_v4_1.ty.shape.size a) = fun _ => 0 := funext fun a => by fin_cases a <;> decide
  exact (Memref.read_access_unit_zero (Elt F) main_v4_1 hz' (fun a => by rw [congrFun hz' a]; simp) (row0_4 V c)).symm

/-- The first result array ends holding that row: the last point's block covers it. -/
theorem final0_3_row (c : Dev nD) : (dat0 V c).arrAt 3 cfg0.N = row0_3 V c :=
  (dat0 V c).arrAt_eq_of_cover 3 (row0_3 V c) (flushed0_3_eq V c) fun i =>
    ⟨t0_7, (flush0_3 t0_7).mpr rfl, by
      show i ∈ ((View.whole main_v4_0).slice (win0_3.rect t0_7)).set
      rw [View.set_slice_whole, Rect.mem_set_unit]
      intro a
      have h0 : (i 0 : Nat) < 1 := (i 0).isLt
      have h1 : (i 1 : Nat) < 256 := (i 1).isLt
      match a with
      | ⟨0, _⟩ => show win0_3.index t0_7 0 * win0_3.size 0 ≤ (i 0 : Nat) ∧ (i 0 : Nat) < win0_3.index t0_7 0 * win0_3.size 0 + win0_3.xsize (grid0.coords t0_7) 0
                  rw [show win0_3.index t0_7 0 * win0_3.size 0 = 0 from by decide +kernel, show win0_3.xsize (grid0.coords t0_7) 0 = 1 from by decide +kernel]; omega
      | ⟨1, _⟩ => show win0_3.index t0_7 1 * win0_3.size 1 ≤ (i 1 : Nat) ∧ (i 1 : Nat) < win0_3.index t0_7 1 * win0_3.size 1 + win0_3.xsize (grid0.coords t0_7) 1
                  rw [show win0_3.index t0_7 1 * win0_3.size 1 = 0 from by decide +kernel, show win0_3.xsize (grid0.coords t0_7) 1 = 256 from by decide +kernel]; omega⟩

/-- The second result array likewise. -/
theorem final0_4_row (c : Dev nD) : (dat0 V c).arrAt 4 cfg0.N = row0_4 V c :=
  (dat0 V c).arrAt_eq_of_cover 4 (row0_4 V c) (flushed0_4_eq V c) fun i =>
    ⟨t0_7, (flush0_4 t0_7).mpr rfl, by
      show i ∈ ((View.whole main_v4_1).slice (win0_4.rect t0_7)).set
      rw [View.set_slice_whole, Rect.mem_set_unit]
      intro a
      have h0 : (i 0 : Nat) < 1 := (i 0).isLt
      have h1 : (i 1 : Nat) < 256 := (i 1).isLt
      match a with
      | ⟨0, _⟩ => show win0_4.index t0_7 0 * win0_4.size 0 ≤ (i 0 : Nat) ∧ (i 0 : Nat) < win0_4.index t0_7 0 * win0_4.size 0 + win0_4.xsize (grid0.coords t0_7) 0
                  rw [show win0_4.index t0_7 0 * win0_4.size 0 = 0 from by decide +kernel, show win0_4.xsize (grid0.coords t0_7) 0 = 1 from by decide +kernel]; omega
      | ⟨1, _⟩ => show win0_4.index t0_7 1 * win0_4.size 1 ≤ (i 1 : Nat) ∧ (i 1 : Nat) < win0_4.index t0_7 1 * win0_4.size 1 + win0_4.xsize (grid0.coords t0_7) 1
                  rw [show win0_4.index t0_7 1 * win0_4.size 1 = 0 from by decide +kernel, show win0_4.xsize (grid0.coords t0_7) 1 = 256 from by decide +kernel]; omega⟩

/-- After the last point each result row holds what its scratch row holds. -/
theorem row0_3_eq_scratch (c : Dev nD) : row0_3 V c = (outsAt0 V c t0_7.val t0_7.isLt).2.2.1 :=
  result0_last_eq_scratch V c t0_7 (by decide) (by decide)
theorem row0_4_eq_scratch (c : Dev nD) : row0_4 V c = (outsAt0 V c t0_7.val t0_7.isLt).2.2.2 :=
  result1_last_eq_scratch V c t0_7 (by decide) (by decide)

end Cert.KernelIdeal.Hand

end
-- ==== Proof.KI.Value0.lean ====
/-
  The statistics kernel, part 8: the running sums over the extended reals.

  Write S(t, q) for the sum over the 1344 rows p of point t's block of y(p, q), and Q(t, q) for the sum of y(p, q)².  After
  point n the first scratch row holds, in column q, S(0, q) + … + S(n, q), and the second Q(0, q) + … + Q(n, q): the
  first point adds its block's sums to the zero row, every later point adds its block's sums to what the point before
  left.  The two result arrays end holding the totals over all eight points.
-/
import proofs.«102013_j71923522339050_1_alg».proof.Proof.KI.Value0Final
import proofs.«102013_j71923522339050_1_alg».proof.Proof.KI.Payloads
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open scoped BigOperators

variable (V : (c : Dev nD) → (b : Ref sig .tc) → Buf (Elt Ideal) ((c : Thread nD τ).loc b))

/-- S(t, q): the column sums of y over point t's block. -/
def colBlock0 (c : Dev nD) (t : ℕ) (ht : t < cfg0.N) (q : Fin 256) : EReal :=
  ∑ p : Fin 1344, k0_pay3 (F := Ideal) (iblk0 V c 0 ⟨t, ht⟩) (iblk0 V c 1 ⟨t, ht⟩) (iblk0 V c 2 ⟨t, ht⟩) (ix2 p q)
/-- Q(t, q): the column sums of y² over point t's block. -/
def colBlockSq0 (c : Dev nD) (t : ℕ) (ht : t < cfg0.N) (q : Fin 256) : EReal :=
  ∑ p : Fin 1344, k0_pay3 (F := Ideal) (iblk0 V c 0 ⟨t, ht⟩) (iblk0 V c 1 ⟨t, ht⟩) (iblk0 V c 2 ⟨t, ht⟩) (ix2 p q)
    * k0_pay3 (F := Ideal) (iblk0 V c 0 ⟨t, ht⟩) (iblk0 V c 1 ⟨t, ht⟩) (iblk0 V c 2 ⟨t, ht⟩) (ix2 p q)

/-- After point n the first scratch row holds the sums S(0, q) + … + S(n, q). -/
theorem scratch0_sum (c : Dev nD) : ∀ (n : ℕ) (hn : n < cfg0.N) (q : Fin 256),
    (outsAt0 V c n hn).2.2.1 (ix2 (0 : Fin 1) q)
      = ∑ t : Fin (n + 1), colBlock0 V c t.val (Nat.lt_of_lt_of_le t.isLt hn) q
  | 0, hn, q => by
    refine (congrFun (scratch0_first V c ⟨0, hn⟩ rfl) (ix2 (0 : Fin 1) q)).trans ?_
    refine (pay4_apply (iblk0 V c 0 ⟨0, hn⟩) (iblk0 V c 1 ⟨0, hn⟩) (iblk0 V c 2 ⟨0, hn⟩) (k0_pay1 (F := Ideal)) q).trans ?_
    refine Eq.trans ?_ (Fin.sum_univ_castSucc _).symm
    rw [Fin.sum_univ_zero]
    exact congrArg₂ (· + ·) (pay1_apply q) rfl
  | n + 1, hn, q => by
    refine (congrFun (scratch0_next V c ⟨n + 1, hn⟩ (Nat.succ_ne_zero n)) (ix2 (0 : Fin 1) q)).trans ?_
    refine (pay4_apply (iblk0 V c 0 ⟨n + 1, hn⟩) (iblk0 V c 1 ⟨n + 1, hn⟩) (iblk0 V c 2 ⟨n + 1, hn⟩)
      (outsAt0 V c ((⟨n + 1, hn⟩ : Fin cfg0.N).val - 1) (prev_lt0 ⟨n + 1, hn⟩)).2.2.1 q).trans ?_
    refine Eq.trans ?_ (Fin.sum_univ_castSucc _).symm
    exact congrArg₂ (· + ·) (scratch0_sum c n (Nat.lt_of_succ_lt hn) q) rfl

/-- After point n the second scratch row holds the sums Q(0, q) + … + Q(n, q). -/
theorem scratch1_sum (c : Dev nD) : ∀ (n : ℕ) (hn : n < cfg0.N) (q : Fin 256),
    (outsAt0 V c n hn).2.2.2 (ix2 (0 : Fin 1) q)
      = ∑ t : Fin (n + 1), colBlockSq0 V c t.val (Nat.lt_of_lt_of_le t.isLt hn) q
  | 0, hn, q => by
    refine (congrFun (scratch1_first V c ⟨0, hn⟩ rfl) (ix2 (0 : Fin 1) q)).trans ?_
    refine (pay5_apply (iblk0 V c 0 ⟨0, hn⟩) (iblk0 V c 1 ⟨0, hn⟩) (iblk0 V c 2 ⟨0, hn⟩) (k0_pay2 (F := Ideal)) q).trans ?_
    refine Eq.trans ?_ (Fin.sum_univ_castSucc _).symm
    rw [Fin.sum_univ_zero]
    exact congrArg₂ (· + ·) (pay2_apply q) rfl
  | n + 1, hn, q => by
    refine (congrFun (scratch1_next V c ⟨n + 1, hn⟩ (Nat.succ_ne_zero n)) (ix2 (0 : Fin 1) q)).trans ?_
    refine (pay5_apply (iblk0 V c 0 ⟨n + 1, hn⟩) (iblk0 V c 1 ⟨n + 1, hn⟩) (iblk0 V c 2 ⟨n + 1, hn⟩)
      (outsAt0 V c ((⟨n + 1, hn⟩ : Fin cfg0.N).val - 1) (prev_lt0 ⟨n + 1, hn⟩)).2.2.2 q).trans ?_
    refine Eq.trans ?_ (Fin.sum_univ_castSucc _).symm
    exact congrArg₂ (· + ·) (scratch1_sum c n (Nat.lt_of_succ_lt hn) q) rfl

/-- The first result array ends holding, in column q, the total of the column sums over all eight points. -/
theorem final0_3 (c : Dev nD) (q : Fin 256) :
    (dat0 V c).arrAt 3 cfg0.N (ix2 (0 : Fin 1) q)
      = ∑ t : Fin 8, colBlock0 V c t.val (lt_of_lt_of_eq t.isLt N0_eq.symm) q := by
  rw [final0_3_row V c, row0_3_eq_scratch V c]
  exact scratch0_sum V c 7 t0_7.isLt q

/-- The second result array ends holding, in column q, the total of the column sums of squares over all eight points. -/
theorem final0_4 (c : Dev nD) (q : Fin 256) :
    (dat0 V c).arrAt 4 cfg0.N (ix2 (0 : Fin 1) q)
      = ∑ t : Fin 8, colBlockSq0 V c t.val (lt_of_lt_of_eq t.isLt N0_eq.symm) q := by
  rw [final0_4_row V c, row0_4_eq_scratch V c]
  exact scratch1_sum V c 7 t0_7.isLt q

/-- Every index of a [1, 256] row is (0, q). -/
theorem idx_row (j : (⟨2, ![1, 256]⟩ : Shape).Idx) : j = ix2 (0 : Fin 1) (j 1) := by
  funext a
  match a with
  | ⟨0, _⟩ => exact Fin.ext (by have h := idx2_lt0 j; show (j 0).val = 0; omega)
  | ⟨1, _⟩ => rfl

/-- The first result array at any of its indices: the total at the index's column. -/
theorem final0_3_at (c : Dev nD) (j : (⟨2, ![1, 256]⟩ : Shape).Idx) :
    (dat0 V c).arrAt 3 cfg0.N j = ∑ t : Fin 8, colBlock0 V c t.val (lt_of_lt_of_eq t.isLt N0_eq.symm) (j 1) := by
  exact (congrArg ((dat0 V c).arrAt 3 cfg0.N) (idx_row j)).trans (final0_3 V c (j 1))

/-- The second result array at any of its indices. -/
theorem final0_4_at (c : Dev nD) (j : (⟨2, ![1, 256]⟩ : Shape).Idx) :
    (dat0 V c).arrAt 4 cfg0.N j = ∑ t : Fin 8, colBlockSq0 V c t.val (lt_of_lt_of_eq t.isLt N0_eq.symm) (j 1) := by
  exact (congrArg ((dat0 V c).arrAt 4 cfg0.N) (idx_row j)).trans (final0_4 V c (j 1))

end Cert.KernelIdeal.Hand

end
-- ==== Proof.KI.Blocks0.lean ====
/-
  The statistics kernel's blocks read as entries of the arrays the region finds.  Point t's block of the flattened activation
  is its rows 1344·t … 1344·t + 1343; the weight matrix, the bias row and the two result rows are each one whole block.
-/
import proofs.«102013_j71923522339050_1_alg».proof.Proof.KI.R0Base
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (V : (c : Dev nD) → (b : Ref sig .tc) → Buf (Elt F) ((c : Thread nD τ).loc b))

/-- The printed index maps over the grid: the activation's block index is the point, every other window's is zero. -/
theorem idx0_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- Entry (p, k) of point t's activation block is entry (1344·t + p, k) of the flattened activation. -/
theorem iblk0_0_apply (c : Dev nD) (t : Fin cfg0.N) (p : Fin 1344) (k : Fin 128) (r : Fin 10752) (hr : r.val = 1344 * t.val + p.val) :
    iblk0 V c 0 t (ix2 p k) = V c (Pipeline.arrRef spec0 0) (ix2 r k) := by
  show V c (Pipeline.arrRef spec0 0) (((cfg0.win 0).blk t).view.emb (ix2 p k)) = _
  refine congrArg _ ?_
  obtain ⟨e0, e1, -⟩ := idx0_facts t
  funext a; apply Fin.ext
  match a with
  | ⟨0, _⟩ => show win0_0.index t (0 : Fin 2) * 1344 + 1 * p.val = r.val; omega
  | ⟨1, _⟩ => show win0_0.index t (1 : Fin 2) * 128 + 1 * k.val = k.val; omega

/-- The weight window's block is the whole weight matrix. -/
theorem iblk0_1_apply (c : Dev nD) (t : Fin cfg0.N) (k : Fin 128) (q : Fin 256) :
    iblk0 V c 1 t (ix2 k q) = V c (Pipeline.arrRef spec0 1) (ix2 k q) := by
  show V c (Pipeline.arrRef spec0 1) (((cfg0.win 1).blk t).view.emb (ix2 k q)) = _
  refine congrArg _ ?_
  obtain ⟨-, -, e0, e1, -⟩ := idx0_facts t
  funext a; apply Fin.ext
  match a with
  | ⟨0, _⟩ => show win0_1.index t (0 : Fin 2) * 128 + 1 * k.val = k.val; omega
  | ⟨1, _⟩ => show win0_1.index t (1 : Fin 2) * 256 + 1 * q.val = q.val; omega

/-- The bias window's block is the whole bias row. -/
theorem iblk0_2_apply (c : Dev nD) (t : Fin cfg0.N) (z : Fin 1) (q : Fin 256) :
    iblk0 V c 2 t (ix2 z q) = V c (Pipeline.arrRef spec0 2) (ix2 z q) := by
  show V c (Pipeline.arrRef spec0 2) (((cfg0.win 2).blk t).view.emb (ix2 z q)) = _
  refine congrArg _ ?_
  obtain ⟨-, -, -, -, e0, e1, -⟩ := idx0_facts t
  funext a; apply Fin.ext
  match a with
  | ⟨0, _⟩ => show win0_2.index t (0 : Fin 2) * 1 + 1 * z.val = z.val; omega
  | ⟨1, _⟩ => show win0_2.index t (1 : Fin 2) * 256 + 1 * q.val = q.val; omega

end Cert.KernelIdeal.Hand

end
-- ==== Proof.LibBlockSum.lean ====
/-
  A general lemma on sums: a sum over the a·b rows of a matrix may be taken block by block, a blocks of b consecutive rows.
-/
import Mathlib.Algebra.BigOperators.Fin
import Mathlib.Logic.Equiv.Fin.Basic

namespace Cert.LibBlockSum

open scoped BigOperators

/-- Row j of block i of an a-by-b blocking is a row of the whole. -/
theorem lt_blocks {a b i j : ℕ} (hi : i < a) (hj : j < b) : b * i + j < a * b :=
  calc b * i + j < b * i + b := by omega
    _ = b * (i + 1) := (Nat.mul_succ b i).symm
    _ ≤ b * a := Nat.mul_le_mul_left b hi
    _ = a * b := Nat.mul_comm b a

/-- The sum over all a·b rows is the sum over the a blocks of the sums over each block's b rows. -/
theorem sum_blocks {M : Type*} [AddCommMonoid M] (a b : ℕ) (g : Fin (a * b) → M) :
    ∑ i : Fin a, ∑ j : Fin b, g ⟨b * i.val + j.val, lt_blocks i.isLt j.isLt⟩ = ∑ r : Fin (a * b), g r := by
  rw [← Equiv.sum_comp finProdFinEquiv g, Fintype.sum_prod_type]
  refine Finset.sum_congr rfl fun i _ => Finset.sum_congr rfl fun j _ => congrArg g (Fin.ext ?_)
  simp only [finProdFinEquiv_apply_val]
  omega

end Cert.LibBlockSum
-- ==== Proof.SpecBlocks.lean ====
/-
  The column sums of Y taken block by block — eight blocks of 1344 consecutive rows, as the statistics kernel accumulates
  them — are the column sums over all 10752 rows.
-/
import proofs.«102013_j71923522339050_1_alg».proof.Proof.Spec
import proofs.«102013_j71923522339050_1_alg».proof.Proof.LibBlockSum

noncomputable section

namespace Cert.Spec

open Idealize.ShloMosaic
open scoped BigOperators

variable (X : Row → Fin 128 → EReal) (W : Fin 128 → Fin 256 → EReal) (bias : Fin 256 → EReal)

/-- Row p of block t. -/
def blockRow (t : Fin 8) (p : Fin 1344) : Row := ⟨1344 * t.val + p.val, Cert.LibBlockSum.lt_blocks (a := 8) (b := 1344) t.isLt p.isLt⟩

theorem blockRow_val (t : Fin 8) (p : Fin 1344) : (blockRow t p).val = 1344 * t.val + p.val := rfl

theorem colSum_blocks (f : Fin 256) :
    ∑ t : Fin 8, ∑ p : Fin 1344, Y X W bias (blockRow t p) f = colSum X W bias f :=
  Cert.LibBlockSum.sum_blocks 8 1344 (fun r : Fin (8 * 1344) => Y X W bias r f)

theorem colSumSq_blocks (f : Fin 256) :
    ∑ t : Fin 8, ∑ p : Fin 1344, Y X W bias (blockRow t p) f * Y X W bias (blockRow t p) f = colSumSq X W bias f :=
  Cert.LibBlockSum.sum_blocks 8 1344 (fun r : Fin (8 * 1344) => Y X W bias r f * Y X W bias r f)

end Cert.Spec

end
-- ==== Proof.KI.Bridge.lean ====
/-
  The kernel program's result, entry by entry, is the specification's kernel arrangement of the program's arguments.

  Walking the run's boundaries back: the result is the reshape of the array the normalising kernel leaves; that array's entry
  (r, f) is max(Y·scale + shift, 0) of the arrays that kernel finds; those are the shifted and flattened activation, the
  weights and the bias as the first host stretches left them, and the scale and shift rows the host operations between the
  kernels computed from the two rows of sums; and those two rows are what the statistics kernel leaves: the column sums of Y
  and of Y², accumulated over its eight row blocks, which are the column sums over all rows.
-/
import proofs.«102013_j71923522339050_1_alg».proof.Proof.KI.Chain
import proofs.«102013_j71923522339050_1_alg».proof.Proof.KI.HostStages
import proofs.«102013_j71923522339050_1_alg».proof.Proof.KI.Value1Pay
import proofs.«102013_j71923522339050_1_alg».proof.Proof.KI.Value0
import proofs.«102013_j71923522339050_1_alg».proof.Proof.KI.Blocks0
import proofs.«102013_j71923522339050_1_alg».proof.Proof.SpecBlocks

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.ValueIdx
open scoped BigOperators

variable (m : (ℓ : Loc nD τ sig) → Buf (Elt Ideal) ℓ) (ρ : Dev nD → PrngReg) (c : Dev nD)

/-! ## The arguments as the specification takes them -/

abbrev argX : S8x64x21x128.Idx → EReal := m ((c : Thread nD τ).loc main_arg0)
abbrev argW : S128x256.Idx → EReal := m ((c : Thread nD τ).loc main_arg1)
abbrev argB : S256.Idx → EReal := m ((c : Thread nD τ).loc main_arg2)
abbrev argG : S256.Idx → EReal := m ((c : Thread nD τ).loc main_arg3)
abbrev argBe : S256.Idx → EReal := m ((c : Thread nD τ).loc main_arg4)

/-- The shifted, flattened activation. -/
def Xs : Cert.Spec.Row → Fin 128 → EReal := Cert.Spec.shifted (argX m c)
def Ws : Fin 128 → Fin 256 → EReal := fun k f => argW m c (ix2 k f)
def Bs : Fin 256 → EReal := fun f => argB m c (ix1 f)
def Gs : Fin 256 → EReal := fun f => argG m c (ix1 f)
def BEs : Fin 256 → EReal := fun f => argBe m c (ix1 f)
/-- The row count and the variance's offset, as the program spells them. -/
abbrev NLit : EReal := Ideal.ofBits .f32 0x46280000#32
abbrev eLit : EReal := Ideal.ofBits .f32 0x3A83126F#32

/-! ## What the statistics kernel finds -/

theorem r0_X (r : Fin 10752) (k : Fin 128) :
    (Vr0 m ρ c (Pipeline.arrRef spec0 0) : S10752x128.Idx → EReal) (ix2 r k) = Xs m c r k :=
  stage_xflat (W0 m ρ c) r k

theorem r0_W (k : Fin 128) (f : Fin 256) :
    (Vr0 m ρ c (Pipeline.arrRef spec0 1) : S128x256.Idx → EReal) (ix2 k f) = Ws m c k f := by
  show (W3 m ρ c (Proc.devRef .tc main_arg1) : S128x256.Idx → EReal) (ix2 k f) = _
  rw [W3_main_arg1]; rfl

theorem r0_B (f : Fin 256) :
    (Vr0 m ρ c (Pipeline.arrRef spec0 2) : S1x256.Idx → EReal) (ix2 0 f) = Bs m c f :=
  stage_bias (W0 m ρ c) f

/-- An entry of Y computed from point t's blocks is the entry of Y in row p of block t. -/
theorem pay3_block (t : Fin 8) (p : Fin 1344) (q : Fin 256) :
    k0_pay3 (F := Ideal) (iblk0 (Vr0 m ρ) c 0 ⟨t.val, lt_of_lt_of_eq t.isLt N0_eq.symm⟩) (iblk0 (Vr0 m ρ) c 1 ⟨t.val, lt_of_lt_of_eq t.isLt N0_eq.symm⟩) (iblk0 (Vr0 m ρ) c 2 ⟨t.val, lt_of_lt_of_eq t.isLt N0_eq.symm⟩) (ix2 p q)
      = Cert.Spec.Y (Xs m c) (Ws m c) (Bs m c) (Cert.Spec.blockRow t p) q := by
  refine (pay3_apply _ _ _ p q).trans ?_
  unfold Cert.Spec.Y
  refine congrArg₂ (· + ·) (Finset.sum_congr rfl fun k _ => congrArg₂ (· * ·) ?_ ?_) ?_
  · exact (iblk0_0_apply (Vr0 m ρ) c ⟨t.val, lt_of_lt_of_eq t.isLt N0_eq.symm⟩ p k (Cert.Spec.blockRow t p) rfl).trans (r0_X m ρ c _ k)
  · exact (iblk0_1_apply (Vr0 m ρ) c ⟨t.val, lt_of_lt_of_eq t.isLt N0_eq.symm⟩ k q).trans (r0_W m ρ c k q)
  · exact (iblk0_2_apply (Vr0 m ρ) c ⟨t.val, lt_of_lt_of_eq t.isLt N0_eq.symm⟩ 0 q).trans (r0_B m ρ c q)

/-! ## What the statistics kernel leaves -/

theorem sums_row (q : Fin 256) :
    (W4 m ρ c (Proc.devRef .tc main_v4_0) : S1x256.Idx → EReal) (ix2 0 q) = Cert.Spec.colSum (Xs m c) (Ws m c) (Bs m c) q := by
  have h1 : (∑ t : Fin 8, colBlock0 (Vr0 m ρ) c t.val (lt_of_lt_of_eq t.isLt N0_eq.symm) q : EReal)
      = Cert.Spec.colSum (Xs m c) (Ws m c) (Bs m c) q := by
    refine Eq.trans ?_ (Cert.Spec.colSum_blocks _ _ _ q)
    refine Finset.sum_congr rfl fun t _ => ?_
    unfold colBlock0
    exact Finset.sum_congr rfl fun p _ => pay3_block m ρ c t p q
  rw [W4_main_v4_0]
  exact (final0_3 (Vr0 m ρ) c q).trans h1

theorem sqsums_row (q : Fin 256) :
    (W4 m ρ c (Proc.devRef .tc main_v4_1) : S1x256.Idx → EReal) (ix2 0 q) = Cert.Spec.colSumSq (Xs m c) (Ws m c) (Bs m c) q := by
  have h1 : (∑ t : Fin 8, colBlockSq0 (Vr0 m ρ) c t.val (lt_of_lt_of_eq t.isLt N0_eq.symm) q : EReal)
      = Cert.Spec.colSumSq (Xs m c) (Ws m c) (Bs m c) q := by
    refine Eq.trans ?_ (Cert.Spec.colSumSq_blocks _ _ _ q)
    refine Finset.sum_congr rfl fun t _ => ?_
    unfold colBlockSq0
    exact Finset.sum_congr rfl fun p _ => congrArg₂ (· * ·) (pay3_block m ρ c t p q) (pay3_block m ρ c t p q)
  rw [W4_main_v4_1]
  exact (final0_4 (Vr0 m ρ) c q).trans h1

/-! ## What the normalising kernel finds -/

theorem r1_X (r : Fin 10752) (k : Fin 128) : arrX1 (Vr1 m ρ) c (ix2 r k) = Xs m c r k := by
  show (W5 m ρ c (Proc.devRef .tc main_v2) : S10752x128.Idx → EReal) (ix2 r k) = _
  rw [W5_main_v2]
  exact stage_xflat (W0 m ρ c) r k

theorem r1_W (k : Fin 128) (f : Fin 256) : arrW1 (Vr1 m ρ) c (ix2 k f) = Ws m c k f := by
  show (W5 m ρ c (Proc.devRef .tc main_arg1) : S128x256.Idx → EReal) (ix2 k f) = _
  rw [W5_main_arg1]; rfl

theorem r1_B (f : Fin 256) : arrB1 (Vr1 m ρ) c (ix2 0 f) = Bs m c f := by
  show (W5 m ρ c (Proc.devRef .tc main_v3) : S1x256.Idx → EReal) (ix2 0 f) = _
  rw [W5_main_v3]
  exact stage_bias (W0 m ρ c) f

theorem r1_scale (f : Fin 256) :
    arrSC1 (Vr1 m ρ) c (ix2 0 f) = Cert.Spec.scale (Xs m c) (Ws m c) (Bs m c) (Gs m c) NLit eLit f := by
  refine (stage_scale (W4 m ρ c) f).trans ?_
  unfold hostScale hostMean Cert.Spec.scale Cert.Spec.varSq Cert.Spec.mean
  rw [sums_row, sqsums_row, W4_main_arg3]
  rfl

theorem r1_shift (f : Fin 256) :
    arrSH1 (Vr1 m ρ) c (ix2 0 f) = Cert.Spec.shift (Xs m c) (Ws m c) (Bs m c) (Gs m c) (BEs m c) NLit eLit f := by
  refine (stage_shift (W4 m ρ c) f).trans ?_
  unfold hostShift hostScale hostMean Cert.Spec.shift Cert.Spec.scale Cert.Spec.varSq Cert.Spec.mean
  rw [sums_row, sqsums_row, W4_main_arg3, W4_main_arg4]
  rfl

/-! ## The result -/

/-- Entry (i0, i1, i2, f) of the kernel program's result is the kernel arrangement at row (i0, i1, i2), column f. -/
theorem kerOut_apply (i0 : Fin 8) (i1 : Fin 64) (i2 : Fin 21) (f : Fin 256) :
    (W7 m ρ c (Proc.devRef .tc main_v22) : S8x64x21x256.Idx → EReal) (ix4 i0 i1 i2 f)
      = Cert.Spec.kerE (Xs m c) (Ws m c) (Bs m c) (Gs m c) (BEs m c) NLit eLit (Cert.Spec.rowOf i0 i1 i2) f := by
  refine (stage_out (W6 m ρ c) i0 i1 i2 f).trans ?_
  rw [W6_main_v21]
  refine (final1_5 (Vr1 m ρ) c (Cert.Spec.rowOf i0 i1 i2) f).trans ?_
  have hY : (∑ k : Fin 128, arrX1 (Vr1 m ρ) c (ix2 (Cert.Spec.rowOf i0 i1 i2) k) * arrW1 (Vr1 m ρ) c (ix2 k f)) + arrB1 (Vr1 m ρ) c (ix2 0 f)
      = Cert.Spec.Y (Xs m c) (Ws m c) (Bs m c) (Cert.Spec.rowOf i0 i1 i2) f := by
    unfold Cert.Spec.Y
    exact congrArg₂ (· + ·) (Finset.sum_congr rfl fun k _ => congrArg₂ (· * ·) (r1_X m ρ c _ k) (r1_W m ρ c k f)) (r1_B m ρ c f)
  rw [hY, r1_scale, r1_shift]
  rfl

end Cert.KernelIdeal.Hand

end
-- ==== Proof.LibBatchNorm.lean ====
/-
  General facts for a per-column normalisation stated over the extended reals.

  * The coercion of the reals into the extended reals commutes with finite sums.
  * For finitely many reals y i with n = the number of them and m = (∑ y) / n, the mean of the squared
    deviations (∑ (y i − m)²) / n equals the mean of the squares minus the squared mean, (∑ y i²) / n − m².
    Division is spelled as multiplication by 1 / n, the form a division by a nonzero real takes on the
    extended reals.
  * The mean of the squared deviations is nonnegative.
  * The reciprocal square root of a positive real is a real.
-/
import Idealize.ShloMosaic.PureOps.Ideal

namespace Cert.LibBatchNorm

open Idealize.ShloMosaic
open scoped BigOperators

/-- The coercion of a finite sum of reals is the sum of the coercions. -/
theorem coe_sum {ι : Type*} (s : Finset ι) (g : ι → ℝ) :
    ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-- The mean of the squared deviations from the mean is the mean of the squares minus the squared mean:
    with m = (∑ y) · (1/n) and n the number of terms, (∑ (y i − m)²) · (1/n) = (∑ y i²) · (1/n) − m². -/
theorem mean_sq_dev {ι : Type*} [Fintype ι] (y : ι → ℝ) (n : ℝ) (hn : n ≠ 0)
    (hcard : (Fintype.card ι : ℝ) = n) :
    (∑ i, (y i - (∑ j, y j) * (1 / n)) * (y i - (∑ j, y j) * (1 / n))) * (1 / n)
      = (∑ i, y i * y i) * (1 / n) - ((∑ j, y j) * (1 / n)) * ((∑ j, y j) * (1 / n)) := by
  generalize hm : (∑ j, y j) * (1 / n) = m
  have h1 : ∑ i, (y i - m) * (y i - m) = (∑ i, y i * y i) - 2 * m * (∑ i, y i) + n * (m * m) := by
    have h : ∀ i, (y i - m) * (y i - m) = y i * y i - 2 * m * y i + m * m := fun i => by ring
    simp only [h, Finset.sum_add_distrib, Finset.sum_sub_distrib, ← Finset.mul_sum, Finset.sum_const,
      Finset.card_univ, nsmul_eq_mul, hcard]
    ring
  rw [h1, ← hm]
  field_simp
  ring

/-- The mean of the squared deviations is nonnegative when the divisor is positive. -/
theorem mean_sq_dev_nonneg {ι : Type*} [Fintype ι] (y : ι → ℝ) (m n : ℝ) (hn : 0 < n) :
    0 ≤ (∑ i, (y i - m) * (y i - m)) * (1 / n) :=
  mul_nonneg (Finset.sum_nonneg fun i _ => mul_self_nonneg _) (by positivity)

/-- The reciprocal square root of a positive real is the real 1 / √r. -/
theorem rsqrt_coe_pos {r : ℝ} (hr : 0 < r) :
    Ideal.rsqrt (r : EReal) = (((Real.sqrt r)⁻¹ : ℝ) : EReal) := by
  rw [Ideal.rsqrt_coe, if_neg (not_lt.mpr hr.le), if_neg hr.ne']

end Cert.LibBatchNorm
-- ==== Proof.SpecLaws.lean ====
/-
  The laws of the specification: on finite inputs the reference's arrangement and the kernel's arrangement of the
  normalised, clipped product are the same function.

  Every entry of X, W, bias, γ and β is a real, the row count N is the real 10752 and the offset e is a positive
  real ε.  Then Y is a matrix of reals y, the column mean is the real m = (∑ y)/10752, and both variances are reals:
  the mean of the squared deviations (∑ (y − m)²)/10752 and the mean of the squares minus the squared mean
  (∑ y²)/10752 − m².  These are equal (expand the square: ∑ (y − m)² = ∑ y² − 2m∑ y + 10752·m² and ∑ y = 10752·m),
  and nonnegative (a mean of squares), so v + ε is a positive real, its reciprocal square root is the real
  s = 1/√(v + ε), and (y − m)·s·γ + β = y·(γ·s) + (β − m·(γ·s)) is an identity of reals.
-/
import proofs.«102013_j71923522339050_1_alg».proof.Proof.Spec
import proofs.«102013_j71923522339050_1_alg».proof.Proof.LibBatchNorm

noncomputable section

namespace Cert.Spec

open Idealize.ShloMosaic
open scoped BigOperators
open Cert.LibBatchNorm

section Reals

variable (x : Row → Fin 128 → ℝ) (w : Fin 128 → Fin 256 → ℝ) (b g be : Fin 256 → ℝ)

/-- Y over the reals. -/
def yR (r : Row) (f : Fin 256) : ℝ := (∑ c : Fin 128, x r c * w c f) + b f
/-- The column mean over the reals. -/
def meanR (f : Fin 256) : ℝ := (∑ r : Row, yR x w b r f) * (1 / 10752)
/-- The mean of the squared deviations over the reals. -/
def varDevR (f : Fin 256) : ℝ :=
  (∑ r : Row, (yR x w b r f - meanR x w b f) * (yR x w b r f - meanR x w b f)) * (1 / 10752)
/-- The mean of the squares minus the squared mean, over the reals. -/
def varSqR (f : Fin 256) : ℝ :=
  (∑ r : Row, yR x w b r f * yR x w b r f) * (1 / 10752) - meanR x w b f * meanR x w b f

/-- The two variances are the same real. -/
theorem varDevR_eq_varSqR (f : Fin 256) : varDevR x w b f = varSqR x w b f := by
  unfold varDevR varSqR meanR
  exact mean_sq_dev (fun r => yR x w b r f) 10752 (by norm_num) (by simp [Row])

/-- The variance is nonnegative. -/
theorem varDevR_nonneg (f : Fin 256) : 0 ≤ varDevR x w b f :=
  mean_sq_dev_nonneg _ _ 10752 (by norm_num)

local notation "cX" => (fun (r : Row) (c : Fin 128) => ((x r c : ℝ) : EReal))
local notation "cW" => (fun (c : Fin 128) (f : Fin 256) => ((w c f : ℝ) : EReal))
local notation "cB" => (fun (f : Fin 256) => ((b f : ℝ) : EReal))
local notation "cN" => (((10752 : ℝ)) : EReal)

theorem Y_coe (r : Row) (f : Fin 256) : Y cX cW cB r f = ((yR x w b r f : ℝ) : EReal) := by
  unfold Y yR
  rw [EReal.coe_add, coe_sum]
  simp only [EReal.coe_mul]

theorem colSum_coe (f : Fin 256) : colSum cX cW cB f = ((∑ r : Row, yR x w b r f : ℝ) : EReal) := by
  unfold colSum
  rw [coe_sum]
  simp only [Y_coe]

theorem colSumSq_coe (f : Fin 256) :
    colSumSq cX cW cB f = ((∑ r : Row, yR x w b r f * yR x w b r f : ℝ) : EReal) := by
  unfold colSumSq
  rw [coe_sum]
  simp only [Y_coe, EReal.coe_mul]

theorem mean_coe (f : Fin 256) : mean cX cW cB cN f = ((meanR x w b f : ℝ) : EReal) := by
  unfold mean meanR
  rw [Ideal.div_coe (by norm_num), colSum_coe, ← EReal.coe_mul]

theorem varDev_coe (f : Fin 256) : varDev cX cW cB cN f = ((varDevR x w b f : ℝ) : EReal) := by
  unfold varDev varDevR
  rw [Ideal.div_coe (by norm_num), EReal.coe_mul, coe_sum]
  simp only [Y_coe, mean_coe, ← EReal.coe_sub, ← EReal.coe_mul]

theorem varSq_coe (f : Fin 256) : varSq cX cW cB cN f = ((varSqR x w b f : ℝ) : EReal) := by
  unfold varSq varSqR
  rw [Ideal.div_coe (by norm_num), colSumSq_coe, mean_coe, ← EReal.coe_mul, ← EReal.coe_mul, ← EReal.coe_sub]

end Reals

variable (X : Row → Fin 128 → EReal) (W : Fin 128 → Fin 256 → EReal) (bias γ β : Fin 256 → EReal) (N e : EReal)

/-- On real inputs and with N = 10752, the mean of the squared deviations is the mean of the squares minus the
    squared mean. -/
theorem varDev_eq_varSq
    (hX : ∀ r c, ∃ v : ℝ, X r c = (v : EReal)) (hW : ∀ c f, ∃ v : ℝ, W c f = (v : EReal))
    (hb : ∀ f, ∃ v : ℝ, bias f = (v : EReal)) (hN : N = ((10752 : ℝ) : EReal)) (f : Fin 256) :
    varDev X W bias N f = varSq X W bias N f := by
  choose x hx using hX
  choose w hw using hW
  choose b hb' using hb
  obtain rfl : X = fun r c => ((x r c : ℝ) : EReal) := funext fun r => funext fun c => hx r c
  obtain rfl : W = fun c f => ((w c f : ℝ) : EReal) := funext fun c => funext fun f => hw c f
  obtain rfl : bias = fun f => ((b f : ℝ) : EReal) := funext fun f => hb' f
  subst hN
  rw [varDev_coe, varSq_coe, varDevR_eq_varSqR]

/-- On real inputs and with N = 10752, the variance (in either form) is a nonnegative real. -/
theorem varSq_real
    (hX : ∀ r c, ∃ v : ℝ, X r c = (v : EReal)) (hW : ∀ c f, ∃ v : ℝ, W c f = (v : EReal))
    (hb : ∀ f, ∃ v : ℝ, bias f = (v : EReal)) (hN : N = ((10752 : ℝ) : EReal)) (f : Fin 256) :
    ∃ v : ℝ, 0 ≤ v ∧ varSq X W bias N f = (v : EReal) := by
  choose x hx using hX
  choose w hw using hW
  choose b hb' using hb
  obtain rfl : X = fun r c => ((x r c : ℝ) : EReal) := funext fun r => funext fun c => hx r c
  obtain rfl : W = fun c f => ((w c f : ℝ) : EReal) := funext fun c => funext fun f => hw c f
  obtain rfl : bias = fun f => ((b f : ℝ) : EReal) := funext fun f => hb' f
  subst hN
  exact ⟨varSqR x w b f, (varDevR_eq_varSqR x w b f) ▸ varDevR_nonneg x w b f, varSq_coe x w b f⟩

/-- On finite inputs the reference's arrangement and the kernel's arrangement agree. -/
theorem refE_eq_kerE (ε : ℝ)
    (hX : ∀ r c, ∃ v : ℝ, X r c = (v : EReal)) (hW : ∀ c f, ∃ v : ℝ, W c f = (v : EReal))
    (hb : ∀ f, ∃ v : ℝ, bias f = (v : EReal)) (hg : ∀ f, ∃ v : ℝ, γ f = (v : EReal))
    (hβ : ∀ f, ∃ v : ℝ, β f = (v : EReal))
    (hN : N = ((10752 : ℝ) : EReal)) (he : e = ((ε : ℝ) : EReal)) (hε : 0 < ε)
    (r : Row) (f : Fin 256) :
    refE X W bias γ β N e r f = kerE X W bias γ β N e r f := by
  choose x hx using hX
  choose w hw using hW
  choose b hb' using hb
  choose g hg' using hg
  choose be hbe using hβ
  obtain rfl : X = fun r c => ((x r c : ℝ) : EReal) := funext fun r => funext fun c => hx r c
  obtain rfl : W = fun c f => ((w c f : ℝ) : EReal) := funext fun c => funext fun f => hw c f
  obtain rfl : bias = fun f => ((b f : ℝ) : EReal) := funext fun f => hb' f
  subst hN he
  have hv : 0 < varDevR x w b f + ε := add_pos_of_nonneg_of_pos (varDevR_nonneg x w b f) hε
  unfold refE kerE shift scale
  rw [← varDev_eq_varSq _ _ _ _ (fun r c => ⟨_, rfl⟩) (fun c f => ⟨_, rfl⟩) (fun f => ⟨_, rfl⟩) rfl f,
    varDev_coe, Y_coe, mean_coe, hg' f, hbe f, ← EReal.coe_add, rsqrt_coe_pos hv]
  simp only [← EReal.coe_sub, ← EReal.coe_mul, ← EReal.coe_add]
  congr 2
  ring

end Cert.Spec

end
-- ==== Proof.Finite.lean ====
/-
  From the precondition to real entries.

  The precondition is five conjuncts, one per float argument: every entry a of the array satisfies |a| < +∞,
  all entries and-ed together.  An extended real whose absolute value max(a, −a) is below +∞ is neither +∞ nor −∞,
  so it is a real.  Hence under the precondition every entry of every argument is a real.
-/
import proofs.«102013_j71923522339050_1_alg».proof.Pre_finite_inputs
import Idealize.ShloMosaic.PureOps.Ideal
import Idealize.ShloMosaic.Lib.ValueIdx
import Idealize.ShloMosaic.Lib.ReduceAll

noncomputable section

namespace Cert.Finite

open Idealize.ShloMosaic
open Cert.Pre_finite_inputs

/-- The rank-0 shape has one index. -/
instance : Subsingleton S_.Idx := ⟨fun a b => funext fun d => d.elim0⟩

/-- The pattern 0x7F800000 denotes +∞. -/
theorem ofBits_inf : Ideal.ofBits .f32 0x7F800000#32 = ⊤ := by simp [Ideal.ofBits, Ideal.ieee]

/-- An extended real whose absolute value is below +∞ is a real. -/
theorem real_of_abs_lt_inf (a : EReal)
    (h : Ideal.cmp .olt (max a (-a)) (Ideal.ofBits .f32 0x7F800000#32) = 1#1) : ∃ v : ℝ, a = (v : EReal) := by
  rw [ofBits_inf] at h
  induction a using EReal.rec with
  | bot => simp [Ideal.cmp] at h
  | coe v => exact ⟨v, rfl⟩
  | top => simp [Ideal.cmp] at h

/-- One conjunct of the precondition: if "every entry has absolute value below +∞" reduces to 1, every entry of the
    array is a real. -/
theorem real_of_all {s : Shape} {axes : List (Fin s.rank)} (x : FVec Ideal s .f32)
    (hb : S_.BroadcastsInDim s (![] : Fin 0 → Fin s.rank)) (hr : s.ReducesTo axes S_) (hu : 0 < S_.numel)
    (init : IVec S_ 1)
    (h : Host.reduce IntOp.andi
          (cmpf .olt (Host.absf x) (broadcastInDim s ![] hb (constant (F := Ideal) S_ .f32 0x7F800000#32)))
          init hr hu ValueIdx.ix0 = 1#1) (i : s.Idx) : ∃ v : ℝ, x i = (v : EReal) :=
  real_of_abs_lt_inf (x i) (Host.reduce_andi_all _ init hr hu ValueIdx.ix0 h i)

/-- Under the precondition every entry of every float argument is a real. -/
theorem of_pre [Cert.Pre_finite_inputs.Facts] (x : FVec Ideal S8x64x21x128 .f32) (w : FVec Ideal S128x256 .f32)
    (b g be : FVec Ideal S256 .f32)
    (h : Cert.Pre_finite_inputs.fn (F := Ideal) x w b g be = (fun _ => 1#1)) :
    (∀ i, ∃ v : ℝ, x i = (v : EReal)) ∧ (∀ i, ∃ v : ℝ, w i = (v : EReal)) ∧ (∀ i, ∃ v : ℝ, b i = (v : EReal))
      ∧ (∀ i, ∃ v : ℝ, g i = (v : EReal)) ∧ (∀ i, ∃ v : ℝ, be i = (v : EReal)) := by
  have h0 := congrFun h ValueIdx.ix0
  dsimp only [Cert.Pre_finite_inputs.fn, Cert.Pre_finite_inputs.fn_part1] at h0
  simp only [Idealize.ShloMosaic.andi, IntOp.andi_eq_one] at h0
  obtain ⟨⟨⟨⟨hx, hw⟩, hb⟩, hg⟩, hbe⟩ := h0
  exact ⟨real_of_all x _ _ _ _ hx, real_of_all w _ _ _ _ hw, real_of_all b _ _ _ _ hb,
    real_of_all g _ _ _ _ hg, real_of_all be _ _ _ _ hbe⟩

end Cert.Finite

end
-- ==== Proof.lean ====
/-
  A two-kernel batch-normalised 1×1 convolution against its plain reference, over the extended reals.

  Both programs shift every channel of the activation circularly along the 21 positions by an amount fixed by the channel,
  multiply the 10752 = 8·64·21 rows by the weight matrix and add the bias (Y), normalise every column of Y by its mean and
  variance over the rows, scale by γ, shift by β and clip below at zero.  The reference does it in one pass over Y with the
  variance as the mean of the squared deviations.  The kernel program never stores Y: a first kernel walks the rows in eight
  blocks and accumulates, in two scratch rows, the column sums of Y and of Y², copying them out at the last block; host
  operations turn the two sums into one scale and one shift per column (variance = mean of squares − squared mean); a second
  kernel recomputes Y block by block and writes max(Y·scale + shift, 0).

  The three frames: each kernel program is run segment by segment (host stretches and the two kernels) from the body obligations of its two kernels (the first
  kernel's invariant carries its two scratch rows from block to block); the reference's run is the composition of its host
  operations.  The idealization rewrote nothing, so `preserves` is `True`.  The algebraic claim: the kernel program's result,
  read off the end of its run, and the reference's, read off its run, are the two arrangements of one function
  (Proof/Spec.lean), equal wherever every input is a real number (Proof/SpecLaws.lean), which the precondition says.
-/
import proofs.«102013_j71923522339050_1_alg».proof.Defs
import proofs.«102013_j71923522339050_1_alg».proof.Proof.Gen.Kernel
import proofs.«102013_j71923522339050_1_alg».proof.Proof.Gen.KernelIdeal
import proofs.«102013_j71923522339050_1_alg».proof.Proof.Gen.ReferenceIdeal
import proofs.«102013_j71923522339050_1_alg».proof.Proof.Gen.Pre_finite_inputs
import proofs.«102013_j71923522339050_1_alg».proof.Proof.K.Run
import proofs.«102013_j71923522339050_1_alg».proof.Proof.KI.Run
import proofs.«102013_j71923522339050_1_alg».proof.Proof.RefValue
import proofs.«102013_j71923522339050_1_alg».proof.Proof.KI.Bridge
import proofs.«102013_j71923522339050_1_alg».proof.Proof.SpecLaws
import proofs.«102013_j71923522339050_1_alg».proof.Proof.Consts
import proofs.«102013_j71923522339050_1_alg».proof.Proof.Finite
import Idealize.ShloMosaic.Adequacy
import Idealize.ShloMosaic.Init

noncomputable section

namespace Cert.Proof

open Idealize.ShloMosaic Idealize.SL.Sem

/-- The word-level kernel program runs and leaves its arguments as launched. -/
theorem frame_k : Cert.frame_Kernel := fun m ρ _ => Cert.Kernel.Hand.frame m ρ

/-- The idealized kernel program runs and leaves its arguments as launched. -/
theorem frame_ki : Cert.frame_KernelIdeal := fun m ρ _ => Cert.KernelIdeal.Hand.frame m ρ

/-- The reference runs and leaves its arguments as launched: its run with the result dropped. -/
theorem frame_ri : Cert.frame_ReferenceIdeal := fun m ρ _ =>
  (θ_run Cert.ReferenceIdeal.defs _ _).mono (fun _ h c => (h c).2) (Cert.ReferenceIdeal.Hand.run (F := Ideal) m ρ)

/-- With every argument entry a real number, the reference's result and the kernel program's result are one array: entry
    by entry the first is the specification's reference arrangement, the second its kernel arrangement, and the two
    arrangements agree on real inputs. -/
theorem result_eq (m : (ℓ : Loc Cert.KernelIdeal.nD Cert.KernelIdeal.τ Cert.KernelIdeal.sig) → Buf (Elt Ideal) ℓ)
    (ρ : Dev Cert.KernelIdeal.nD → PrngReg) (c : Dev Cert.KernelIdeal.nD)
    (hpre : Cert.Pre_finite_inputs.fn (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) = (fun _ => 1#1)) :
    Cert.ReferenceIdeal.Hand.refOut (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      = (Cert.KernelIdeal.Hand.W7 m ρ c (Proc.devRef .tc Cert.KernelIdeal.main_v22) : Cert.KernelIdeal.S8x64x21x256.Idx → EReal) := by
  obtain ⟨hx, hw, hb, hg, hbe⟩ := Cert.Finite.of_pre _ _ _ _ _ hpre
  obtain ⟨ε, hε, he⟩ := Cert.Consts.ofBits_eps
  funext j
  obtain ⟨i0, i1, i2, f, rfl⟩ : ∃ (i0 : Fin 8) (i1 : Fin 64) (i2 : Fin 21) (f : Fin 256), j = ValueIdx.ix4 i0 i1 i2 f :=
    ⟨j 0, j 1, j 2, j 3, ValueIdx.eq_ix4 j⟩
  refine (Cert.ReferenceIdeal.Hand.refOut_apply _ _ _ _ _ i0 i1 i2 f).trans ?_
  refine Eq.trans ?_ (Cert.KernelIdeal.Hand.kerOut_apply m ρ c i0 i1 i2 f).symm
  exact Cert.Spec.refE_eq_kerE _ _ _ _ _ _ _ ε
    (fun r k => hx (ValueIdx.ix4 (Cert.Spec.bOf r) (Cert.Spec.tOf r) (Cert.Spec.src (Cert.Spec.nOf r) k) k))
    (fun k q => hw (ValueIdx.ix2 k q)) (fun q => hb (ValueIdx.ix1 q)) (fun q => hg (ValueIdx.ix1 q)) (fun q => hbe (ValueIdx.ix1 q))
    Cert.Consts.ofBits_N he hε (Cert.Spec.rowOf i0 i1 i2) f

/-- From memories agreeing on the arguments both idealized programs run and end with one and the same result array. -/
theorem algebraic : Cert.algebraic_KernelIdeal_ReferenceIdeal := by
  intro m ρ m' ρ' hpre hagree
  refine ⟨fun c => Cert.KernelIdeal.Hand.W7 m ρ c (Proc.devRef .tc Cert.KernelIdeal.main_v22), ?_, ?_⟩
  · exact (θ_run Cert.KernelIdeal.defs _ _).mono (fun r h c =>
      ⟨h c _ (Cert.KernelIdeal.Hand.mem_uc Cert.KernelIdeal.main_v22 (by decide)),
       (h c _ (Cert.KernelIdeal.Hand.mem_uc Cert.KernelIdeal.main_arg0 (by decide))).trans (Cert.KernelIdeal.Hand.W7_main_arg0 m ρ c),
       (h c _ (Cert.KernelIdeal.Hand.mem_uc Cert.KernelIdeal.main_arg1 (by decide))).trans (Cert.KernelIdeal.Hand.W7_main_arg1 m ρ c),
       (h c _ (Cert.KernelIdeal.Hand.mem_uc Cert.KernelIdeal.main_arg2 (by decide))).trans (Cert.KernelIdeal.Hand.W7_main_arg2 m ρ c),
       (h c _ (Cert.KernelIdeal.Hand.mem_uc Cert.KernelIdeal.main_arg3 (by decide))).trans (Cert.KernelIdeal.Hand.W7_main_arg3 m ρ c),
       (h c _ (Cert.KernelIdeal.Hand.mem_uc Cert.KernelIdeal.main_arg4 (by decide))).trans (Cert.KernelIdeal.Hand.W7_main_arg4 m ρ c)⟩)
      (Cert.KernelIdeal.Hand.run_all m ρ)
  · refine (θ_run Cert.ReferenceIdeal.defs _ _).mono (fun _ h c => ⟨(h c).1.trans ?_, (h c).2⟩)
      (Cert.ReferenceIdeal.Hand.run (F := Ideal) m' ρ')
    rw [(hagree c).1, (hagree c).2.1, (hagree c).2.2.1, (hagree c).2.2.2.1, (hagree c).2.2.2.2]
    exact result_eq m ρ c (hpre c)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
